-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x262144 : Shape := ⟨2, ![2, 262144]⟩
abbrev S3x128x128 : Shape := ⟨3, ![3, 128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8192x128 .f32) (main_arg1 : IVec S2x262144 32) (main_arg2 : FVec F S3x128x128 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8192x128 : Shape := ⟨2, ![8192, 128]⟩
abbrev S2x262144 : Shape := ⟨2, ![2, 262144]⟩
abbrev S3x128x128 : Shape := ⟨3, ![3, 128, 128]⟩
abbrev S128 : Shape := ⟨1, ![128]⟩
abbrev S_ : Shape := ⟨0, ![]⟩
abbrev S8192x8192 : Shape := ⟨2, ![8192, 8192]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1024x1024 : Shape := ⟨2, ![1024, 1024]⟩
abbrev S1024x128 : Shape := ⟨2, ![1024, 128]⟩
abbrev S1x8192x128 : Shape := ⟨3, ![1, 8192, 128]⟩
abbrev S3x8192x128 : Shape := ⟨3, ![3, 8192, 128]⟩
abbrev S1x128 : Shape := ⟨2, ![1, 128]⟩
abbrev S3x1024x128 : Shape := ⟨3, ![3, 1024, 128]⟩
abbrev S1x1024x128 : Shape := ⟨3, ![1, 1024, 128]⟩
abbrev S1x128x128 : Shape := ⟨3, ![1, 128, 128]⟩
abbrev S128x128 : Shape := ⟨2, ![128, 128]⟩

abbrev nBuf : Space → Nat
  | .hbm => 56
  | .vmem => 28
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S3x128x128, .f32⟩
  | .hbm, ⟨3, _⟩ => ⟨S128, .f32⟩
  | .hbm, ⟨4, _⟩ => ⟨S_, .f32⟩
  | .hbm, ⟨5, _⟩ => ⟨S8192x8192, .f32⟩
  | .hbm, ⟨6, _⟩ => ⟨S1x262144, .i32⟩
  | .hbm, ⟨7, _⟩ => ⟨S262144, .i32⟩
  | .hbm, ⟨8, _⟩ => ⟨S1x262144, .i32⟩
  | .hbm, ⟨9, _⟩ => ⟨S262144, .i32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .f32⟩
  | .hbm, ⟨28, _⟩ => ⟨S262144, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .i1⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192x1, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S_, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S1x8192x128, .f32⟩
  | .hbm, ⟨51, _⟩ => ⟨S1x8192x128, .f32⟩
  | .hbm, ⟨52, _⟩ => ⟨S1x8192x128, .f32⟩
  | .hbm, ⟨53, _⟩ => ⟨S3x8192x128, .f32⟩
  | .hbm, ⟨54, _⟩ => ⟨S1x128, .f32⟩
  | .hbm, ⟨55, _⟩ => ⟨S8192x128, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x1024, .f32⟩
  | .local _ .vmem, ⟨12, _⟩ => ⟨S1024x1024, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S3x1024x128, .f32⟩
  | .local _ .vmem, ⟨23, _⟩ => ⟨S3x1024x128, .f32⟩
  | .local _ .vmem, ⟨24, _⟩ => ⟨S3x128x128, .f32⟩
  | .local _ .vmem, ⟨25, _⟩ => ⟨S1x128, .f32⟩
  | .local _ .vmem, ⟨26, _⟩ => ⟨S1024x128, .f32⟩
  | .local _ .vmem, ⟨27, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_call0_v0 : Ref sig .tc := ⟨.hbm, 37, rfl⟩
abbrev main_call0_v1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_10 : BitVec 32 := 0#32
  let v20 : BitVec 1 := Scalar.cmpi .ne v19 c0_i32_10
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bcast_S_S8192x128 : S_.BroadcastsInDim S8192x128 (![] : Fin 0 → Fin S8192x128.rank)
  bcast_S8192x128_S1x8192x128_1_2 : S8192x128.BroadcastsInDim S1x8192x128 (![1, 2] : Fin 2 → Fin S1x8192x128.rank)
  concatenates_S1x8192x128_S1x8192x128_S1x8192x128_S3x8192x128_d0 : Shape.Concatenates [S1x8192x128, S1x8192x128, S1x8192x128] S3x8192x128 0
  shapeCasts_S128_S1x128 : S128.ShapeCasts S1x128
  inb_S3x1024x128_S1x1024x128_0_0_0 : ∀ a, (![0, 0, 0] : Fin 3 → Nat) a + S1x1024x128.size a ≤ S3x1024x128.size a
  h_S1x1024x128 : 0 < S1x1024x128.numel
  shapeCasts_S1x1024x128_S1024x128 : S1x1024x128.ShapeCasts S1024x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x1024x128_S1x1024x128_1_0_0 : ∀ a, (![1, 0, 0] : Fin 3 → Nat) a + S1x1024x128.size a ≤ S3x1024x128.size a
  inb_S3x128x128_S1x128x128_1_0_0 : ∀ a, (![1, 0, 0] : Fin 3 → Nat) a + S1x128x128.size a ≤ S3x128x128.size a
  inb_S3x1024x128_S1x1024x128_2_0_0 : ∀ a, (![2, 0, 0] : Fin 3 → Nat) a + S1x1024x128.size a ≤ S3x1024x128.size a
  inb_S3x128x128_S1x128x128_2_0_0 : ∀ a, (![2, 0, 0] : Fin 3 → Nat) a + S1x128x128.size a ≤ S3x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  scatter_S8192x8192_S262144x2_S262144_n_01_01_1_wf : ScatterDims.WF S8192x8192 S262144x2 S262144 [] [0, 1] [0, 1] 1
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3x1024x128.size a ≤ S3x8192x128.size a
  hwx2_0 : ∀ i : grid2.Coords, EltTy.bits .f32 = 32 ∨ (Rect.block (s := S3x8192x128) S3x1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x128x128.size a ≤ S3x128x128.size a
  hwx2_1 : ∀ i : grid2.Coords, EltTy.bits .f32 = 32 ∨ (Rect.block (s := S3x128x128) S3x128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S8192x128.size a
  hwx2_3 : ∀ i : grid2.Coords, EltTy.bits .f32 = 32 ∨ (Rect.block (s := S8192x128) S1024x128.size (cc2_transform_3 i) (hinb2_3 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v19) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v19) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v37) S3x1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S3x128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1024x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x128 : Shape := ⟨2, ![8192, 128]⟩
abbrev S2x262144 : Shape := ⟨2, ![2, 262144]⟩
abbrev S3x128x128 : Shape := ⟨3, ![3, 128, 128]⟩
abbrev S128 : Shape := ⟨1, ![128]⟩
abbrev S_ : Shape := ⟨0, ![]⟩
abbrev S8192x8192 : Shape := ⟨2, ![8192, 8192]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1x8192 : Shape := ⟨2, ![1, 8192]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S3x128x128, .f32⟩
  | .hbm, ⟨3, _⟩ => ⟨S128, .f32⟩
  | .hbm, ⟨4, _⟩ => ⟨S_, .f32⟩
  | .hbm, ⟨5, _⟩ => ⟨S8192x8192, .f32⟩
  | .hbm, ⟨6, _⟩ => ⟨S1x262144, .i32⟩
  | .hbm, ⟨7, _⟩ => ⟨S262144, .i32⟩
  | .hbm, ⟨8, _⟩ => ⟨S1x262144, .i32⟩
  | .hbm, ⟨9, _⟩ => ⟨S262144, .i32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .f32⟩
  | .hbm, ⟨28, _⟩ => ⟨S262144, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .i1⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S1x8192, .f32⟩
  | .hbm, ⟨44, _⟩ => ⟨S8192x8192, .f32⟩
  | .hbm, ⟨45, _⟩ => ⟨S8192x8192, .f32⟩
  | .hbm, ⟨46, _⟩ => ⟨S8192x8192, .i32⟩
  | .hbm, ⟨47, _⟩ => ⟨S8192x8192, .i32⟩
  | .hbm, ⟨48, _⟩ => ⟨S_, .i32⟩
  | .hbm, ⟨49, _⟩ => ⟨S8192x8192, .i32⟩
  | .hbm, ⟨50, _⟩ => ⟨S8192x8192, .i32⟩
  | .hbm, ⟨51, _⟩ => ⟨S8192x8192, .i1⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192x128, .f32⟩
  | .hbm, ⟨61, _⟩ => ⟨S8192x128, .f32⟩
  | .hbm, ⟨62, _⟩ => ⟨S1x128x128, .f32⟩
  | .hbm, ⟨63, _⟩ => ⟨S128x128, .f32⟩
  | .hbm, ⟨64, _⟩ => ⟨S8192x128, .f32⟩
  | .hbm, ⟨65, _⟩ => ⟨S8192x128, .f32⟩
  | .hbm, ⟨66, _⟩ => ⟨S8192x128, .f32⟩
  | .hbm, ⟨67, _⟩ => ⟨S1x128x128, .f32⟩
  | .hbm, ⟨68, _⟩ => ⟨S128x128, .f32⟩
  | .hbm, ⟨69, _⟩ => ⟨S8192x128, .f32⟩
  | .hbm, ⟨70, _⟩ => ⟨S8192x128, .f32⟩
  | .hbm, ⟨71, _⟩ => ⟨S8192x128, .f32⟩
  | .hbm, ⟨72, _⟩ => ⟨S1x128x128, .f32⟩
  | .hbm, ⟨73, _⟩ => ⟨S128x128, .f32⟩
  | .hbm, ⟨74, _⟩ => ⟨S8192x128, .f32⟩
  | .hbm, ⟨75, _⟩ => ⟨S8192x128, .f32⟩
  | .hbm, ⟨76, _⟩ => ⟨S1x128, .f32⟩
  | .hbm, ⟨77, _⟩ => ⟨S8192x128, .f32⟩
  | .hbm, ⟨78, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_call0_v0 : Ref sig .tc := ⟨.hbm, 37, rfl⟩
abbrev main_call0_v1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x128 : S_.BroadcastsInDim S8192x128 (![] : Fin 0 → Fin S8192x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  scatter_S8192x8192_S262144x2_S262144_n_01_01_1_wf : ScatterDims.WF S8192x8192 S262144x2 S262144 [] [0, 1] [0, 1] 1
  dot_S8192x8192_S8192x8192_S8192x8192_1_0_0_1_n_n_wf : DotDims.WF S8192x8192 S8192x8192 S8192x8192 [1] [0] [0] [1] [] []
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.RefFrame.lean ====
/-
  The reference program is a straight line of host operations: it runs to the end without a fault and writes none of
  its argument arrays. This is its run (every result at the operations' composed term, the arguments unchanged) with the result dropped.
-/
import proofs.«138934_j78142634983584_1_alg».proof.Defs
import proofs.«138934_j78142634983584_1_alg».proof.Proof.Gen.ReferenceIdeal
import proofs.«138934_j78142634983584_1_alg».proof.Proof.Gen.Pre_finite_inputs
import proofs.«138934_j78142634983584_1_alg».proof.Proof.RefRunP

noncomputable section

open Idealize.ShloMosaic Idealize.SL.Sem

namespace Cert.Proof.RefFrame

/-- Every weakly fair execution of the reference ends, faults nowhere, and leaves the four argument arrays as they were. -/
theorem frame_ri : Cert.frame_ReferenceIdeal := fun m ρ _ =>
  (θ_run Cert.ReferenceIdeal.defs _ _).mono (fun _ h c => (h c).2) (Cert.ReferenceIdeal.ValueP.run (F := Ideal) m ρ)

end Cert.Proof.RefFrame

end
-- ==== Proof.KI.R0.lean ====
import proofs.«138934_j78142634983584_1_alg».proof.Proof.Gen.KernelIdeal.Launch
import proofs.«138934_j78142634983584_1_alg».proof.Proof.Gen.KernelIdeal.Skeleton
import proofs.«138934_j78142634983584_1_alg».proof.Proof.Gen.KernelIdeal.Points
import proofs.«138934_j78142634983584_1_alg».proof.Proof.Gen.KernelIdeal.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Region 0: the first sparse-matrix product

The kernel runs on an 8 × 8 grid; point t has row block i = t / 8 and column block k = t mod 8. At each point it adds to
an accumulator (a scratch buffer carried from point to point) the matrix product of a 1024 × 1024 block of the
matrix (window 0) with the elementwise product of two 1024 × 128 blocks (windows 1 and 2, block row k), both factors
rounded to bf16 before the product and the sum kept in f32. At k = 0 the
accumulator is first reset to zero; at k = 7 the finished accumulator, scaled elementwise by window 3's block (block
row i), is stored into the output's block (window 4), which is written back there and nowhere else.

This file states what the body does in each of the three cases, names the accumulator after every point (`acc0`) and
the stored output (`out0`), gives the proof data of the region (`dat0`) and proves its body obligation. Everything is
generic in the value family `F`; the contents `V` of the buffers when the region is entered are a parameter. -/

/-- The zero offsets of a whole-buffer access, however spelt. -/
theorem zeroOff0 : (![0, 0] : Fin 2 → Nat) = fun _ => 0 := funext fun a => by fin_cases a <;> rfl

/-- The condition of the body's first conditional (the reset of the accumulator), from the grid coordinates. -/
abbrev cond0_0 (i : grid0.Coords) : Prop :=
  Scalar.cmpi .ne (Scalar.extui (Scalar.cmpi .eq (BitVec.ofNat 32 (i 1).val) (0#32 : BitVec 32)) : BitVec 32) (0#32 : BitVec 32) = 1#1
/-- The condition of its second conditional (the store of the output block). -/
abbrev cond0_1 (i : grid0.Coords) : Prop := k0_cond2 i = 1#1

/-! ## The body in its three cases

On whole staging memrefs at given contents: `xA` window 0's block, `xR`, `xD`, `xM` those of windows 1, 2, 3, `xO` the
output's buffer, `xS` the accumulator. Every case hands the inputs back as they were. -/

set_option maxHeartbeats 4000000 in
/-- Case A (first column block, k = 0): the accumulator is reset to zero and takes the first product; the output's
    buffer is handed back as found. -/
theorem run0_A (c : Dev nD) (i : grid0.Coords)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x128 .f32) (harg7 : arg7.IsWhole)
    (hc0 : cond0_0 i) (hc1 : ¬ cond0_1 i)
    (xA : Vec F S1024x1024 .f32) (xR xD xM xO : Vec F S1024x128 .f32) (E : Set ℕ) (K : PUnit → sProp 𝕄) :
    iprop(owns (c : Thread nD τ) arg2 fullShare xA ∗ owns (c : Thread nD τ) arg3 fullShare xR ∗ owns (c : Thread nD τ) arg4 fullShare xD
        ∗ owns (c : Thread nD τ) arg5 fullShare xM ∗ owns (c : Thread nD τ) arg6 fullShare xO ∗ (∃ d, owns (c : Thread nD τ) arg7 fullShare d)
        ∗ (iprop(owns (c : Thread nD τ) arg2 fullShare xA ∗ owns (c : Thread nD τ) arg3 fullShare xR ∗ owns (c : Thread nD τ) arg4 fullShare xD
            ∗ owns (c : Thread nD τ) arg5 fullShare xM ∗ owns (c : Thread nD τ) arg6 fullShare xO
            ∗ owns (c : Thread nD τ) arg7 fullShare (k0_pay2 xR xD xA (k0_pay1 (F := F)))) -∗ K ⟨⟩))
      ⊢ wp frame (wpE (defs₀ (F := F)) Variants.none c none) E (cc0__spmv_kernel i arg2 harg2 arg3 harg3 arg4 harg4 arg5 harg5 arg6 harg6 arg7 harg7) K := by
  simp only [cc0__spmv_kernel_eq_skeleton]; unfold cc0__spmv_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr; swap; · iexact H7
  ipureintro
  sl_unfold_words
  rw [View.read_writes_eq_canon _ _ _ (fun y => ⟨_, List.mem_cons_self, View.mem_set_unit_zero zeroOff0 inb_S1024x128_S1024x128_0_0 y⟩),
    View.canon_cons_unit_zero (S := S1024x128) zeroOff0, View.readCov_unit_zero (S := S1024x128) _ zeroOff0]
  simp only [View.readAt_eq_ld, harg2.read_unread, harg3.read_unread, harg4.read_unread,
    View.ld_unit_zero (S := S1024x128) zeroOff0, View.ld_unit_zero (S := S1024x1024) zeroOff0]

set_option maxHeartbeats 4000000 in
/-- Case B (a middle column block, 0 < k < 7): the accumulator takes one more product; the output's buffer is handed
    back as found. -/
theorem run0_B (c : Dev nD) (i : grid0.Coords)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x128 .f32) (harg7 : arg7.IsWhole)
    (hc0 : ¬ cond0_0 i) (hc1 : ¬ cond0_1 i)
    (xA : Vec F S1024x1024 .f32) (xR xD xM xO xS : Vec F S1024x128 .f32) (E : Set ℕ) (K : PUnit → sProp 𝕄) :
    iprop(owns (c : Thread nD τ) arg2 fullShare xA ∗ owns (c : Thread nD τ) arg3 fullShare xR ∗ owns (c : Thread nD τ) arg4 fullShare xD
        ∗ owns (c : Thread nD τ) arg5 fullShare xM ∗ owns (c : Thread nD τ) arg6 fullShare xO ∗ owns (c : Thread nD τ) arg7 fullShare xS
        ∗ (iprop(owns (c : Thread nD τ) arg2 fullShare xA ∗ owns (c : Thread nD τ) arg3 fullShare xR ∗ owns (c : Thread nD τ) arg4 fullShare xD
            ∗ owns (c : Thread nD τ) arg5 fullShare xM ∗ owns (c : Thread nD τ) arg6 fullShare xO
            ∗ owns (c : Thread nD τ) arg7 fullShare (k0_pay2 xR xD xA xS)) -∗ K ⟨⟩))
      ⊢ wp frame (wpE (defs₀ (F := F)) Variants.none c none) E (cc0__spmv_kernel i arg2 harg2 arg3 harg3 arg4 harg4 arg5 harg5 arg6 harg6 arg7 harg7) K := by
  simp only [cc0__spmv_kernel_eq_skeleton]; unfold cc0__spmv_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr; swap; · iexact H7
  ipureintro
  rw [View.read_writes_eq_canon _ _ _ (fun y => ⟨_, List.mem_singleton_self _, View.mem_set_unit_zero zeroOff0 inb_S1024x128_S1024x128_0_0 y⟩),
    View.canon_unit_zero (S := S1024x128) zeroOff0]
  simp only [View.readAt_eq_ld, harg2.read_unread, harg3.read_unread, harg4.read_unread, harg7.read_unread,
    View.ld_unit_zero (S := S1024x128) zeroOff0, View.ld_unit_zero (S := S1024x1024) zeroOff0]

set_option maxHeartbeats 4000000 in
/-- Case C (last column block, k = 7): the accumulator takes the last product, and the output's buffer takes the
    accumulator scaled by window 3's block. -/
theorem run0_C (c : Dev nD) (i : grid0.Coords)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x128 .f32) (harg7 : arg7.IsWhole)
    (hc0 : ¬ cond0_0 i) (hc1 : cond0_1 i)
    (xA : Vec F S1024x1024 .f32) (xR xD xM xS : Vec F S1024x128 .f32) (E : Set ℕ) (K : PUnit → sProp 𝕄) :
    iprop(owns (c : Thread nD τ) arg2 fullShare xA ∗ owns (c : Thread nD τ) arg3 fullShare xR ∗ owns (c : Thread nD τ) arg4 fullShare xD
        ∗ owns (c : Thread nD τ) arg5 fullShare xM ∗ (∃ d, owns (c : Thread nD τ) arg6 fullShare d) ∗ owns (c : Thread nD τ) arg7 fullShare xS
        ∗ (iprop(owns (c : Thread nD τ) arg2 fullShare xA ∗ owns (c : Thread nD τ) arg3 fullShare xR ∗ owns (c : Thread nD τ) arg4 fullShare xD
            ∗ owns (c : Thread nD τ) arg5 fullShare xM ∗ owns (c : Thread nD τ) arg6 fullShare (k0_pay3 (k0_pay2 xR xD xA xS) xM)
            ∗ owns (c : Thread nD τ) arg7 fullShare (k0_pay2 xR xD xA xS)) -∗ K ⟨⟩))
      ⊢ wp frame (wpE (defs₀ (F := F)) Variants.none c none) E (cc0__spmv_kernel i arg2 harg2 arg3 harg3 arg4 harg4 arg5 harg5 arg6 harg6 arg7 harg7) K := by
  simp only [cc0__spmv_kernel_eq_skeleton]; unfold cc0__spmv_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4
  obtain rfl := harg5.eq_unread hf5; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [View.read_writes_eq_canon _ _ _ (fun y => ⟨_, List.mem_singleton_self _, View.mem_set_unit_zero zeroOff0 inb_S1024x128_S1024x128_0_0 y⟩),
      View.canon_unit_zero (S := S1024x128) zeroOff0, View.readCov_unit_zero (S := S1024x128) _ zeroOff0]
    simp only [View.readAt_eq_ld, harg2.read_unread, harg3.read_unread, harg4.read_unread, harg5.read_unread, harg7.read_unread,
      View.ld_unit_zero (S := S1024x128) zeroOff0, View.ld_unit_zero (S := S1024x1024) zeroOff0]
  iexists _; isplitr; swap; · iexact H7
  ipureintro
  sl_unfold_words
  rw [View.read_writes_eq_canon _ _ _ (fun y => ⟨_, List.mem_singleton_self _, View.mem_set_unit_zero zeroOff0 inb_S1024x128_S1024x128_0_0 y⟩),
    View.canon_unit_zero (S := S1024x128) zeroOff0]
  simp only [View.readAt_eq_ld, harg2.read_unread, harg3.read_unread, harg4.read_unread, harg7.read_unread,
    View.ld_unit_zero (S := S1024x128) zeroOff0, View.ld_unit_zero (S := S1024x1024) zeroOff0]

/-! ## Where the two conditions hold, and where the output window is idle -/

/-- The reset condition holds at the points of the first column block (k = 0). -/
theorem hcond0_0 : ∀ t : Fin cfg0.N, cond0_0 (grid0.coords t) ↔ t.val % 8 = 0 :=
  (by decide +kernel : ∀ t : Fin grid0.N, cond0_0 (grid0.coords t) ↔ t.val % 8 = 0)
/-- The store condition holds at the points of the last column block (k = 7). -/
theorem hcond0_1 : ∀ t : Fin cfg0.N, cond0_1 (grid0.coords t) ↔ t.val % 8 = 7 :=
  (by decide +kernel : ∀ t : Fin grid0.N, cond0_1 (grid0.coords t) ↔ t.val % 8 = 7)

/-- The four input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Off the last column block the output window is idle (nothing is stored into it), -/
theorem idleAt0_4 : ∀ t : Fin cfg0.N, ¬cond0_1 (grid0.coords t) → cfg0.idle 4 (grid0.coords t) = true := by decide +kernel
/-- and its block is not written back there; -/
theorem noFlush0_4 : ∀ t : Fin cfg0.N, ¬cond0_1 (grid0.coords t) → (cfg0.win 4).flush t = false := by decide +kernel
/-- on the last column block it is live. -/
theorem liveAt0_4 : ∀ t : Fin cfg0.N, cond0_1 (grid0.coords t) → cfg0.idle 4 (grid0.coords t) = false := by decide +kernel

/-! ## The staging memrefs at a point, and the scratch -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from one grid point to the next. -/
abbrev scM0 : Memref sig .tc .vmem S1024x128 .f32 := Memref.whole cc0_scratch0

/-- The core's scoped buffers that are no staging buffer of this call, the accumulator apart: the other two calls'
    staging buffers and scratch, each at some contents, carried along unopened. -/
abbrev rest0 (c : Dev nD) : sProp 𝕄 :=
  Pipeline.scopedRestBut (Ix := Unit) (Name := ℕ) (U := UR sig nD τ) (Lvl := ℕ) (Val := Elt F) spec0 c [cc0_scratch0]

/-- What the launch hands the region: the accumulator at some contents, the other scoped buffers, the generator
    register at some state. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA
  rw [Pipeline.scopedRest_split_of_list spec0 c [cc0_scratch0] (by decide) (by decide)]
  simp only [bigSepL_singleton, scM0, owns_whole]; try rfl

variable (V : (c : Dev nD) → (b : Ref sig .tc) → Buf (Elt F) ((c : Thread nD τ).loc b))

/-! ## The windows' blocks, the accumulator and the output point by point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`: at the first column block of a row block (n ≡ 0 mod 8) the first product added to
    zero; at every other point one more product added to what the point before left. -/
def acc0 (c : Dev nD) : (n : ℕ) → n < cfg0.N → Vec F S1024x128 .f32
  | 0, hn => k0_pay2 (iblk0 V c 1 ⟨0, hn⟩) (iblk0 V c 2 ⟨0, hn⟩) (iblk0 V c 0 ⟨0, hn⟩) (k0_pay1 (F := F))
  | n + 1, hn =>
    if (n + 1) % 8 = 0 then
      k0_pay2 (iblk0 V c 1 ⟨n + 1, hn⟩) (iblk0 V c 2 ⟨n + 1, hn⟩) (iblk0 V c 0 ⟨n + 1, hn⟩) (k0_pay1 (F := F))
    else
      k0_pay2 (iblk0 V c 1 ⟨n + 1, hn⟩) (iblk0 V c 2 ⟨n + 1, hn⟩) (iblk0 V c 0 ⟨n + 1, hn⟩) (acc0 c n (Nat.lt_of_succ_lt hn))

/-- At a first column block the accumulator starts afresh. -/
theorem acc0_first (c : Dev nD) (t : Fin cfg0.N) (h : t.val % 8 = 0) :
    acc0 V c t.val t.isLt = k0_pay2 (iblk0 V c 1 t) (iblk0 V c 2 t) (iblk0 V c 0 t) (k0_pay1 (F := F)) := by
  obtain ⟨n, hn⟩ := t
  cases n with
  | zero => rfl
  | succ n => exact (if_pos h).trans rfl

/-- At any other point it adds to what the point before left. -/
theorem acc0_next (c : Dev nD) (t : Fin cfg0.N) (h : t.val % 8 ≠ 0) :
    acc0 V c t.val t.isLt = k0_pay2 (iblk0 V c 1 t) (iblk0 V c 2 t) (iblk0 V c 0 t)
      (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-- What the last column block stores into the output's buffer: the finished accumulator scaled by window 3's block. -/
def out0 (c : Dev nD) (t : Fin cfg0.N) : Vec F S1024x128 .f32 := k0_pay3 (acc0 V c t.val t.isLt) (iblk0 V c 3 t)

/-! ## The invariant that carries the accumulator -/

/-- Before point `n`: at the first point what the launch hands over; afterwards the accumulator at what the point
    before left, the other scoped buffers and the generator register as they come. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-! ## The proof data of region 0 -/

/-- The arrays as the region finds them; after the body each input's buffer at its block, the output's at what the
    last column block stores; the invariant carrying the accumulator; nothing owed. The shares `q` at which the input
    arrays are held are a parameter: windows 2 and 3 read one array, so neither holds it outright. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q := q
  owed _ := 0

theorem A_eq0 (q : Fin cfg0.W → PosShare TreeShare) (c : Dev nD) (w : Fin cfg0.W) :
    (dat0 V q c).A w = V c (Pipeline.arrRef spec0 w) := by
  dsimp only [dat0]

theorem Phi0_zero (q : Fin cfg0.W → PosShare TreeShare) (c : Dev nD) : (dat0 V q c).Φ 0 = Pipeline.ΦA spec0 c := by
  rw [show (dat0 V q c).Φ 0 = PhiS0 V c 0 (Nat.zero_le _) from rfl, PhiS0_zero V c 0 _ rfl]

theorem Phi0_castSucc (q : Fin cfg0.W → PosShare TreeShare) (c : Dev nD) (t : Fin cfg0.N) :
    (dat0 V q c).Φ t.castSucc = PhiS0 V c t.val (Nat.le_of_lt t.isLt) := by
  dsimp only [dat0]; simp only [Fin.coe_castSucc]

/-- After the last point the invariant gives back what the launch handed over: the accumulator's contents forgotten. -/
theorem Phi0_last (q : Fin cfg0.W → PosShare TreeShare) (c : Dev nD) : (dat0 V q c).Φ (Fin.last cfg0.N) ⊢ Pipeline.ΦA spec0 c := by
  rw [show (dat0 V q c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, HR⟩, Hg⟩
  isplitl [HS HR]
  · isplitl [HS]
    · iexists _; iexact HS
    iexact HR
  iexact Hg

theorem after0_0 (q : Fin cfg0.W → PosShare TreeShare) (c : Dev nD) (t : Fin cfg0.N) : (dat0 V q c).after 0 t = iblk0 V c 0 t := by dsimp only [dat0]
theorem after0_1 (q : Fin cfg0.W → PosShare TreeShare) (c : Dev nD) (t : Fin cfg0.N) : (dat0 V q c).after 1 t = iblk0 V c 1 t := by dsimp only [dat0]
theorem after0_2 (q : Fin cfg0.W → PosShare TreeShare) (c : Dev nD) (t : Fin cfg0.N) : (dat0 V q c).after 2 t = iblk0 V c 2 t := by dsimp only [dat0]
theorem after0_3 (q : Fin cfg0.W → PosShare TreeShare) (c : Dev nD) (t : Fin cfg0.N) : (dat0 V q c).after 3 t = iblk0 V c 3 t := by dsimp only [dat0]
theorem after0_4 (q : Fin cfg0.W → PosShare TreeShare) (c : Dev nD) (t : Fin cfg0.N) : (dat0 V q c).after 4 t = out0 V c t := by dsimp only [dat0]

/-- Each input's current staging buffer holds its block at every point, fetched there or not: where it is not
    fetched (window 3 off the first column block) the block index has not moved. -/
theorem before0_0 (q : Fin cfg0.W → PosShare TreeShare) (c : Dev nD) (t : Fin cfg0.N) (d) : (dat0 V q c).before 0 t d = iblk0 V c 0 t :=
  ((dat0 V q c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (q : Fin cfg0.W → PosShare TreeShare) (c : Dev nD) (t : Fin cfg0.N) (d) : (dat0 V q c).before 1 t d = iblk0 V c 1 t :=
  ((dat0 V q c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (q : Fin cfg0.W → PosShare TreeShare) (c : Dev nD) (t : Fin cfg0.N) (d) : (dat0 V q c).before 2 t d = iblk0 V c 2 t :=
  ((dat0 V q c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (q : Fin cfg0.W → PosShare TreeShare) (c : Dev nD) (t : Fin cfg0.N) (d) : (dat0 V q c).before 3 t d = iblk0 V c 3 t :=
  ((dat0 V q c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## The body obligation -/

/-- What the body is called with at point `t`: the invariant, the core's tallies, each window's current buffer. -/
def bodyPre0 (q : Fin cfg0.W → PosShare TreeShare) (c : Dev nD) (t : Fin cfg0.N) : sProp 𝕄 :=
  iprop((dat0 V q c).Φ t.castSucc ∗ (dat0 V q c).owesAt () t.castSucc
    ∗ (∃ d, owns (c : Thread nD τ) (ms0_0 t) fullShare ((dat0 V q c).before 0 t d))
    ∗ (∃ d, owns (c : Thread nD τ) (ms0_1 t) fullShare ((dat0 V q c).before 1 t d))
    ∗ (∃ d, owns (c : Thread nD τ) (ms0_2 t) fullShare ((dat0 V q c).before 2 t d))
    ∗ (∃ d, owns (c : Thread nD τ) (ms0_3 t) fullShare ((dat0 V q c).before 3 t d))
    ∗ (∃ d, owns (c : Thread nD τ) (ms0_4 t) fullShare ((dat0 V q c).before 4 t d)))

/-- What it returns. -/
def bodyPost0 (q : Fin cfg0.W → PosShare TreeShare) (c : Dev nD) (t : Fin cfg0.N) : sProp 𝕄 :=
  iprop((dat0 V q c).Φ t.succ ∗ (dat0 V q c).owesAt () t.succ
    ∗ (dat0 V q c).leavesExact 0 t ∗ (dat0 V q c).leavesExact 1 t ∗ (dat0 V q c).leavesExact 2 t ∗ (dat0 V q c).leavesExact 3 t ∗ (dat0 V q c).leavesExact 4 t)

set_option maxHeartbeats 4000000 in
/-- The body at any point. The inputs' buffers hold their blocks; the point's column block k = t mod 8 says which of
    the three cases runs; the invariant hands the body the accumulator at what the point before left (at anything
    where the case resets it) and takes it back at this point's; off the last column block the output's buffer goes
    back as it came. -/
theorem sound_body0 (q : Fin cfg0.W → PosShare TreeShare) (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2, before0_3]
  rw [show (dat0 V q c).owesAt () t.succ = (dat0 V q c).owesAt () t.castSucc from rfl]
  rw [show (dat0 V q c).Φ t.succ = PhiS0 V c (t.val + 1) t.isLt from rfl, PhiS0_succ]
  have hN : t.val < 64 := lt_of_lt_of_eq t.isLt (show cfg0.N = 64 from N_0)
  by_cases h0 : t.val % 8 = 0
  · have hc0 : cond0_0 (grid0.coords t) := (hcond0_0 t).mpr h0
    have hc1 : ¬cond0_1 (grid0.coords t) := fun h => by have := (hcond0_1 t).mp h; omega
    rw [show (dat0 V q c).leavesExact 0 t = owns (c : Thread nD τ) (ms0_0 t) fullShare ((dat0 V q c).after 0 t) from by
      unfold Dat.leavesExact; rw [liveAt0_0 t], after0_0]
    rw [show (dat0 V q c).leavesExact 1 t = owns (c : Thread nD τ) (ms0_1 t) fullShare ((dat0 V q c).after 1 t) from by
      unfold Dat.leavesExact; rw [liveAt0_1 t], after0_1]
    rw [show (dat0 V q c).leavesExact 2 t = owns (c : Thread nD τ) (ms0_2 t) fullShare ((dat0 V q c).after 2 t) from by
      unfold Dat.leavesExact; rw [liveAt0_2 t], after0_2]
    rw [show (dat0 V q c).leavesExact 3 t = owns (c : Thread nD τ) (ms0_3 t) fullShare ((dat0 V q c).after 3 t) from by
      unfold Dat.leavesExact; rw [liveAt0_3 t], after0_3]
    rw [Dat.leavesExact_idle (dat0 V q c) 4 t (idleAt0_4 t hc1) (noFlush0_4 t hc1)]
    rw [acc0_first V c t h0]
    by_cases hz : t.val = 0
    · rw [Phi0_castSucc V q c t, PhiS0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply (run0_A c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (iblk0 V c 2 t) (iblk0 V c 3 t) ((dat0 V q c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [Phi0_castSucc V q c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run0_A c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (iblk0 V c 2 t) (iblk0 V c 3 t) ((dat0 V q c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hc0 : ¬cond0_0 (grid0.coords t) := fun h => h0 ((hcond0_0 t).mp h)
    have hz : t.val ≠ 0 := fun e => h0 (by rw [e])
    by_cases h1 : t.val % 8 = 7
    · have hc1 : cond0_1 (grid0.coords t) := (hcond0_1 t).mpr h1
      rw [show (dat0 V q c).leavesExact 0 t = owns (c : Thread nD τ) (ms0_0 t) fullShare ((dat0 V q c).after 0 t) from by
        unfold Dat.leavesExact; rw [liveAt0_0 t], after0_0]
      rw [show (dat0 V q c).leavesExact 1 t = owns (c : Thread nD τ) (ms0_1 t) fullShare ((dat0 V q c).after 1 t) from by
        unfold Dat.leavesExact; rw [liveAt0_1 t], after0_1]
      rw [show (dat0 V q c).leavesExact 2 t = owns (c : Thread nD τ) (ms0_2 t) fullShare ((dat0 V q c).after 2 t) from by
        unfold Dat.leavesExact; rw [liveAt0_2 t], after0_2]
      rw [show (dat0 V q c).leavesExact 3 t = owns (c : Thread nD τ) (ms0_3 t) fullShare ((dat0 V q c).after 3 t) from by
        unfold Dat.leavesExact; rw [liveAt0_3 t], after0_3]
      rw [show (dat0 V q c).leavesExact 4 t = owns (c : Thread nD τ) (ms0_4 t) fullShare ((dat0 V q c).after 4 t) from by
        unfold Dat.leavesExact; rw [liveAt0_4 t hc1], after0_4]
      unfold out0
      rw [acc0_next V c t h0]
      rw [Phi0_castSucc V q c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run0_C c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (iblk0 V c 2 t) (iblk0 V c 3 t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [show (dat0 V q c).leavesExact 0 t = owns (c : Thread nD τ) (ms0_0 t) fullShare ((dat0 V q c).after 0 t) from by
        unfold Dat.leavesExact; rw [liveAt0_0 t], after0_0]
      rw [show (dat0 V q c).leavesExact 1 t = owns (c : Thread nD τ) (ms0_1 t) fullShare ((dat0 V q c).after 1 t) from by
        unfold Dat.leavesExact; rw [liveAt0_1 t], after0_1]
      rw [show (dat0 V q c).leavesExact 2 t = owns (c : Thread nD τ) (ms0_2 t) fullShare ((dat0 V q c).after 2 t) from by
        unfold Dat.leavesExact; rw [liveAt0_2 t], after0_2]
      rw [show (dat0 V q c).leavesExact 3 t = owns (c : Thread nD τ) (ms0_3 t) fullShare ((dat0 V q c).after 3 t) from by
        unfold Dat.leavesExact; rw [liveAt0_3 t], after0_3]
      rw [Dat.leavesExact_idle (dat0 V q c) 4 t (idleAt0_4 t hc1) (noFlush0_4 t hc1)]
      rw [acc0_next V c t h0]
      rw [Phi0_castSucc V q c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run0_B c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (iblk0 V c 2 t) (iblk0 V c 3 t) ((dat0 V q c).before 4 t d4) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation for region 0, at every point, at whatever shares the input arrays are held. -/
theorem body_obligation0 (q : Fin cfg0.W → PosShare TreeShare) (c : Dev nD) :
    BodyObligation (dat0 (F := F) V q c) (defs₀ (F := F)) Variants.none () Set.univ := fun t => by
  rw [bigSep_W0, bigSep_W0]
  exact sound_body0 V q c t

end Cert.KernelIdeal.H
end
-- ==== Proof.KI.R1.lean ====
import proofs.«138934_j78142634983584_1_alg».proof.Proof.Gen.KernelIdeal.Launch
import proofs.«138934_j78142634983584_1_alg».proof.Proof.Gen.KernelIdeal.Skeleton
import proofs.«138934_j78142634983584_1_alg».proof.Proof.Gen.KernelIdeal.Points
import proofs.«138934_j78142634983584_1_alg».proof.Proof.Gen.KernelIdeal.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Region 1: the second sparse-matrix product

The kernel runs on an 8 × 8 grid; point t has row block i = t / 8 and column block k = t mod 8. At each point it adds to
an accumulator (a scratch buffer carried from point to point) the matrix product of a 1024 × 1024 block of the
matrix (window 0) with the elementwise product of two 1024 × 128 blocks (windows 1 and 2, block row k), both factors
rounded to bf16 before the product and the sum kept in f32. At k = 0 the
accumulator is first reset to zero; at k = 7 the finished accumulator, scaled elementwise by window 3's block (block
row i), is stored into the output's block (window 4), which is written back there and nowhere else.

This file states what the body does in each of the three cases, names the accumulator after every point (`acc1`) and
the stored output (`out1`), gives the proof data of the region (`dat1`) and proves its body obligation. Everything is
generic in the value family `F`; the contents `V` of the buffers when the region is entered are a parameter. -/

/-- The zero offsets of a whole-buffer access, however spelt. -/
theorem zeroOff1 : (![0, 0] : Fin 2 → Nat) = fun _ => 0 := funext fun a => by fin_cases a <;> rfl

/-- The condition of the body's first conditional (the reset of the accumulator), from the grid coordinates. -/
abbrev cond1_0 (i : grid1.Coords) : Prop :=
  Scalar.cmpi .ne (Scalar.extui (Scalar.cmpi .eq (BitVec.ofNat 32 (i 1).val) (0#32 : BitVec 32)) : BitVec 32) (0#32 : BitVec 32) = 1#1
/-- The condition of its second conditional (the store of the output block). -/
abbrev cond1_1 (i : grid1.Coords) : Prop := k1_cond2 i = 1#1

/-! ## The body in its three cases

On whole staging memrefs at given contents: `xA` window 0's block, `xR`, `xD`, `xM` those of windows 1, 2, 3, `xO` the
output's buffer, `xS` the accumulator. Every case hands the inputs back as they were. -/

set_option maxHeartbeats 4000000 in
/-- Case A (first column block, k = 0): the accumulator is reset to zero and takes the first product; the output's
    buffer is handed back as found. -/
theorem run1_A (c : Dev nD) (i : grid1.Coords)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x128 .f32) (harg7 : arg7.IsWhole)
    (hc0 : cond1_0 i) (hc1 : ¬ cond1_1 i)
    (xA : Vec F S1024x1024 .f32) (xR xD xM xO : Vec F S1024x128 .f32) (E : Set ℕ) (K : PUnit → sProp 𝕄) :
    iprop(owns (c : Thread nD τ) arg2 fullShare xA ∗ owns (c : Thread nD τ) arg3 fullShare xR ∗ owns (c : Thread nD τ) arg4 fullShare xD
        ∗ owns (c : Thread nD τ) arg5 fullShare xM ∗ owns (c : Thread nD τ) arg6 fullShare xO ∗ (∃ d, owns (c : Thread nD τ) arg7 fullShare d)
        ∗ (iprop(owns (c : Thread nD τ) arg2 fullShare xA ∗ owns (c : Thread nD τ) arg3 fullShare xR ∗ owns (c : Thread nD τ) arg4 fullShare xD
            ∗ owns (c : Thread nD τ) arg5 fullShare xM ∗ owns (c : Thread nD τ) arg6 fullShare xO
            ∗ owns (c : Thread nD τ) arg7 fullShare (k1_pay2 xR xD xA (k1_pay1 (F := F)))) -∗ K ⟨⟩))
      ⊢ wp frame (wpE (defs₀ (F := F)) Variants.none c none) E (cc1__spmv_kernel i arg2 harg2 arg3 harg3 arg4 harg4 arg5 harg5 arg6 harg6 arg7 harg7) K := by
  simp only [cc1__spmv_kernel_eq_skeleton]; unfold cc1__spmv_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr; swap; · iexact H7
  ipureintro
  sl_unfold_words
  rw [View.read_writes_eq_canon _ _ _ (fun y => ⟨_, List.mem_cons_self, View.mem_set_unit_zero zeroOff1 inb_S1024x128_S1024x128_0_0 y⟩),
    View.canon_cons_unit_zero (S := S1024x128) zeroOff1, View.readCov_unit_zero (S := S1024x128) _ zeroOff1]
  simp only [View.readAt_eq_ld, harg2.read_unread, harg3.read_unread, harg4.read_unread,
    View.ld_unit_zero (S := S1024x128) zeroOff1, View.ld_unit_zero (S := S1024x1024) zeroOff1]

set_option maxHeartbeats 4000000 in
/-- Case B (a middle column block, 0 < k < 7): the accumulator takes one more product; the output's buffer is handed
    back as found. -/
theorem run1_B (c : Dev nD) (i : grid1.Coords)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x128 .f32) (harg7 : arg7.IsWhole)
    (hc0 : ¬ cond1_0 i) (hc1 : ¬ cond1_1 i)
    (xA : Vec F S1024x1024 .f32) (xR xD xM xO xS : Vec F S1024x128 .f32) (E : Set ℕ) (K : PUnit → sProp 𝕄) :
    iprop(owns (c : Thread nD τ) arg2 fullShare xA ∗ owns (c : Thread nD τ) arg3 fullShare xR ∗ owns (c : Thread nD τ) arg4 fullShare xD
        ∗ owns (c : Thread nD τ) arg5 fullShare xM ∗ owns (c : Thread nD τ) arg6 fullShare xO ∗ owns (c : Thread nD τ) arg7 fullShare xS
        ∗ (iprop(owns (c : Thread nD τ) arg2 fullShare xA ∗ owns (c : Thread nD τ) arg3 fullShare xR ∗ owns (c : Thread nD τ) arg4 fullShare xD
            ∗ owns (c : Thread nD τ) arg5 fullShare xM ∗ owns (c : Thread nD τ) arg6 fullShare xO
            ∗ owns (c : Thread nD τ) arg7 fullShare (k1_pay2 xR xD xA xS)) -∗ K ⟨⟩))
      ⊢ wp frame (wpE (defs₀ (F := F)) Variants.none c none) E (cc1__spmv_kernel i arg2 harg2 arg3 harg3 arg4 harg4 arg5 harg5 arg6 harg6 arg7 harg7) K := by
  simp only [cc1__spmv_kernel_eq_skeleton]; unfold cc1__spmv_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr; swap; · iexact H7
  ipureintro
  rw [View.read_writes_eq_canon _ _ _ (fun y => ⟨_, List.mem_singleton_self _, View.mem_set_unit_zero zeroOff1 inb_S1024x128_S1024x128_0_0 y⟩),
    View.canon_unit_zero (S := S1024x128) zeroOff1]
  simp only [View.readAt_eq_ld, harg2.read_unread, harg3.read_unread, harg4.read_unread, harg7.read_unread,
    View.ld_unit_zero (S := S1024x128) zeroOff1, View.ld_unit_zero (S := S1024x1024) zeroOff1]

set_option maxHeartbeats 4000000 in
/-- Case C (last column block, k = 7): the accumulator takes the last product, and the output's buffer takes the
    accumulator scaled by window 3's block. -/
theorem run1_C (c : Dev nD) (i : grid1.Coords)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x128 .f32) (harg7 : arg7.IsWhole)
    (hc0 : ¬ cond1_0 i) (hc1 : cond1_1 i)
    (xA : Vec F S1024x1024 .f32) (xR xD xM xS : Vec F S1024x128 .f32) (E : Set ℕ) (K : PUnit → sProp 𝕄) :
    iprop(owns (c : Thread nD τ) arg2 fullShare xA ∗ owns (c : Thread nD τ) arg3 fullShare xR ∗ owns (c : Thread nD τ) arg4 fullShare xD
        ∗ owns (c : Thread nD τ) arg5 fullShare xM ∗ (∃ d, owns (c : Thread nD τ) arg6 fullShare d) ∗ owns (c : Thread nD τ) arg7 fullShare xS
        ∗ (iprop(owns (c : Thread nD τ) arg2 fullShare xA ∗ owns (c : Thread nD τ) arg3 fullShare xR ∗ owns (c : Thread nD τ) arg4 fullShare xD
            ∗ owns (c : Thread nD τ) arg5 fullShare xM ∗ owns (c : Thread nD τ) arg6 fullShare (k1_pay3 (k1_pay2 xR xD xA xS) xM)
            ∗ owns (c : Thread nD τ) arg7 fullShare (k1_pay2 xR xD xA xS)) -∗ K ⟨⟩))
      ⊢ wp frame (wpE (defs₀ (F := F)) Variants.none c none) E (cc1__spmv_kernel i arg2 harg2 arg3 harg3 arg4 harg4 arg5 harg5 arg6 harg6 arg7 harg7) K := by
  simp only [cc1__spmv_kernel_eq_skeleton]; unfold cc1__spmv_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4
  obtain rfl := harg5.eq_unread hf5; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [View.read_writes_eq_canon _ _ _ (fun y => ⟨_, List.mem_singleton_self _, View.mem_set_unit_zero zeroOff1 inb_S1024x128_S1024x128_0_0 y⟩),
      View.canon_unit_zero (S := S1024x128) zeroOff1, View.readCov_unit_zero (S := S1024x128) _ zeroOff1]
    simp only [View.readAt_eq_ld, harg2.read_unread, harg3.read_unread, harg4.read_unread, harg5.read_unread, harg7.read_unread,
      View.ld_unit_zero (S := S1024x128) zeroOff1, View.ld_unit_zero (S := S1024x1024) zeroOff1]
  iexists _; isplitr; swap; · iexact H7
  ipureintro
  sl_unfold_words
  rw [View.read_writes_eq_canon _ _ _ (fun y => ⟨_, List.mem_singleton_self _, View.mem_set_unit_zero zeroOff1 inb_S1024x128_S1024x128_0_0 y⟩),
    View.canon_unit_zero (S := S1024x128) zeroOff1]
  simp only [View.readAt_eq_ld, harg2.read_unread, harg3.read_unread, harg4.read_unread, harg7.read_unread,
    View.ld_unit_zero (S := S1024x128) zeroOff1, View.ld_unit_zero (S := S1024x1024) zeroOff1]

/-! ## Where the two conditions hold, and where the output window is idle -/

/-- The reset condition holds at the points of the first column block (k = 0). -/
theorem hcond1_0 : ∀ t : Fin cfg1.N, cond1_0 (grid1.coords t) ↔ t.val % 8 = 0 :=
  (by decide +kernel : ∀ t : Fin grid1.N, cond1_0 (grid1.coords t) ↔ t.val % 8 = 0)
/-- The store condition holds at the points of the last column block (k = 7). -/
theorem hcond1_1 : ∀ t : Fin cfg1.N, cond1_1 (grid1.coords t) ↔ t.val % 8 = 7 :=
  (by decide +kernel : ∀ t : Fin grid1.N, cond1_1 (grid1.coords t) ↔ t.val % 8 = 7)

/-- The four input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Off the last column block the output window is idle (nothing is stored into it), -/
theorem idleAt1_4 : ∀ t : Fin cfg1.N, ¬cond1_1 (grid1.coords t) → cfg1.idle 4 (grid1.coords t) = true := by decide +kernel
/-- and its block is not written back there; -/
theorem noFlush1_4 : ∀ t : Fin cfg1.N, ¬cond1_1 (grid1.coords t) → (cfg1.win 4).flush t = false := by decide +kernel
/-- on the last column block it is live. -/
theorem liveAt1_4 : ∀ t : Fin cfg1.N, cond1_1 (grid1.coords t) → cfg1.idle 4 (grid1.coords t) = false := by decide +kernel

/-! ## The staging memrefs at a point, and the scratch -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from one grid point to the next. -/
abbrev scM1 : Memref sig .tc .vmem S1024x128 .f32 := Memref.whole cc1_scratch0

/-- The core's scoped buffers that are no staging buffer of this call, the accumulator apart: the other two calls'
    staging buffers and scratch, each at some contents, carried along unopened. -/
abbrev rest1 (c : Dev nD) : sProp 𝕄 :=
  Pipeline.scopedRestBut (Ix := Unit) (Name := ℕ) (U := UR sig nD τ) (Lvl := ℕ) (Val := Elt F) spec1 c [cc1_scratch0]

/-- What the launch hands the region: the accumulator at some contents, the other scoped buffers, the generator
    register at some state. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA
  rw [Pipeline.scopedRest_split_of_list spec1 c [cc1_scratch0] (by decide) (by decide)]
  simp only [bigSepL_singleton, scM1, owns_whole]; try rfl

variable (V : (c : Dev nD) → (b : Ref sig .tc) → Buf (Elt F) ((c : Thread nD τ).loc b))

/-! ## The windows' blocks, the accumulator and the output point by point -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: at the first column block of a row block (n ≡ 0 mod 8) the first product added to
    zero; at every other point one more product added to what the point before left. -/
def acc1 (c : Dev nD) : (n : ℕ) → n < cfg1.N → Vec F S1024x128 .f32
  | 0, hn => k1_pay2 (iblk1 V c 1 ⟨0, hn⟩) (iblk1 V c 2 ⟨0, hn⟩) (iblk1 V c 0 ⟨0, hn⟩) (k1_pay1 (F := F))
  | n + 1, hn =>
    if (n + 1) % 8 = 0 then
      k1_pay2 (iblk1 V c 1 ⟨n + 1, hn⟩) (iblk1 V c 2 ⟨n + 1, hn⟩) (iblk1 V c 0 ⟨n + 1, hn⟩) (k1_pay1 (F := F))
    else
      k1_pay2 (iblk1 V c 1 ⟨n + 1, hn⟩) (iblk1 V c 2 ⟨n + 1, hn⟩) (iblk1 V c 0 ⟨n + 1, hn⟩) (acc1 c n (Nat.lt_of_succ_lt hn))

/-- At a first column block the accumulator starts afresh. -/
theorem acc1_first (c : Dev nD) (t : Fin cfg1.N) (h : t.val % 8 = 0) :
    acc1 V c t.val t.isLt = k1_pay2 (iblk1 V c 1 t) (iblk1 V c 2 t) (iblk1 V c 0 t) (k1_pay1 (F := F)) := by
  obtain ⟨n, hn⟩ := t
  cases n with
  | zero => rfl
  | succ n => exact (if_pos h).trans rfl

/-- At any other point it adds to what the point before left. -/
theorem acc1_next (c : Dev nD) (t : Fin cfg1.N) (h : t.val % 8 ≠ 0) :
    acc1 V c t.val t.isLt = k1_pay2 (iblk1 V c 1 t) (iblk1 V c 2 t) (iblk1 V c 0 t)
      (acc1 V c (t.val - 1) (Nat.lt_of_le_of_lt (Nat.sub_le _ _) t.isLt)) := by
  obtain ⟨n, hn⟩ := t
  cases n with
  | zero => exact absurd (Nat.zero_mod _) h
  | succ n => exact (if_neg h).trans rfl

/-- What the last column block stores into the output's buffer: the finished accumulator scaled by window 3's block. -/
def out1 (c : Dev nD) (t : Fin cfg1.N) : Vec F S1024x128 .f32 := k1_pay3 (acc1 V c t.val t.isLt) (iblk1 V c 3 t)

/-! ## The invariant that carries the accumulator -/

/-- Before point `n`: at the first point what the launch hands over; afterwards the accumulator at what the point
    before left, the other scoped buffers and the generator register as they come. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ rest1 (F := F) c) ∗ (∃ r, prngReg c r)) := by
  cases n with
  | zero => exact absurd rfl hz
  | succ n => rfl

/-! ## The proof data of region 1 -/

/-- The arrays as the region finds them; after the body each input's buffer at its block, the output's at what the
    last column block stores; the invariant carrying the accumulator; nothing owed. The shares `q` at which the input
    arrays are held are a parameter: windows 2 and 3 read one array, so neither holds it outright. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS1 V c t.val (Nat.le_of_lt_succ t.isLt)
  q := q
  owed _ := 0

theorem A_eq1 (q : Fin cfg1.W → PosShare TreeShare) (c : Dev nD) (w : Fin cfg1.W) :
    (dat1 V q c).A w = V c (Pipeline.arrRef spec1 w) := by
  dsimp only [dat1]

theorem Phi1_zero (q : Fin cfg1.W → PosShare TreeShare) (c : Dev nD) : (dat1 V q c).Φ 0 = Pipeline.ΦA spec1 c := by
  rw [show (dat1 V q c).Φ 0 = PhiS1 V c 0 (Nat.zero_le _) from rfl, PhiS1_zero V c 0 _ rfl]

theorem Phi1_castSucc (q : Fin cfg1.W → PosShare TreeShare) (c : Dev nD) (t : Fin cfg1.N) :
    (dat1 V q c).Φ t.castSucc = PhiS1 V c t.val (Nat.le_of_lt t.isLt) := by
  dsimp only [dat1]; simp only [Fin.coe_castSucc]

/-- After the last point the invariant gives back what the launch handed over: the accumulator's contents forgotten. -/
theorem Phi1_last (q : Fin cfg1.W → PosShare TreeShare) (c : Dev nD) : (dat1 V q c).Φ (Fin.last cfg1.N) ⊢ Pipeline.ΦA spec1 c := by
  rw [show (dat1 V q c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, HR⟩, Hg⟩
  isplitl [HS HR]
  · isplitl [HS]
    · iexists _; iexact HS
    iexact HR
  iexact Hg

theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) : (dat1 V q c).after 3 t = iblk1 V c 3 t := by dsimp only [dat1]
theorem after1_4 (q : Fin cfg1.W → PosShare TreeShare) (c : Dev nD) (t : Fin cfg1.N) : (dat1 V q c).after 4 t = out1 V c t := by dsimp only [dat1]

/-- Each input's current staging buffer holds its block at every point, fetched there or not: where it is not
    fetched (window 3 off the first column block) the block index has not moved. -/
theorem before1_0 (q : Fin cfg1.W → PosShare TreeShare) (c : Dev nD) (t : Fin cfg1.N) (d) : (dat1 V q c).before 0 t d = iblk1 V c 0 t :=
  ((dat1 V q c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (q : Fin cfg1.W → PosShare TreeShare) (c : Dev nD) (t : Fin cfg1.N) (d) : (dat1 V q c).before 1 t d = iblk1 V c 1 t :=
  ((dat1 V q c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (q : Fin cfg1.W → PosShare TreeShare) (c : Dev nD) (t : Fin cfg1.N) (d) : (dat1 V q c).before 2 t d = iblk1 V c 2 t :=
  ((dat1 V q c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (q : Fin cfg1.W → PosShare TreeShare) (c : Dev nD) (t : Fin cfg1.N) (d) : (dat1 V q c).before 3 t d = iblk1 V c 3 t :=
  ((dat1 V q c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The body obligation -/

/-- What the body is called with at point `t`: the invariant, the core's tallies, each window's current buffer. -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d))
    ∗ (∃ d, owns (c : Thread nD τ) (ms1_3 t) fullShare ((dat1 V q c).before 3 t d))
    ∗ (∃ d, owns (c : Thread nD τ) (ms1_4 t) fullShare ((dat1 V q c).before 4 t d)))

/-- What it returns. -/
def bodyPost1 (q : Fin cfg1.W → PosShare TreeShare) (c : Dev nD) (t : Fin cfg1.N) : sProp 𝕄 :=
  iprop((dat1 V q c).Φ t.succ ∗ (dat1 V q c).owesAt () t.succ
    ∗ (dat1 V q c).leavesExact 0 t ∗ (dat1 V q c).leavesExact 1 t ∗ (dat1 V q c).leavesExact 2 t ∗ (dat1 V q c).leavesExact 3 t ∗ (dat1 V q c).leavesExact 4 t)

set_option maxHeartbeats 4000000 in
/-- The body at any point. The inputs' buffers hold their blocks; the point's column block k = t mod 8 says which of
    the three cases runs; the invariant hands the body the accumulator at what the point before left (at anything
    where the case resets it) and takes it back at this point's; off the last column block the output's buffer goes
    back as it came. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3]
  rw [show (dat1 V q c).owesAt () t.succ = (dat1 V q c).owesAt () t.castSucc from rfl]
  rw [show (dat1 V q c).Φ t.succ = PhiS1 V c (t.val + 1) t.isLt from rfl, PhiS1_succ]
  have hN : t.val < 64 := lt_of_lt_of_eq t.isLt (show cfg1.N = 64 from N_1)
  by_cases h0 : t.val % 8 = 0
  · have hc0 : cond1_0 (grid1.coords t) := (hcond1_0 t).mpr h0
    have hc1 : ¬cond1_1 (grid1.coords t) := fun h => by have := (hcond1_1 t).mp h; omega
    rw [show (dat1 V q c).leavesExact 0 t = owns (c : Thread nD τ) (ms1_0 t) fullShare ((dat1 V q c).after 0 t) from by
      unfold Dat.leavesExact; rw [liveAt1_0 t], after1_0]
    rw [show (dat1 V q c).leavesExact 1 t = owns (c : Thread nD τ) (ms1_1 t) fullShare ((dat1 V q c).after 1 t) from by
      unfold Dat.leavesExact; rw [liveAt1_1 t], after1_1]
    rw [show (dat1 V q c).leavesExact 2 t = owns (c : Thread nD τ) (ms1_2 t) fullShare ((dat1 V q c).after 2 t) from by
      unfold Dat.leavesExact; rw [liveAt1_2 t], after1_2]
    rw [show (dat1 V q c).leavesExact 3 t = owns (c : Thread nD τ) (ms1_3 t) fullShare ((dat1 V q c).after 3 t) from by
      unfold Dat.leavesExact; rw [liveAt1_3 t], after1_3]
    rw [Dat.leavesExact_idle (dat1 V q c) 4 t (idleAt1_4 t hc1) (noFlush1_4 t hc1)]
    rw [acc1_first V c t h0]
    by_cases hz : t.val = 0
    · rw [Phi1_castSucc V q c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩⟩
      iapply (run1_A c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) ((dat1 V q c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [Phi1_castSucc V q c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run1_A c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) ((dat1 V q c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hc0 : ¬cond1_0 (grid1.coords t) := fun h => h0 ((hcond1_0 t).mp h)
    have hz : t.val ≠ 0 := fun e => h0 (by rw [e])
    by_cases h1 : t.val % 8 = 7
    · have hc1 : cond1_1 (grid1.coords t) := (hcond1_1 t).mpr h1
      rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [show (dat1 V q c).leavesExact 4 t = owns (c : Thread nD τ) (ms1_4 t) fullShare ((dat1 V q c).after 4 t) from by
        unfold Dat.leavesExact; rw [liveAt1_4 t hc1], after1_4]
      unfold out1
      rw [acc1_next V c t h0]
      rw [Phi1_castSucc V q c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run1_C c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [Dat.leavesExact_idle (dat1 V q c) 4 t (idleAt1_4 t hc1) (noFlush1_4 t hc1)]
      rw [acc1_next V c t h0]
      rw [Phi1_castSucc V q c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run1_B c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) ((dat1 V q c).before 4 t d4) (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation for region 1, at every point, at whatever shares the input arrays are held. -/
theorem body_obligation1 (q : Fin cfg1.W → PosShare TreeShare) (c : Dev nD) :
    BodyObligation (dat1 (F := F) V q c) (defs₀ (F := F)) Variants.none () Set.univ := fun t => by
  rw [bigSep_W1, bigSep_W1]
  exact sound_body1 V q c t

end Cert.KernelIdeal.H
end
-- ==== Proof.KI.R2.lean ====
/- REGION 2 of @main (custom_call 2, the combine kernel, 8 grid points), the body half of its frame proof, at the
   region-entry contents `V`: each window's block at a point, what the body leaves in the output block (three products of a
   [1024,128] slab of the input block with a [128,128] weight, both factors of each rounded to bf16 first, summed in f32,
   plus the broadcast bias row), the body's triple,
   the pipeline's proof data and the body obligation at every point. -/
import proofs.«138934_j78142634983584_1_alg».proof.Proof.Gen.KernelIdeal.Launch
import proofs.«138934_j78142634983584_1_alg».proof.Proof.Gen.KernelIdeal.Skeleton
import proofs.«138934_j78142634983584_1_alg».proof.Proof.Gen.KernelIdeal.Points
import proofs.«138934_j78142634983584_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses

The input block is three [1024,128] slabs, the weights three [128,128] matrices; the body reads slab `j` and matrix
`j` for `j = 0, 1, 2`, then the whole bias row, and stores the whole output block once. -/

abbrev r2_Y0 : Rect S3x1024x128 := Rect.unit (s := S3x1024x128) ![0, 0, 0] S1x1024x128.size inb_S3x1024x128_S1x1024x128_0_0_0
abbrev r2_W0 : Rect S3x128x128 := Rect.unit (s := S3x128x128) ![0, 0, 0] S1x128x128.size inb_S3x128x128_S1x128x128_0_0_0
abbrev r2_Y1 : Rect S3x1024x128 := Rect.unit (s := S3x1024x128) ![1, 0, 0] S1x1024x128.size inb_S3x1024x128_S1x1024x128_1_0_0
abbrev r2_W1 : Rect S3x128x128 := Rect.unit (s := S3x128x128) ![1, 0, 0] S1x128x128.size inb_S3x128x128_S1x128x128_1_0_0
abbrev r2_Y2 : Rect S3x1024x128 := Rect.unit (s := S3x1024x128) ![2, 0, 0] S1x1024x128.size inb_S3x1024x128_S1x1024x128_2_0_0
abbrev r2_W2 : Rect S3x128x128 := Rect.unit (s := S3x128x128) ![2, 0, 0] S1x128x128.size inb_S3x128x128_S1x128x128_2_0_0
abbrev r2_B : Rect S1x128 := Rect.unit (s := S1x128) ![0, 0] S1x128.size inb_S1x128_S1x128_0_0
abbrev r2_O : Rect S1024x128 := Rect.unit (s := S1024x128) ![0, 0] S1024x128.size inb_S1024x128_S1024x128_0_0

/-! ## What the body leaves in the output window's buffer -/

/-- The output block after the body, from the three input blocks: its one store, of the whole block, whose payload is
    the sum of the three slab-times-matrix products (the factors of each rounded to bf16 first) plus the bias row,
    computed from the seven loads. -/
def out2 (xY : Vec F S3x1024x128 .f32) (xW : Vec F S3x128x128 .f32) (xB : Vec F S1x128 .f32) : Vec F S1024x128 .f32 :=
  View.canon [⟨r2_O, k2_pay1 (View.ld xY r2_Y0) (View.ld xW r2_W0) (View.ld xY r2_Y1) (View.ld xW r2_W1)
    (View.ld xY r2_Y2) (View.ld xW r2_W2) (View.ld xB r2_B)⟩]

/-- The one store is of the whole block, so it covers it. -/
theorem cover2 (p0 : Vec F S1024x128 .f32) (y : S1024x128.Idx) :
    ∃ pc ∈ ([⟨r2_O, p0⟩] : List (View.Piece (Elt F) S1024x128 .f32)), y ∈ pc.1.set :=
  View.cover_of_tiled [⟨r2_O, p0⟩] S1024x128.size (by rfl) y

/-! ## The body's triple -/

set_option maxHeartbeats 4000000 in
/-- The kernel body on whole staging memrefs, the three inputs' at read contents `xY`, `xW`, `xB` and the output's at
    anything, runs to the continuation holding the inputs' as they were and the output's at `out2` of them: seven loads
    of the inputs, a load of the output block whose value is not used, and the one store of the whole block. -/
theorem sound_kernel2 (c : Dev nD) (E : Set ℕ) (i : grid2.Coords)
    (arg1 : Memref sig .tc .vmem S3x1024x128 .f32) (harg1 : arg1.IsWhole) (arg2 : Memref sig .tc .vmem S3x128x128 .f32) (harg2 : arg2.IsWhole)
    (arg3 : Memref sig .tc .vmem S1x128 .f32) (harg3 : arg3.IsWhole) (arg4 : Memref sig .tc .vmem S1024x128 .f32) (harg4 : arg4.IsWhole)
    (xY : Vec F S3x1024x128 .f32) (xW : Vec F S3x128x128 .f32) (xB : Vec F S1x128 .f32) (K : PUnit → sProp 𝕄) :
    iprop(owns (c : Thread nD τ) arg1 fullShare xY ∗ owns (c : Thread nD τ) arg2 fullShare xW ∗ owns (c : Thread nD τ) arg3 fullShare xB
        ∗ (∃ d, owns (c : Thread nD τ) arg4 fullShare d)
        ∗ (iprop(owns (c : Thread nD τ) arg1 fullShare xY ∗ owns (c : Thread nD τ) arg2 fullShare xW ∗ owns (c : Thread nD τ) arg3 fullShare xB
            ∗ owns (c : Thread nD τ) arg4 fullShare (out2 xY xW xB)) -∗ K ⟨⟩))
      ⊢ wp frame (wpE (defs₀ (F := F)) Variants.none c none) E (cc2__combine_kernel i arg1 harg1 arg2 harg2 arg3 harg3 arg4 harg4) K := by
  simp only [cc2__combine_kernel_eq_skeleton]; unfold cc2__combine_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-! ## The pipeline's proof data -/

/-- The proof data of the region's pipeline on core `c`: the arrays as the region finds them (`V`); after the body at
    point `t` each input's buffer at its block and the output's at `out2` of the three input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

/-- Each input's current staging buffer holds its block at every point, fetched there or not: an input the body leaves
    in place, at a point that does not fetch it, has the block index of the point before, so the buffer's contents — the
    previous point's block — are this point's block. Window 0 is fetched at every point; windows 1 and 2 at the first
    only, their block index constant. All three are uncut and never idle. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-! ## The body obligation, at a generic point -/

/-- What the body is called with at point `t`: the invariant, what the core owes, and each window's current staging
    buffer at what it then holds, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the three inputs' buffers hold their blocks (`before2_W`), the output's anything, so the
    body's triple applies; the invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.H

end
-- ==== Proof.KI.Assemble.lean ====
/- THE RUN OF @main THROUGH ITS THREE REGIONS, against abstract per-region proof data.

   @main is eight items: three host stretches, region 0 (custom_call 0), a host stretch, region 1 (custom_call 1), a host
   stretch, region 2 (custom_call 2). Given, for each region, a family of proof data built over the contents of the
   TensorCores' buffers at the region's entry, with its arrays starting at those contents, its invariant at both ends the
   class invariant, nothing owed, and the kernel's body obligation (`RegionData`), this file proves `run_main`: every
   weakly fair execution of @main terminates, the result buffer `main_v39` ends holding what region 2's pipeline leaves in
   it, and every argument ends as launched.

   What is particular to this program: in regions 0 and 1 windows 2 and 3 are blocks of ONE array (`main_v26`), so the
   five windows stand on four buffers. At a region's entry the core holds each of the four whole; the pipeline wants one
   points-to per window, so the shared buffer is cut into the two halves of the full share (`q01`), one per window, and at
   the exit the halves are joined again (§ Region0, § Region1: the same text on other buffers). Region 2's four windows
   stand on four distinct buffers and the library's lemmas for that case apply.

   The regions' outputs, which the generated valuations `V0 … V8` leave unknown, are computed in @main's order (`X0 X1 X2`,
   `outs`), each from proof data over the contents the region is entered from. -/
import proofs.«138934_j78142634983584_1_alg».proof.Proof.Gen.KernelIdeal.Launch
import proofs.«138934_j78142634983584_1_alg».proof.Proof.Gen.KernelIdeal.Skeleton
import proofs.«138934_j78142634983584_1_alg».proof.Proof.Gen.KernelIdeal.Points
import proofs.«138934_j78142634983584_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The shares regions 0 and 1 hold their input windows' arrays at: windows 2 and 3 read blocks of ONE array, so each
    holds one half of it; every other array is held whole. -/
def q01 : Fin 5 → PosShare TreeShare := fun w => if w = 2 then fullShare.left else if w = 3 then fullShare.right else fullShare

section Region0

variable (c : Dev nD) (dat : Dat τ (Elt F) Unit ℕ (UR sig nD τ) ℕ cfg0 c) (hq : dat.q = q01)

include hq in
/-- The share region 0's proof data hold each window's array at. -/
theorem share0 : dat.share 0 = fullShare ∧ dat.share 1 = fullShare ∧ dat.share 2 = fullShare.left
    ∧ dat.share 3 = fullShare.right ∧ dat.share 4 = fullShare := by
  unfold Dat.share; rw [hq]; exact ⟨rfl, rfl, rfl, rfl, rfl⟩

/-- Every window's array of region 0 is a whole buffer: its element set is all of it. -/
theorem set0 (w : Fin cfg0.W) : (cfg0.win w).arr.view.set = Finset.univ := (arr_whole0 w).set_eq_univ

set_option maxHeartbeats 2000000 in
/-- The distinct buffers behind region 0's five windows are four: the matrix, the vector block, the one buffer windows
    2 and 3 both read, and the output. -/
theorem arrBufs0_eq (V : (b : Ref sig .tc) → Buf (Elt F) ((c : Thread nD τ).loc b)) :
    (Pipeline.arrBufs spec0 c V : sProp 𝕄)
      = iprop(((c : Thread nD τ).loc main_v19 ↦{fullShare} V main_v19) ∗ ((c : Thread nD τ).loc main_arg0 ↦{fullShare} V main_arg0)
          ∗ ((c : Thread nD τ).loc main_v26 ↦{fullShare} V main_v26) ∗ ((c : Thread nD τ).loc main_v27 ↦{fullShare} V main_v27)) := by
  unfold Pipeline.arrBufs
  rw [show (Finset.univ.image (Pipeline.arrRef spec0) : Finset (Ref sig .tc)) = {main_v19, main_arg0, main_v26, main_v27} from by decide,
    bigSep_insert (by decide), bigSep_insert (by decide), bigSep_insert (by decide), bigSep_singleton]
  rfl

set_option maxHeartbeats 2000000 in
include hq in
/-- Region 0's windowed arrays at contents that are a valuation's (`hG`): the five windows' points-tos, the buffer
    windows 2 and 3 share held in its two halves. -/
theorem arrays0_eq (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (dat.arrays G : sProp 𝕄)
      = iprop(((c : Thread nD τ).loc main_v19 ↦{fullShare} V main_v19) ∗ ((c : Thread nD τ).loc main_arg0 ↦{fullShare} V main_arg0)
          ∗ ((c : Thread nD τ).loc main_v26 ↦{fullShare.left} V main_v26) ∗ ((c : Thread nD τ).loc main_v26 ↦{fullShare.right} V main_v26)
          ∗ ((c : Thread nD τ).loc main_v27 ↦{fullShare} V main_v27)) := by
  obtain ⟨s0, s1, s2, s3, s4⟩ := share0 c dat hq
  unfold Dat.arrays
  rw [bigSep_W0, set0 0, set0 1, set0 2, set0 4, s0, s1, s2, s3, s4, hG 0, hG 1, hG 2, hG 3, hG 4]

include hq in
/-- The four distinct buffers behind the five windows, each held whole, are the windows' arrays at the proof data's
    shares: the buffer windows 2 and 3 share is cut into its two halves. -/
theorem arrays0_of_arrBufs (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (Pipeline.arrBufs spec0 c V : sProp 𝕄) ⊢ dat.arrays G := by
  rw [arrBufs0_eq c V, arrays0_eq c dat hq V G hG]
  iintro ⟨H19, Ha0, H26, H27⟩
  ihave H := (pointsTo_share (PosShare.mem_left_op_right fullShare)).1 $$ H26
  icases H with ⟨Hl, Hr⟩
  isplitl [H19]; · iexact H19
  isplitl [Ha0]; · iexact Ha0
  isplitl [Hl]; · iexact Hl
  isplitl [Hr]; · iexact Hr
  iexact H27

include hq in
/-- The windows' arrays at the proof data's shares are the four distinct buffers behind them, each held whole: the
    two halves of the buffer windows 2 and 3 share joined again. -/
theorem arrBufs_of_arrays0 (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    dat.arrays G ⊢ (Pipeline.arrBufs spec0 c V : sProp 𝕄) := by
  rw [arrBufs0_eq c V, arrays0_eq c dat hq V G hG]
  iintro ⟨H19, Ha0, Hl, Hr, H27⟩
  isplitl [H19]; · iexact H19
  isplitl [Ha0]; · iexact Ha0
  isplitl [Hl Hr]
  · iapply (pointsTo_share (PosShare.mem_left_op_right fullShare)).2
    isplitl [Hl]; · iexact Hl
    iexact Hr
  iexact H27

include hq in
/-- ENTRY of region 0, the arrays' part: a core's unscoped buffers at contents `V` are the region's arrays at the proof
    data's entry contents — those being read off `V` (`hA`) — and the unscoped rest. -/
theorem arrays0_of_unscopedBufs (V : (b : Ref sig .tc) → Buf (Elt F) ((c : Thread nD τ).loc b))
    (hA : ∀ w, dat.A w = V (Pipeline.arrRef spec0 w)) :
    (unscopedBufs c V : sProp 𝕄) ⊢ iprop(dat.arrays (dat.arrAt · 0) ∗ Pipeline.unscopedRest spec0 c V) := by
  have hsplit : (unscopedBufs c V : sProp 𝕄) = iprop(Pipeline.arrBufs spec0 c V ∗ Pipeline.unscopedRest spec0 c V) :=
    Pipeline.unscopedBufs_split₀ cfgs 0 winFacts₀0.arr_unscoped c V
  rw [hsplit]
  exact sep_mono (arrays0_of_arrBufs c dat hq V _ hA) .rfl

include hq in
/-- EXIT of region 0, the arrays' part: the region's arrays at contents `G` and the unscoped rest at `V` are the core's
    unscoped buffers at any valuation `V'` that has the arrays at `G` and agrees with `V` off them. -/
theorem unscopedBufs_of_arrays0 (V V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w))
    (hrest : ∀ b, b ∉ Finset.univ.image (Pipeline.arrRef spec0) → V' b = V b) :
    iprop(dat.arrays G ∗ Pipeline.unscopedRest spec0 c V) ⊢ (unscopedBufs c V' : sProp 𝕄) := by
  have hsplit : (unscopedBufs c V' : sProp 𝕄) = iprop(Pipeline.arrBufs spec0 c V' ∗ Pipeline.unscopedRest spec0 c V') :=
    Pipeline.unscopedBufs_split₀ cfgs 0 winFacts₀0.arr_unscoped c V'
  rw [hsplit]
  refine sep_mono (arrBufs_of_arrays0 c dat hq V' G hG) (Entails.of_eq ?_)
  unfold Pipeline.unscopedRest
  exact bigSep_congr fun b hb => by rw [hrest b (Finset.mem_sdiff.mp hb).2]

end Region0

section Region1

variable (c : Dev nD) (dat : Dat τ (Elt F) Unit ℕ (UR sig nD τ) ℕ cfg1 c) (hq : dat.q = q01)

include hq in
/-- The share region 1's proof data hold each window's array at. -/
theorem share1 : dat.share 0 = fullShare ∧ dat.share 1 = fullShare ∧ dat.share 2 = fullShare.left
    ∧ dat.share 3 = fullShare.right ∧ dat.share 4 = fullShare := by
  unfold Dat.share; rw [hq]; exact ⟨rfl, rfl, rfl, rfl, rfl⟩

/-- Every window's array of region 1 is a whole buffer: its element set is all of it. -/
theorem set1 (w : Fin cfg1.W) : (cfg1.win w).arr.view.set = Finset.univ := (arr_whole1 w).set_eq_univ

set_option maxHeartbeats 2000000 in
/-- The distinct buffers behind region 1's five windows are four: the matrix, the vector block, the one buffer windows
    2 and 3 both read, and the output. -/
theorem arrBufs1_eq (V : (b : Ref sig .tc) → Buf (Elt F) ((c : Thread nD τ).loc b)) :
    (Pipeline.arrBufs spec1 c V : sProp 𝕄)
      = iprop(((c : Thread nD τ).loc main_v19 ↦{fullShare} V main_v19) ∗ ((c : Thread nD τ).loc main_v28 ↦{fullShare} V main_v28)
          ∗ ((c : Thread nD τ).loc main_v26 ↦{fullShare} V main_v26) ∗ ((c : Thread nD τ).loc main_v29 ↦{fullShare} V main_v29)) := by
  unfold Pipeline.arrBufs
  rw [show (Finset.univ.image (Pipeline.arrRef spec1) : Finset (Ref sig .tc)) = {main_v19, main_v28, main_v26, main_v29} from by decide,
    bigSep_insert (by decide), bigSep_insert (by decide), bigSep_insert (by decide), bigSep_singleton]
  rfl

set_option maxHeartbeats 2000000 in
include hq in
/-- Region 1's windowed arrays at contents that are a valuation's (`hG`): the five windows' points-tos, the buffer
    windows 2 and 3 share held in its two halves. -/
theorem arrays1_eq (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (dat.arrays G : sProp 𝕄)
      = iprop(((c : Thread nD τ).loc main_v19 ↦{fullShare} V main_v19) ∗ ((c : Thread nD τ).loc main_v28 ↦{fullShare} V main_v28)
          ∗ ((c : Thread nD τ).loc main_v26 ↦{fullShare.left} V main_v26) ∗ ((c : Thread nD τ).loc main_v26 ↦{fullShare.right} V main_v26)
          ∗ ((c : Thread nD τ).loc main_v29 ↦{fullShare} V main_v29)) := by
  obtain ⟨s0, s1, s2, s3, s4⟩ := share1 c dat hq
  unfold Dat.arrays
  rw [bigSep_W1, set1 0, set1 1, set1 2, set1 4, s0, s1, s2, s3, s4, hG 0, hG 1, hG 2, hG 3, hG 4]

include hq in
/-- The four distinct buffers behind the five windows, each held whole, are the windows' arrays at the proof data's
    shares: the buffer windows 2 and 3 share is cut into its two halves. -/
theorem arrays1_of_arrBufs (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs spec1 c V : sProp 𝕄) ⊢ dat.arrays G := by
  rw [arrBufs1_eq c V, arrays1_eq c dat hq V G hG]
  iintro ⟨H19, Hv28, H26, H27⟩
  ihave H := (pointsTo_share (PosShare.mem_left_op_right fullShare)).1 $$ H26
  icases H with ⟨Hl, Hr⟩
  isplitl [H19]; · iexact H19
  isplitl [Hv28]; · iexact Hv28
  isplitl [Hl]; · iexact Hl
  isplitl [Hr]; · iexact Hr
  iexact H27

include hq in
/-- The windows' arrays at the proof data's shares are the four distinct buffers behind them, each held whole: the
    two halves of the buffer windows 2 and 3 share joined again. -/
theorem arrBufs_of_arrays1 (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    dat.arrays G ⊢ (Pipeline.arrBufs spec1 c V : sProp 𝕄) := by
  rw [arrBufs1_eq c V, arrays1_eq c dat hq V G hG]
  iintro ⟨H19, Hv28, Hl, Hr, H27⟩
  isplitl [H19]; · iexact H19
  isplitl [Hv28]; · iexact Hv28
  isplitl [Hl Hr]
  · iapply (pointsTo_share (PosShare.mem_left_op_right fullShare)).2
    isplitl [Hl]; · iexact Hl
    iexact Hr
  iexact H27

include hq in
/-- ENTRY of region 1, the arrays' part: a core's unscoped buffers at contents `V` are the region's arrays at the proof
    data's entry contents — those being read off `V` (`hA`) — and the unscoped rest. -/
theorem arrays1_of_unscopedBufs (V : (b : Ref sig .tc) → Buf (Elt F) ((c : Thread nD τ).loc b))
    (hA : ∀ w, dat.A w = V (Pipeline.arrRef spec1 w)) :
    (unscopedBufs c V : sProp 𝕄) ⊢ iprop(dat.arrays (dat.arrAt · 0) ∗ Pipeline.unscopedRest spec1 c V) := by
  have hsplit : (unscopedBufs c V : sProp 𝕄) = iprop(Pipeline.arrBufs spec1 c V ∗ Pipeline.unscopedRest spec1 c V) :=
    Pipeline.unscopedBufs_split₀ cfgs 1 winFacts₀1.arr_unscoped c V
  rw [hsplit]
  exact sep_mono (arrays1_of_arrBufs c dat hq V _ hA) .rfl

include hq in
/-- EXIT of region 1, the arrays' part: the region's arrays at contents `G` and the unscoped rest at `V` are the core's
    unscoped buffers at any valuation `V'` that has the arrays at `G` and agrees with `V` off them. -/
theorem unscopedBufs_of_arrays1 (V V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  have hsplit : (unscopedBufs c V' : sProp 𝕄) = iprop(Pipeline.arrBufs spec1 c V' ∗ Pipeline.unscopedRest spec1 c V') :=
    Pipeline.unscopedBufs_split₀ cfgs 1 winFacts₀1.arr_unscoped c V'
  rw [hsplit]
  refine sep_mono (arrBufs_of_arrays1 c dat hq V' G hG) (Entails.of_eq ?_)
  unfold Pipeline.unscopedRest
  exact bigSep_congr fun b hb => by rw [hrest b (Finset.mem_sdiff.mp hb).2]

end Region1

/-- The contents of the TensorCores' buffers, core by core: what a region's proof data are built over. -/
abbrev TcBufs (F : FTy → Type) : Type := (c : Dev nD) → (b : Ref sig .tc) → Buf (Elt F) ((c : Thread nD τ).loc b)

/-- The three regions' proof data with what the run needs of them, and nothing else: each family is built over the
    contents of the TensorCores' buffers at the region's entry (regions 0 and 1 also over the shares of their input
    arrays); its arrays start at those contents; its invariant at the two ends is the class invariant (the scoped buffers
    no window stages and the generator register); it owes nothing, assumes nothing of the recorded pairs at entry; and
    the kernel's body meets its obligation. -/
structure RegionData (F : FTy → Type) [FloatOps F] where
  dat0 : TcBufs F → (Fin cfg0.W → PosShare TreeShare) → (c : Dev nD) → Dat τ (Elt F) Unit ℕ (UR sig nD τ) ℕ cfg0 c
  dat1 : TcBufs F → (Fin cfg1.W → PosShare TreeShare) → (c : Dev nD) → Dat τ (Elt F) Unit ℕ (UR sig nD τ) ℕ cfg1 c
  dat2 : TcBufs F → (c : Dev nD) → Dat τ (Elt F) Unit ℕ (UR sig nD τ) ℕ cfg2 c
  hA0 : ∀ V q c w, (dat0 V q c).A w = V c (Pipeline.arrRef spec0 w)
  hA1 : ∀ V q c w, (dat1 V q c).A w = V c (Pipeline.arrRef spec1 w)
  hA2 : ∀ V c w, (dat2 V c).A w = V c (Pipeline.arrRef spec2 w)
  hq0 : ∀ V q c, (dat0 V q c).q = q
  hq1 : ∀ V q c, (dat1 V q c).q = q
  hq2 : ∀ V c w, (dat2 V c).q w = fullShare
  hΦ0z : ∀ V q c, (dat0 V q c).Φ 0 = Pipeline.ΦA spec0 c
  hΦ0l : ∀ V q c, (dat0 V q c).Φ (Fin.last cfg0.N) ⊢ Pipeline.ΦA spec0 c
  hΦ1z : ∀ V q c, (dat1 V q c).Φ 0 = Pipeline.ΦA spec1 c
  hΦ1l : ∀ V q c, (dat1 V q c).Φ (Fin.last cfg1.N) ⊢ Pipeline.ΦA spec1 c
  hΦ2z : ∀ V c, (dat2 V c).Φ 0 = Pipeline.ΦA spec2 c
  hΦ2l : ∀ V c, (dat2 V c).Φ (Fin.last cfg2.N) ⊢ Pipeline.ΦA spec2 c
  howed0 : ∀ V q c t, (dat0 V q c).owed t = 0
  howed1 : ∀ V q c t, (dat1 V q c).owed t = 0
  howed2 : ∀ V c t, (dat2 V c).owed t = 0
  hrec0 : ∀ V q c, (dat0 V q c).recorded 0 = Set.univ
  hrec1 : ∀ V q c, (dat1 V q c).recorded 0 = Set.univ
  hrec2 : ∀ V c, (dat2 V c).recorded 0 = Set.univ
  hbody0 : ∀ V q c, BodyObligation (dat0 V q c) (defs₀ (F := F)) Variants.none () Set.univ
  hbody1 : ∀ V q c, BodyObligation (dat1 V q c) (defs₀ (F := F)) Variants.none () Set.univ
  hbody2 : ∀ V c, BodyObligation (dat2 V c) (defs₀ (F := F)) Variants.none () Set.univ

section Run

variable (D : RegionData F) (m : (ℓ : Loc nD τ sig) → Buf (Elt F) ℓ)

/-! ## The buffers' contents between items, the regions' outputs computed

The generated valuations `V0 … V8` are written over unknown region outputs. Here the unknowns are computed, in @main's
order: each region's output array holds what its pipeline's write-backs leave (`Dat.arrAt` at the last point), its
proof data built over the contents the region is entered from. -/

/-- Region 0 is entered from the launch contents after the first three host stretches. -/
abbrev Vent0 : TcBufs F := fun c b => V3 m c b
/-- What region 0 leaves in its output array `main_v27`. -/
def X0 (c : Dev nD) : Buf (Elt F) ((c : Thread nD τ).loc main_v27) := (D.dat0 (Vent0 m) q01 c).arrAt 4 cfg0.N
/-- The buffers after region 0, -/
abbrev U4 (c : Dev nD) : Valuation τ sig (Elt F) := Function.update (V3 m c) main_v27 (X0 D m c)
/-- and after the host stretch that follows it: what region 1 is entered from. -/
abbrev U5 (c : Dev nD) : Valuation τ sig (Elt F) := StableHlo.after hostOps1 (U4 D m c)
abbrev Vent1 : TcBufs F := fun c b => U5 D m c b
/-- What region 1 leaves in its output array `main_v29`. -/
def X1 (c : Dev nD) : Buf (Elt F) ((c : Thread nD τ).loc main_v29) := (D.dat1 (Vent1 D m) q01 c).arrAt 4 cfg1.N
/-- The buffers after region 1, -/
abbrev U6 (c : Dev nD) : Valuation τ sig (Elt F) := Function.update (U5 D m c) main_v29 (X1 D m c)
/-- and after the host stretch that follows it: what region 2 is entered from. -/
abbrev U7 (c : Dev nD) : Valuation τ sig (Elt F) := StableHlo.after hostOps2 (U6 D m c)
abbrev Vent2 : TcBufs F := fun c b => U7 D m c b
/-- What region 2 leaves in its output array `main_v39`: the program's result. -/
def X2 (c : Dev nD) : Buf (Elt F) ((c : Thread nD τ).loc main_v39) := (D.dat2 (Vent2 D m) c).arrAt 3 cfg2.N
/-- The buffers after region 2, at the return. -/
abbrev U8 (c : Dev nD) : Valuation τ sig (Elt F) := Function.update (U7 D m c) main_v39 (X2 D m c)

/-- The regions' outputs as the generated valuations read them: after item `J - 1` the buffers hold `U J`. -/
def outs : Outs (F := F) := fun J r c => if J = 4 then U4 D m c r else if J = 6 then U6 D m c r else U8 D m c r

theorem outs_4 (c : Dev nD) : outs D m 4 main_v27 c = X0 D m c := by
  show U4 D m c main_v27 = _
  exact Function.update_self _ _ _
theorem outs_6 (c : Dev nD) : outs D m 6 main_v29 c = X1 D m c := by
  show U6 D m c main_v29 = _
  exact Function.update_self _ _ _
theorem outs_8 (c : Dev nD) : outs D m 8 main_v39 c = X2 D m c := by
  show U8 D m c main_v39 = _
  exact Function.update_self _ _ _

/-- With the outputs so computed the generated valuations are the ones above. -/
theorem V4_eq (c : Dev nD) : V4 m (outs D m) c = U4 D m c := by
  show Function.update (V3 m c) main_v27 (outs D m 4 main_v27 c) = _
  rw [outs_4]
theorem V5_eq (c : Dev nD) : V5 m (outs D m) c = U5 D m c := congrArg (StableHlo.after hostOps1) (V4_eq D m c)
theorem V6_eq (c : Dev nD) : V6 m (outs D m) c = U6 D m c := by
  show Function.update (V5 m (outs D m) c) main_v29 (outs D m 6 main_v29 c) = _
  rw [outs_6, V5_eq]
theorem V7_eq (c : Dev nD) : V7 m (outs D m) c = U7 D m c := congrArg (StableHlo.after hostOps2) (V6_eq D m c)
theorem V8_eq (c : Dev nD) : V8 m (outs D m) c = U8 D m c := by
  show Function.update (V7 m (outs D m) c) main_v39 (outs D m 8 main_v39 c) = _
  rw [outs_8, V7_eq]

/-! ## The proof data family, and what rides beside the buffers -/

/-- Every pipeline's proof data, each built over the contents its region is entered from — a literal match on the
    pipeline's index, so that at a numeral it reduces to that region's data over that region's configuration. -/
def pdats : (p : Fin 3) → (c : Dev nD) → Dat τ (Elt F) Unit ℕ (UR sig nD τ) ℕ (cfgs p) c
  | ⟨0, _⟩ => fun c => D.dat0 (Vent0 m) q01 c
  | ⟨1, _⟩ => fun c => D.dat1 (Vent1 D m) q01 c
  | ⟨2, _⟩ => fun c => D.dat2 (Vent2 D m) c

/-- No core owes another anything: no level is assigned. -/
abbrev noL : GSem nD τ sig → Finset Unit := fun _ => ∅
abbrev nolv : GSem nD τ sig → Unit → ℕ := fun _ _ => 0

/-- What rides beside the buffers through every item: the core's generator register at some state (a region's
    invariant takes it in and gives it back) and the core owing nothing. -/
abbrev Ride (c : Dev nD) : sProp 𝕄 := iprop((∃ r, prngReg c r) ∗ ∃ W, owes (c : Thread nD τ) (0 : CellTallies nD τ sig Unit) W)

/-- A core that owes nothing enters a pipeline whose proof data owe nothing and bound the recorded pairs by nothing. -/
theorem owesAt_of_owes {cfg : Cfg sig Λ₀} (c : Dev nD) (dat : Dat τ (Elt F) Unit ℕ (UR sig nD τ) ℕ cfg c)
    (howed : dat.owed 0 = 0) (hrec : dat.recorded 0 = Set.univ) :
    (iprop(∃ W, owes (c : Thread nD τ) (0 : CellTallies nD τ sig Unit) W) : sProp 𝕄) ⊢ dat.owesAt () 0 := by
  unfold Dat.owesAt Pipeline.owesWithin Dat.bound
  rw [howed, hrec]
  iintro ⟨%W, HO⟩
  iexists W
  isplitr; · ipureintro; exact fun _ _ => Or.inl trivial
  iexact HO

/-- and leaves it owing nothing. -/
theorem owes_of_owesAt {cfg : Cfg sig Λ₀} (c : Dev nD) (dat : Dat τ (Elt F) Unit ℕ (UR sig nD τ) ℕ cfg c)
    (howed : dat.owed (Fin.last cfg.N) = 0) :
    dat.owesAt () (Fin.last cfg.N) ⊢ (iprop(∃ W, owes (c : Thread nD τ) (0 : CellTallies nD τ sig Unit) W) : sProp 𝕄) := by
  unfold Dat.owesAt Pipeline.owesWithin
  rw [howed]
  iintro ⟨%W, -, HO⟩
  iexists W
  iexact HO

/-! ## Region 2: four windows on four distinct arrays -/

/-- At region 2's exit each of its arrays holds what the valuation after it says: the output what the pipeline leaves,
    an input — never written — what the region was entered from. -/
theorem hF2 (c : Dev nD) : ∀ w : Fin 4, (D.dat2 (Vent2 D m) c).arrAt w cfg2.N = U8 D m c (Pipeline.arrRef spec2 w)
  | 0 => ((D.dat2 (Vent2 D m) c).arrAt_in 0 rfl _).trans ((D.hA2 _ c 0).trans (Function.update_of_ne (StableHlo.devRef_ne_of_ne (by decide)) _ _).symm)
  | 1 => ((D.dat2 (Vent2 D m) c).arrAt_in 1 rfl _).trans ((D.hA2 _ c 1).trans (Function.update_of_ne (StableHlo.devRef_ne_of_ne (by decide)) _ _).symm)
  | 2 => ((D.dat2 (Vent2 D m) c).arrAt_in 2 rfl _).trans ((D.hA2 _ c 2).trans (Function.update_of_ne (StableHlo.devRef_ne_of_ne (by decide)) _ _).symm)
  | 3 => by
    show X2 D m c = Function.update (U7 D m c) main_v39 (X2 D m c) main_v39
    rw [Function.update_self]
  | ⟨_ + 4, h⟩ => absurd h (Nat.not_lt.2 (Nat.le_add_left _ _))
/-- Off region 2's arrays nothing changes. -/
theorem hrest2 (c : Dev nD) (b : Ref sig .tc) (hb : b ∉ Finset.univ.image (Pipeline.arrRef spec2)) : U8 D m c b = U7 D m c b :=
  Function.update_of_ne (StableHlo.devRef_ne_of_ne (x := b) (y := main_v39) (by rintro rfl; exact hb (by decide))) _ _

set_option backward.isDefEq.respectTransparency.types false in
/-- REGION 2 (custom_call 2) over the thread state: entered from every unscoped buffer at `V7`, left at `V8`. Its four
    arrays are distinct buffers: they split out of the unscoped buffers and go back at the exit contents; the generator
    register goes into the class invariant and comes out; nothing is owed; the kernel has no semaphore of its own. -/
def reg2 : Pipeline.RegionSeg (pcfgs (F := F)) adm (pdats D m) () defs₀ Variants.none noL nolv 2 where
  win := winFacts2.to₀
  block_pos := block_pos2
  stage_whole := stage_whole2
  K := PEmpty
  osem k := k.elim
  ho := Pipeline.OwnSemFacts.none _
  hbody c := (D.hbody2 (Vent2 D m) c).loose
  hwaits := Pipeline.hwaits_of_owed_zero _ _ _ _ noL nolv 2 fun c t => D.howed2 _ c t
  pre c := iprop(StableHlo.held (c : Thread nD τ) (Pipeline.ucRefs τ sig) (V7 m (outs D m) c) ∗ Ride c)
  post c := iprop(StableHlo.held (c : Thread nD τ) (Pipeline.ucRefs τ sig) (V8 m (outs D m) c) ∗ Ride c)
  X c := iprop(∃ r, prngReg c r)
  Y c := iprop(∃ r, prngReg c r)
  Z c := Pipeline.unscopedRest (Ix := Unit) (Name := ℕ) (U := UR sig nD τ) (Lvl := ℕ) spec2 c (Vent2 D m c)
  hentry c := by
    rw [Pipeline.ownSems0_none, V7_eq D m c]
    have hsplit := Pipeline.arrays_of_unscopedBufs (p := 2) (pcfgs (F := F)) adm (pdats D m) winFacts2 arr_whole2 c
      ((pdats D m 2 c).share_full fun w => D.hq2 _ c w) (Vent2 D m c) fun w => D.hA2 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · iapply (owesAt_of_owes c (pdats D m 2 c) (D.howed2 _ c 0) (D.hrec2 _ c)); iexact HO
    isplitl [Hp]; · iexact Hp
    iexact Hrest
  hin c := by
    rw [show (pdats D m 2 c).Φ 0 = Pipeline.ΦA spec2 c from D.hΦ2z _ c]; unfold Pipeline.ΦA
    iintro ⟨Hp, -, Hr⟩
    isplitl [Hr]; · iexact Hr
    iexact Hp
  hout c := by
    rw [Pipeline.ownSems0_none]
    refine (show (pdats D m 2 c).Φ (Fin.last _) ⊢ Pipeline.ΦA spec2 c from D.hΦ2l _ c).trans ?_
    unfold Pipeline.ΦA
    iintro ⟨Hr, Hp⟩
    isplitl [Hp]; · iexact Hp
    isplitr; · iempintro
    iexact Hr
  hexit c := by
    rw [V8_eq D m c]
    have hjoin := Pipeline.unscopedBufs_of_arrays (p := 2) (pcfgs (F := F)) adm (Ix := Unit) (Name := ℕ) (U := UR sig nD τ) (Lvl := ℕ)
      winFacts2 arr_whole2 c (pdats D m) ((pdats D m 2 c).share_full fun w => D.hq2 _ c w)
      (Vent2 D m c) (fun b => U8 D m c b) ((pdats D m 2 c).arrAt · cfg2.N) (hF2 D m c) (hrest2 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt c (pdats D m 2 c) (D.howed2 _ c _)); iexact HO

/-! ## Region 0: five windows on four buffers -/

/-- At region 0's exit each of its arrays holds what the valuation after it says: the output what the pipeline leaves,
    an input — never written — what the region was entered from. -/
theorem hF0 (c : Dev nD) : ∀ w : Fin 5, (D.dat0 (Vent0 m) q01 c).arrAt w cfg0.N = U4 D m c (Pipeline.arrRef spec0 w)
  | 0 => ((D.dat0 (Vent0 m) q01 c).arrAt_in 0 rfl _).trans ((D.hA0 _ _ c 0).trans (Function.update_of_ne (StableHlo.devRef_ne_of_ne (by decide)) _ _).symm)
  | 1 => ((D.dat0 (Vent0 m) q01 c).arrAt_in 1 rfl _).trans ((D.hA0 _ _ c 1).trans (Function.update_of_ne (StableHlo.devRef_ne_of_ne (by decide)) _ _).symm)
  | 2 => ((D.dat0 (Vent0 m) q01 c).arrAt_in 2 rfl _).trans ((D.hA0 _ _ c 2).trans (Function.update_of_ne (StableHlo.devRef_ne_of_ne (by decide)) _ _).symm)
  | 3 => ((D.dat0 (Vent0 m) q01 c).arrAt_in 3 rfl _).trans ((D.hA0 _ _ c 3).trans (Function.update_of_ne (StableHlo.devRef_ne_of_ne (by decide)) _ _).symm)
  | 4 => by
    show X0 D m c = Function.update (V3 m c) main_v27 (X0 D m c) main_v27
    rw [Function.update_self]
  | ⟨_ + 5, h⟩ => absurd h (Nat.not_lt.2 (Nat.le_add_left _ _))
/-- Off region 0's arrays nothing changes. -/
theorem hrest0 (c : Dev nD) (b : Ref sig .tc) (hb : b ∉ Finset.univ.image (Pipeline.arrRef spec0)) : U4 D m c b = V3 m c b :=
  Function.update_of_ne (StableHlo.devRef_ne_of_ne (x := b) (y := main_v27) (by rintro rfl; exact hb (by decide))) _ _

set_option backward.isDefEq.respectTransparency.types false in
/-- REGION 0 (custom_call 0) over the thread state: entered from every unscoped buffer at `V3`, left at `V4`. The four
    buffers behind its five windows split out of the unscoped buffers, the one windows 2 and 3 share in its two halves,
    and go back whole at the exit contents; the generator register goes into the class invariant and comes out; nothing
    is owed; the kernel has no semaphore of its own. -/
def reg0 : Pipeline.RegionSeg (pcfgs (F := F)) adm (pdats D m) () defs₀ Variants.none noL nolv 0 where
  win := winFacts₀0
  block_pos := block_pos0
  stage_whole := stage_whole0
  K := PEmpty
  osem k := k.elim
  ho := Pipeline.OwnSemFacts.none _
  hbody c := (D.hbody0 (Vent0 m) q01 c).loose
  hwaits := Pipeline.hwaits_of_owed_zero _ _ _ _ noL nolv 0 fun c t => D.howed0 _ _ c t
  pre c := iprop(StableHlo.held (c : Thread nD τ) (Pipeline.ucRefs τ sig) (V3 m c) ∗ Ride c)
  post c := iprop(StableHlo.held (c : Thread nD τ) (Pipeline.ucRefs τ sig) (V4 m (outs D m) c) ∗ Ride c)
  X c := iprop(∃ r, prngReg c r)
  Y c := iprop(∃ r, prngReg c r)
  Z c := Pipeline.unscopedRest (Ix := Unit) (Name := ℕ) (U := UR sig nD τ) (Lvl := ℕ) spec0 c (Vent0 m c)
  hentry c := by
    rw [Pipeline.ownSems0_none]
    have hsplit := arrays0_of_unscopedBufs c (pdats D m 0 c) (D.hq0 _ _ c) (Vent0 m c) fun w => D.hA0 _ _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · iapply (owesAt_of_owes c (pdats D m 0 c) (D.howed0 _ _ c 0) (D.hrec0 _ _ c)); iexact HO
    isplitl [Hp]; · iexact Hp
    iexact Hrest
  hin c := by
    rw [show (pdats D m 0 c).Φ 0 = Pipeline.ΦA spec0 c from D.hΦ0z _ _ c]; unfold Pipeline.ΦA
    iintro ⟨Hp, -, Hr⟩
    isplitl [Hr]; · iexact Hr
    iexact Hp
  hout c := by
    rw [Pipeline.ownSems0_none]
    refine (show (pdats D m 0 c).Φ (Fin.last _) ⊢ Pipeline.ΦA spec0 c from D.hΦ0l _ _ c).trans ?_
    unfold Pipeline.ΦA
    iintro ⟨Hr, Hp⟩
    isplitl [Hp]; · iexact Hp
    isplitr; · iempintro
    iexact Hr
  hexit c := by
    rw [V4_eq D m c]
    have hjoin := unscopedBufs_of_arrays0 c (pdats D m 0 c) (D.hq0 _ _ c) (Vent0 m c) (fun b => U4 D m c b)
      ((pdats D m 0 c).arrAt · cfg0.N) (hF0 D m c) (hrest0 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt c (pdats D m 0 c) (D.howed0 _ _ c _)); iexact HO

/-! ## Region 1: region 0 again, on other buffers -/

/-- At region 1's exit each of its arrays holds what the valuation after it says: the output what the pipeline leaves,
    an input — never written — what the region was entered from. -/
theorem hF1 (c : Dev nD) : ∀ w : Fin 5, (D.dat1 (Vent1 D m) q01 c).arrAt w cfg1.N = U6 D m c (Pipeline.arrRef spec1 w)
  | 0 => ((D.dat1 (Vent1 D m) q01 c).arrAt_in 0 rfl _).trans ((D.hA1 _ _ c 0).trans (Function.update_of_ne (StableHlo.devRef_ne_of_ne (by decide)) _ _).symm)
  | 1 => ((D.dat1 (Vent1 D m) q01 c).arrAt_in 1 rfl _).trans ((D.hA1 _ _ c 1).trans (Function.update_of_ne (StableHlo.devRef_ne_of_ne (by decide)) _ _).symm)
  | 2 => ((D.dat1 (Vent1 D m) q01 c).arrAt_in 2 rfl _).trans ((D.hA1 _ _ c 2).trans (Function.update_of_ne (StableHlo.devRef_ne_of_ne (by decide)) _ _).symm)
  | 3 => ((D.dat1 (Vent1 D m) q01 c).arrAt_in 3 rfl _).trans ((D.hA1 _ _ c 3).trans (Function.update_of_ne (StableHlo.devRef_ne_of_ne (by decide)) _ _).symm)
  | 4 => by
    show X1 D m c = Function.update (U5 D m c) main_v29 (X1 D m c) main_v29
    rw [Function.update_self]
  | ⟨_ + 5, h⟩ => absurd h (Nat.not_lt.2 (Nat.le_add_left _ _))
/-- Off region 1's arrays nothing changes. -/
theorem hrest1 (c : Dev nD) (b : Ref sig .tc) (hb : b ∉ Finset.univ.image (Pipeline.arrRef spec1)) : U6 D m c b = U5 D m c b :=
  Function.update_of_ne (StableHlo.devRef_ne_of_ne (x := b) (y := main_v29) (by rintro rfl; exact hb (by decide))) _ _

set_option backward.isDefEq.respectTransparency.types false in
/-- REGION 1 (custom_call 1) over the thread state: entered from every unscoped buffer at `V5`, left at `V6`; otherwise
    as region 0. -/
def reg1 : Pipeline.RegionSeg (pcfgs (F := F)) adm (pdats D m) () defs₀ Variants.none noL nolv 1 where
  win := winFacts₀1
  block_pos := block_pos1
  stage_whole := stage_whole1
  K := PEmpty
  osem k := k.elim
  ho := Pipeline.OwnSemFacts.none _
  hbody c := (D.hbody1 (Vent1 D m) q01 c).loose
  hwaits := Pipeline.hwaits_of_owed_zero _ _ _ _ noL nolv 1 fun c t => D.howed1 _ _ c t
  pre c := iprop(StableHlo.held (c : Thread nD τ) (Pipeline.ucRefs τ sig) (V5 m (outs D m) c) ∗ Ride c)
  post c := iprop(StableHlo.held (c : Thread nD τ) (Pipeline.ucRefs τ sig) (V6 m (outs D m) c) ∗ Ride c)
  X c := iprop(∃ r, prngReg c r)
  Y c := iprop(∃ r, prngReg c r)
  Z c := Pipeline.unscopedRest (Ix := Unit) (Name := ℕ) (U := UR sig nD τ) (Lvl := ℕ) spec1 c (Vent1 D m c)
  hentry c := by
    rw [Pipeline.ownSems0_none, V5_eq D m c]
    have hsplit := arrays1_of_unscopedBufs c (pdats D m 1 c) (D.hq1 _ _ c) (Vent1 D m c) fun w => D.hA1 _ _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · iapply (owesAt_of_owes c (pdats D m 1 c) (D.howed1 _ _ c 0) (D.hrec1 _ _ c)); iexact HO
    isplitl [Hp]; · iexact Hp
    iexact Hrest
  hin c := by
    rw [show (pdats D m 1 c).Φ 0 = Pipeline.ΦA spec1 c from D.hΦ1z _ _ c]; unfold Pipeline.ΦA
    iintro ⟨Hp, -, Hr⟩
    isplitl [Hr]; · iexact Hr
    iexact Hp
  hout c := by
    rw [Pipeline.ownSems0_none]
    refine (show (pdats D m 1 c).Φ (Fin.last _) ⊢ Pipeline.ΦA spec1 c from D.hΦ1l _ _ c).trans ?_
    unfold Pipeline.ΦA
    iintro ⟨Hr, Hp⟩
    isplitl [Hp]; · iexact Hp
    isplitr; · iempintro
    iexact Hr
  hexit c := by
    rw [V6_eq D m c]
    have hjoin := unscopedBufs_of_arrays1 c (pdats D m 1 c) (D.hq1 _ _ c) (Vent1 D m c) (fun b => U6 D m c b)
      ((pdats D m 1 c).arrAt · cfg1.N) (hF1 D m c) (hrest1 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt c (pdats D m 1 c) (D.howed1 _ _ c _)); iexact HO

/-! ## The run of @main

`Pipeline.θ_run_regions_kit_dev` over @main's eight items: the five host stretches as the generated host segments
(`seg0 seg1 seg2 seg4 seg6`, through `segs`), the three regions as the records above; the thread state between two items
is every unscoped buffer at the generated valuation there (`V0 … V8`, the regions' outputs computed by `outs`) beside
`Ride`. -/

/-- @main's items as segments on core `c`. -/
abbrev mainSegs (c : Dev nD) : List (Pipeline.Seg (pcfgs (F := F)) adm (pdats D m) () defs₀ Variants.none noL nolv) :=
  segs m (outs D m) Variants.none noL nolv (fun _ c => Ride c) () (pdats D m) (reg0 D m) (reg1 D m) (reg2 D m) c

/-- @main is the run of those segments: it is the chain of its items (the generated `main_chain`), a list of
    segments runs as the chain of their fragments (`Seg.run_eq_chain`), and the two lists of fragments are the same. -/
theorem main_run (c : Dev nD) : main (F := F) c = Pipeline.Seg.run (mainSegs D m c) := by
  rw [main_chain c, Pipeline.Seg.run_eq_chain]; rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The result buffer at the return holds what region 2's pipeline leaves in it. -/
theorem V8_main_v39 (c : Dev nD) : V8 m (outs D m) c main_v39 = X2 D m c := by
  rw [V8_eq D m c]
  show Function.update (U7 D m c) main_v39 (X2 D m c) main_v39 = _
  rw [Function.update_self]

set_option backward.isDefEq.respectTransparency.types false in
/-- THE RUN. From any memory `m` with zero counters and any generator registers, every weakly fair execution of @main on
    the TensorCores terminates, and every final memory holds in the result buffer `main_v39` what region 2's pipeline
    leaves there — its proof data built over the buffers' contents at its entry, themselves computed through regions 0
    and 1 — and holds each argument as launched. -/
theorem run_main_of (ρ : Dev nD → PrngReg) :
    θ_run defs (onTc (τ := τ) (main (F := F))) ⟨m, fun _ => 0, ρ⟩ (fun r => ∀ c : Dev nD,
      r.2.mem ((c.tc : Thread nD τ).loc main_v39) = X2 D m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm (pdats D m) () cellOf_inj emb₁ defs₀ Variants.none noL nolv m ρ main
    (mainSegs D m)
    (fun c Q => by rw [main_run D m c])
    (fun c => by simp only [mainSegs, segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ Ride c))
    (Tₙ := fun c => iprop(StableHlo.held (c : Thread nD τ) (Pipeline.ucRefs τ sig) (V8 m (outs D m) c) ∗ ∃ r, prngReg c r))
    (hch := fun c => ⟨.rfl, .rfl, .rfl, .rfl, .rfl, .rfl, .rfl, .rfl, ?_⟩)
    (hinit := ?_)
    (QY := fun c s => ∀ b ∈ Pipeline.ucRefs τ sig, s.mem (((c : Thread nD τ)).1, b) = V8 m (outs D m) c b)
    (hfin := fun c s' => ?_)
    (hQ := fun s h c => ⟨(h c _ (mem_uc main_v39 (by decide))).trans (V8_main_v39 D m c),
      (h c _ (mem_uc main_arg0 (by decide))).trans (V8_main_arg0 m (outs D m) c),
      (h c _ (mem_uc main_arg1 (by decide))).trans (V8_main_arg1 m (outs D m) c),
      (h c _ (mem_uc main_arg2 (by decide))).trans (V8_main_arg2 m (outs D m) c),
      (h c _ (mem_uc main_arg3 (by decide))).trans (V8_main_arg3 m (outs D m) c)⟩)
  · -- the launch element is the pipeline library's alone, owned through the one user component; no ghost resource besides
    rw [ownU_emb₁]
    iintro Hu
    imodintro
    isplitl [Hu]; · iexact Hu
    rw [BI.bigSep_emp_const]; iempintro
  · -- the last region leaves the buffers, the generator register and the core owing nothing: regrouped
    show iprop(StableHlo.held (c : Thread nD τ) (Pipeline.ucRefs τ sig) (V8 m (outs D m) c) ∗ Ride c) ⊢ _
    iintro ⟨Hh, Hp, HO⟩
    isplitl [Hh Hp]
    · isplitl [Hh]; · iexact Hh
      iexact Hp
    iexact HO
  · -- the launch, core by core: the unscoped buffers are held at the launch contents, the register is at its launch
    -- state, the core owes nothing and has recorded nothing
    refine Pipeline.initEach noL nolv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨⟨Hh, -⟩, HSI⟩
    unfold StableHlo.held
    imodintro
    iapply (pointsTo_read_all (Pipeline.ucRefs τ sig) (fun b => (((c : Thread nD τ)).1, b)) (V8 m (outs D m) c) s')
    isplitl [Hh] <;> iassumption

end Run

/-- `X2` spelt out: what region 2's pipeline leaves in its output array, over the buffers' contents at its entry. -/
theorem X2_eq (D : RegionData F) (m : (ℓ : Loc nD τ sig) → Buf (Elt F) ℓ) (c : Dev nD) :
    X2 D m c = (D.dat2 (Vent2 D m) c).arrAt 3 cfg2.N := rfl

/-- THE RUN, from the three regions' proof data and what is proved of them taken one by one (`RegionData`'s fields, in
    its order). -/
theorem run_main
    (dat0 : TcBufs F → (Fin cfg0.W → PosShare TreeShare) → (c : Dev nD) → Dat τ (Elt F) Unit ℕ (UR sig nD τ) ℕ cfg0 c)
    (dat1 : TcBufs F → (Fin cfg1.W → PosShare TreeShare) → (c : Dev nD) → Dat τ (Elt F) Unit ℕ (UR sig nD τ) ℕ cfg1 c)
    (dat2 : TcBufs F → (c : Dev nD) → Dat τ (Elt F) Unit ℕ (UR sig nD τ) ℕ cfg2 c)
    (hA0 : ∀ V q c w, (dat0 V q c).A w = V c (Pipeline.arrRef spec0 w))
    (hA1 : ∀ V q c w, (dat1 V q c).A w = V c (Pipeline.arrRef spec1 w))
    (hA2 : ∀ V c w, (dat2 V c).A w = V c (Pipeline.arrRef spec2 w))
    (hq0 : ∀ V q c, (dat0 V q c).q = q) (hq1 : ∀ V q c, (dat1 V q c).q = q) (hq2 : ∀ V c w, (dat2 V c).q w = fullShare)
    (hΦ0z : ∀ V q c, (dat0 V q c).Φ 0 = Pipeline.ΦA spec0 c) (hΦ0l : ∀ V q c, (dat0 V q c).Φ (Fin.last cfg0.N) ⊢ Pipeline.ΦA spec0 c)
    (hΦ1z : ∀ V q c, (dat1 V q c).Φ 0 = Pipeline.ΦA spec1 c) (hΦ1l : ∀ V q c, (dat1 V q c).Φ (Fin.last cfg1.N) ⊢ Pipeline.ΦA spec1 c)
    (hΦ2z : ∀ V c, (dat2 V c).Φ 0 = Pipeline.ΦA spec2 c) (hΦ2l : ∀ V c, (dat2 V c).Φ (Fin.last cfg2.N) ⊢ Pipeline.ΦA spec2 c)
    (howed0 : ∀ V q c t, (dat0 V q c).owed t = 0) (howed1 : ∀ V q c t, (dat1 V q c).owed t = 0) (howed2 : ∀ V c t, (dat2 V c).owed t = 0)
    (hrec0 : ∀ V q c, (dat0 V q c).recorded 0 = Set.univ) (hrec1 : ∀ V q c, (dat1 V q c).recorded 0 = Set.univ)
    (hrec2 : ∀ V c, (dat2 V c).recorded 0 = Set.univ)
    (hbody0 : ∀ V q c, BodyObligation (dat0 V q c) (defs₀ (F := F)) Variants.none () Set.univ)
    (hbody1 : ∀ V q c, BodyObligation (dat1 V q c) (defs₀ (F := F)) Variants.none () Set.univ)
    (hbody2 : ∀ V c, BodyObligation (dat2 V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v39)
        = (dat2 (Vent2 ⟨dat0, dat1, dat2, hA0, hA1, hA2, hq0, hq1, hq2, hΦ0z, hΦ0l, hΦ1z, hΦ1l, hΦ2z, hΦ2l, howed0, howed1, howed2,
            hrec0, hrec1, hrec2, hbody0, hbody1, hbody2⟩ m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main_of ⟨dat0, dat1, dat2, hA0, hA1, hA2, hq0, hq1, hq2, hΦ0z, hΦ0l, hΦ1z, hΦ1l, hΦ2z, hΦ2l, howed0, howed1, howed2,
    hrec0, hrec1, hrec2, hbody0, hbody1, hbody2⟩ m ρ

end Cert.KernelIdeal.H
end
-- ==== Proof.KI.Data.lean ====
/-
  The three regions' proof data put together, and the kernel program's run through them: every weakly fair execution
  ends, faults nowhere, leaves in the result buffer what the third region's pipeline writes there, and leaves every
  argument array as it was launched.
-/
import proofs.«138934_j78142634983584_1_alg».proof.Proof.Gen.KernelIdeal.Launch
import proofs.«138934_j78142634983584_1_alg».proof.Proof.Gen.KernelIdeal.Skeleton
import proofs.«138934_j78142634983584_1_alg».proof.Proof.Gen.KernelIdeal.Points
import proofs.«138934_j78142634983584_1_alg».proof.Proof.Gen.KernelIdeal.Regions
import proofs.«138934_j78142634983584_1_alg».proof.Proof.KI.R0
import proofs.«138934_j78142634983584_1_alg».proof.Proof.KI.R1
import proofs.«138934_j78142634983584_1_alg».proof.Proof.KI.R2
import proofs.«138934_j78142634983584_1_alg».proof.Proof.KI.Assemble
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

/-- What the run needs of the three regions: their proof data over the buffers' contents at entry, that the arrays start
    there, that the invariant at either end is the scoped rest with the generator register, that nothing is owed, and
    that each kernel body meets its obligation at every grid point. -/
def regionData : RegionData F where
  dat0 := fun V q c => dat0 V q c
  dat1 := fun V q c => dat1 V q c
  dat2 := fun V c => dat2 V c
  hA0 := fun V q c w => A_eq0 V q c w
  hA1 := fun V q c w => A_eq1 V q c w
  hA2 := fun V c w => A_eq2 V c w
  hq0 := fun _ _ _ => rfl
  hq1 := fun _ _ _ => rfl
  hq2 := fun _ _ _ => rfl
  hΦ0z := fun V q c => Phi0_zero V q c
  hΦ0l := fun V q c => Phi0_last V q c
  hΦ1z := fun V q c => Phi1_zero V q c
  hΦ1l := fun V q c => Phi1_last V q c
  hΦ2z := fun _ _ => rfl
  hΦ2l := fun _ _ => .rfl
  howed0 := fun _ _ _ _ => rfl
  howed1 := fun _ _ _ _ => rfl
  howed2 := fun _ _ _ => rfl
  hrec0 := fun _ _ _ => rfl
  hrec1 := fun _ _ _ => rfl
  hrec2 := fun _ _ => rfl
  hbody0 := fun V q c => body_obligation0 V q c
  hbody1 := fun V q c => body_obligation1 V q c
  hbody2 := fun V c => body_obligation2 V c

variable (m : (ℓ : Loc nD τ sig) → Buf (Elt F) ℓ) (ρ : Dev nD → PrngReg)

/-- The kernel program's run: it ends, the result buffer holds what the third region leaves, the arguments are unchanged. -/
theorem run :
    θ_run defs (onTc (τ := τ) (main (F := F))) ⟨m, fun _ => 0, ρ⟩ (fun r => ∀ c : Dev nD,
      r.2.mem ((c.tc : Thread nD τ).loc main_v39) = X2 (regionData (F := F)) m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main_of regionData m ρ

/-- In particular it ends with every argument array as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.KernelIdeal.H

end
-- ==== Proof.LibBlockedSum.lean ====
/-
  Sums over `K` consecutive blocks of `B` terms, and an accumulator that adds one block sum at a time.

  A sum over `Fin (K * B)` splits as the sum over the block number `k : Fin K` of the sum over the position
  `j : Fin B` inside the block, of the term numbered `k * B + j`. An accumulator that starts as "zero plus (zero plus the
  first block sum)" and at each later step adds "zero plus the next block sum" holds, after step `k`, the sum of the block
  sums up to `k`, and so after the last step the whole sum. Only `zero_add`, associativity and commutativity of addition
  are used: the statements hold in every additive commutative monoid, the extended reals among them.
-/
import Mathlib.Algebra.BigOperators.Fin
import Mathlib.Data.Fintype.BigOperators
import Mathlib.Logic.Equiv.Fin.Basic

open scoped BigOperators

namespace BlockedSum

variable {M : Type*} [AddCommMonoid M]

/-! ## A sum over `Fin (K * B)` by blocks -/

/-- Term `j` of block `k` has a number below `K * B`. -/
theorem idx_lt {K B : ℕ} (k : Fin K) (j : Fin B) : k.val * B + j.val < K * B :=
  calc k.val * B + j.val < k.val * B + B := Nat.add_lt_add_left j.isLt _
    _ = (k.val + 1) * B := (Nat.succ_mul _ _).symm
    _ ≤ K * B := Nat.mul_le_mul_right B k.isLt

/-- The same bound with the block size written first: `B * k + j < K * B`. -/
theorem idx_lt' {K B : ℕ} (k : Fin K) (j : Fin B) : B * k.val + j.val < K * B := by
  rw [Nat.mul_comm B k.val]
  exact idx_lt k j

/-- The sum over `Fin (K * B)` is the sum over the blocks of the block sums, term `j` of block `k` being the term
    numbered `k * B + j`. -/
theorem sum_blocks (K B : ℕ) (f : Fin (K * B) → M) :
    ∑ k : Fin K, ∑ j : Fin B, f ⟨k.val * B + j.val, idx_lt k j⟩ = ∑ n : Fin (K * B), f n := by
  rw [← Equiv.sum_comp finProdFinEquiv f, Fintype.sum_prod_type]
  refine Finset.sum_congr rfl fun k _ => Finset.sum_congr rfl fun j _ => ?_
  refine congrArg f (Fin.ext ?_)
  show k.val * B + j.val = j.val + B * k.val
  rw [Nat.mul_comm, Nat.add_comm]

/-- The same with the block size written first: term `j` of block `k` is the term numbered `B * k + j`. -/
theorem sum_blocks' (K B : ℕ) (f : Fin (K * B) → M) :
    ∑ k : Fin K, ∑ j : Fin B, f ⟨B * k.val + j.val, idx_lt' k j⟩ = ∑ n : Fin (K * B), f n := by
  rw [← sum_blocks K B f]
  refine Finset.sum_congr rfl fun k _ => Finset.sum_congr rfl fun j _ => ?_
  exact congrArg f (Fin.ext (by show B * k.val + j.val = k.val * B + j.val; rw [Nat.mul_comm]))

/-! ## An accumulator that adds one block sum at a time -/

/-- The accumulator after step `k`: it starts from zero, and each step adds "zero plus the step's summand". -/
def accFold (S : ℕ → M) : ℕ → M
  | 0 => 0 + (0 + S 0)
  | (k + 1) => accFold S k + (0 + S (k + 1))

/-- After step `k` the accumulator holds the sum of the summands up to `k`. -/
theorem accFold_eq (S : ℕ → M) (k : ℕ) : accFold S k = ∑ i ∈ Finset.range (k + 1), S i := by
  induction k with
  | zero => rw [accFold, zero_add, zero_add, Finset.sum_range_one]
  | succ k ih => rw [accFold, ih, zero_add, ← Finset.sum_range_succ]

/-- Any sequence that obeys the accumulator's two equations for the steps below `K` is the accumulator there: after step
    `k < K` it holds the sum of the summands up to `k`. -/
theorem eq_sum_of_steps (S : ℕ → M) (a : ℕ → M) (K : ℕ) (h0 : a 0 = 0 + (0 + S 0))
    (hs : ∀ k, k + 1 < K → a (k + 1) = a k + (0 + S (k + 1))) (k : ℕ) (hk : k < K) :
    a k = ∑ i ∈ Finset.range (k + 1), S i := by
  induction k with
  | zero => rw [h0, zero_add, zero_add, Finset.sum_range_one]
  | succ k ih => rw [hs k hk, ih (Nat.lt_of_succ_lt hk), zero_add, ← Finset.sum_range_succ]

/-- The sum of block `k`, zero for a block number that is not below `K`. -/
def blockSum (K B : ℕ) (f : Fin (K * B) → M) (k : ℕ) : M :=
  if h : k < K then ∑ j : Fin B, f ⟨k * B + j.val, idx_lt ⟨k, h⟩ j⟩ else 0

/-- The block sum at a block number below `K`. -/
theorem blockSum_of_lt (K B : ℕ) (f : Fin (K * B) → M) (k : Fin K) :
    blockSum K B f k.val = ∑ j : Fin B, f ⟨k.val * B + j.val, idx_lt k j⟩ := by
  unfold blockSum
  rw [dif_pos k.isLt]

/-- The block sums add up to the whole sum. -/
theorem sum_range_blockSum (K B : ℕ) (f : Fin (K * B) → M) :
    ∑ k ∈ Finset.range K, blockSum K B f k = ∑ n : Fin (K * B), f n := by
  rw [← Fin.sum_univ_eq_sum_range (blockSum K B f) K, ← sum_blocks K B f]
  exact Finset.sum_congr rfl fun k _ => blockSum_of_lt K B f k

/-- After the last of `K` steps, the accumulator fed with the block sums holds the whole sum. -/
theorem accFold_blockSum (K B : ℕ) (hK : 0 < K) (f : Fin (K * B) → M) :
    accFold (blockSum K B f) (K - 1) = ∑ n : Fin (K * B), f n := by
  rw [accFold_eq, Nat.sub_add_cancel hK, sum_range_blockSum]

/-- The same for any sequence that obeys the accumulator's two equations for the steps below `K`, the summand of step
    `k` being the sum of block `k`. -/
theorem eq_sum_of_block_steps (K B : ℕ) (hK : 0 < K) (f : Fin (K * B) → M) (a : ℕ → M)
    (h0 : a 0 = 0 + (0 + blockSum K B f 0))
    (hs : ∀ k, k + 1 < K → a (k + 1) = a k + (0 + blockSum K B f (k + 1))) :
    a (K - 1) = ∑ n : Fin (K * B), f n := by
  rw [eq_sum_of_steps (blockSum K B f) a K h0 hs (K - 1) (Nat.sub_lt hK Nat.one_pos), Nat.sub_add_cancel hK,
    sum_range_blockSum]

end BlockedSum
-- ==== Proof.KI.R0Value.lean ====
/- REGION 0 of @main (custom_call 0, the first sparse-matrix product) at the ideal values: what its output array holds
   after the region, entry by entry — row `p` of the adjacency matrix against column `q` of the entrywise product of the
   features and the scaling array, an [8192]-term sum, scaled by the scaling array's entry at `(p, q)` — as a function of
   the arrays the region finds. The sum is built up over eight column blocks of 1024: the accumulator after a point holds
   the block sums up to that point's column block. First the body's payloads at an index, then each window's block as
   entries of its array, then the accumulator by induction on the point, then the array after the eight write-backs. -/
import proofs.«138934_j78142634983584_1_alg».proof.Proof.Gen.KernelIdeal.Launch
import proofs.«138934_j78142634983584_1_alg».proof.Proof.Gen.KernelIdeal.Skeleton
import proofs.«138934_j78142634983584_1_alg».proof.Proof.Gen.KernelIdeal.Points
import proofs.«138934_j78142634983584_1_alg».proof.Proof.Gen.KernelIdeal.Regions
import proofs.«138934_j78142634983584_1_alg».proof.Proof.KI.R0
import proofs.«138934_j78142634983584_1_alg».proof.Proof.LibBlockedSum
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The body's payloads at an index -/

/-- The product of a [1024,1024] by a [1024,128] matrix into a zero accumulator, read at an index: the sum over the
    contracted coordinate of the products of the entries. -/
theorem r0_matmul_apply {φ₁ φ₂ : FTy} (A : FVec Ideal S1024x1024 φ₁) (B : FVec Ideal S1024x128 φ₂) (r : Fin 1024) (q : Fin 128) :
    matmul dot_S1024x1024_S1024x128_S1024x128_1_0_0_1_n_n none A B (constant (F := Ideal) S1024x128 .f32 0x00000000#32) (ix2 r q)
      = ∑ j : Fin 1024, A (ix2 r j) * B (ix2 j q) := by
  show FloatOps.matmul _ none A B _ (ix2 r q) = _
  rw [Ideal.matmul_constant_zero_apply,
    ← Equiv.sum_comp (contrEquiv1 dot_S1024x1024_S1024x128_S1024x128_1_0_0_1_n_n 1024 rfl rfl).symm]
  refine Finset.sum_congr rfl fun j _ => ?_
  have c2 := contrEquiv1_symm_val dot_S1024x1024_S1024x128_S1024x128_1_0_0_1_n_n 1024 rfl rfl j
  have l2 : dot_S1024x1024_S1024x128_S1024x128_1_0_0_1_n_n.lhsIdx (ix2 r q) ((contrEquiv1 _ 1024 rfl rfl).symm j) = ix2 r j := by
    funext ax; apply Fin.ext
    match ax with
    | ⟨0, _⟩ => simp [DotDims.lhsIdx, dot_S1024x1024_S1024x128_S1024x128_1_0_0_1_n_n]; rfl
    | ⟨1, _⟩ => simp [DotDims.lhsIdx, dot_S1024x1024_S1024x128_S1024x128_1_0_0_1_n_n]; exact c2
  have r2 : dot_S1024x1024_S1024x128_S1024x128_1_0_0_1_n_n.rhsIdx (ix2 r q) ((contrEquiv1 _ 1024 rfl rfl).symm j) = ix2 j q := by
    funext ax; apply Fin.ext
    match ax with
    | ⟨0, _⟩ => simp [DotDims.rhsIdx, dot_S1024x1024_S1024x128_S1024x128_1_0_0_1_n_n]; exact c2
    | ⟨1, _⟩ => simp [DotDims.rhsIdx, dot_S1024x1024_S1024x128_S1024x128_1_0_0_1_n_n]; rfl
  rw [l2, r2]

/-- The reset value of the accumulator is zero everywhere. -/
theorem k0_pay1_apply (r : Fin 1024) (q : Fin 128) : k0_pay1 (F := Ideal) (ix2 r q) = 0 := by
  unfold k0_pay1
  simp only [shapeCast_self, broadcast_apply]
  exact Ideal.ofBits_zero_f32

/-- One step of the accumulator at row `r`, column `q`: what it held, plus the [1024]-term sum of the matrix block's
    row `r` against column `q` of the entrywise product of the two feature blocks (the change of float format is the
    identity at the ideal values, the matrix unit's zero accumulator adds nothing). -/
theorem k0_pay2_apply (v3 v4 : Vec Ideal S1024x128 .f32) (v8 : Vec Ideal S1024x1024 .f32) (v11 : Vec Ideal S1024x128 .f32)
    (r : Fin 1024) (q : Fin 128) :
    k0_pay2 (F := Ideal) v3 v4 v8 v11 (ix2 r q)
      = v11 (ix2 r q) + ∑ j : Fin 1024, v8 (ix2 r j) * (v3 (ix2 j q) * v4 (ix2 j q)) := by
  unfold k0_pay2
  simp only [shapeCast_self, addf_apply]
  rw [r0_matmul_apply]
  simp only [truncf_apply, mulf_apply]

/-- The stored output at row `r`, column `q`: the accumulator's entry times the scaling block's. -/
theorem k0_pay3_apply (v20 v21 : Vec Ideal S1024x128 .f32) (r : Fin 1024) (q : Fin 128) :
    k0_pay3 (F := Ideal) v20 v21 (ix2 r q) = v20 (ix2 r q) * v21 (ix2 r q) := by
  unfold k0_pay3
  simp only [shapeCast_self, mulf_apply]

/-! ## The arrays the region reads, and its windows' blocks as entries of them -/

/-- The three arrays the region reads, as the region finds them, on their literal index types: the adjacency matrix,
    the features, and the scaling vector spread along the feature columns. -/
abbrev r0_aA (c : Dev nD) : S8192x8192.Idx → EReal := V c main_v19
abbrev r0_aR (c : Dev nD) : S8192x128.Idx → EReal := V c main_arg0
abbrev r0_aD (c : Dev nD) : S8192x128.Idx → EReal := V c main_v26

/-- The printed index maps over the grid: at point `t` the row block is `t / 8` and the column block `t % 8`; the matrix
    window sits at (row block, column block), the two feature windows at block row `t % 8`, the scaling window and the
    output at block row `t / 8`. -/
theorem idx_facts0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N, _)

/-- The matrix window's block at point `t` is rows `1024·(t/8) …`, columns `1024·(t%8) …` of the adjacency matrix. -/
theorem iblk0_0_apply (c : Dev nD) (t : Fin cfg0.N) (r j : Fin 1024) (p k : Fin 8192)
    (hp : p.val = t.val / 8 * 1024 + r.val) (hk : k.val = t.val % 8 * 1024 + j.val) :
    (iblk0 V c 0 t : Vec Ideal S1024x1024 .f32) (ix2 r j) = r0_aA V c (ix2 p k) := by
  obtain ⟨e0, e1, -⟩ := idx_facts0 t
  unfold iblk0
  rw [View.read_apply]
  show V c main_v19 _ = V c main_v19 _
  refine congrArg (V c main_v19) (funext fun a => Fin.ext ?_)
  match a with
  | ⟨0, _⟩ => show win0_0.index t (0 : Fin 2) * 1024 + 1 * r.val = p.val; rw [e0, hp]; omega
  | ⟨1, _⟩ => show win0_0.index t (1 : Fin 2) * 1024 + 1 * j.val = k.val; rw [e1, hk]; omega

/-- The features' block at point `t` is rows `1024·(t%8) …` of the features. -/
theorem iblk0_1_apply (c : Dev nD) (t : Fin cfg0.N) (j : Fin 1024) (q : Fin 128) (k : Fin 8192)
    (hk : k.val = t.val % 8 * 1024 + j.val) :
    (iblk0 V c 1 t : Vec Ideal S1024x128 .f32) (ix2 j q) = r0_aR V c (ix2 k q) := by
  obtain ⟨-, -, e0, e1, -⟩ := idx_facts0 t
  unfold iblk0
  rw [View.read_apply]
  show V c main_arg0 _ = V c main_arg0 _
  refine congrArg (V c main_arg0) (funext fun a => Fin.ext ?_)
  match a with
  | ⟨0, _⟩ => show win0_1.index t (0 : Fin 2) * 1024 + 1 * j.val = k.val; rw [e0, hk]; omega
  | ⟨1, _⟩ => show win0_1.index t (1 : Fin 2) * 128 + 1 * q.val = q.val; rw [e1]; omega

/-- The scaling array's block under the product at point `t` is its rows `1024·(t%8) …`. -/
theorem iblk0_2_apply (c : Dev nD) (t : Fin cfg0.N) (j : Fin 1024) (q : Fin 128) (k : Fin 8192)
    (hk : k.val = t.val % 8 * 1024 + j.val) :
    (iblk0 V c 2 t : Vec Ideal S1024x128 .f32) (ix2 j q) = r0_aD V c (ix2 k q) := by
  obtain ⟨-, -, -, -, e0, e1, -⟩ := idx_facts0 t
  unfold iblk0
  rw [View.read_apply]
  show V c main_v26 _ = V c main_v26 _
  refine congrArg (V c main_v26) (funext fun a => Fin.ext ?_)
  match a with
  | ⟨0, _⟩ => show win0_2.index t (0 : Fin 2) * 1024 + 1 * j.val = k.val; rw [e0, hk]; omega
  | ⟨1, _⟩ => show win0_2.index t (1 : Fin 2) * 128 + 1 * q.val = q.val; rw [e1]; omega

/-- The scaling array's block that scales the output at point `t` is its rows `1024·(t/8) …`. -/
theorem iblk0_3_apply (c : Dev nD) (t : Fin cfg0.N) (r : Fin 1024) (q : Fin 128) (p : Fin 8192)
    (hp : p.val = t.val / 8 * 1024 + r.val) :
    (iblk0 V c 3 t : Vec Ideal S1024x128 .f32) (ix2 r q) = r0_aD V c (ix2 p q) := by
  obtain ⟨-, -, -, -, -, -, e0, e1, -⟩ := idx_facts0 t
  unfold iblk0
  rw [View.read_apply]
  show V c main_v26 _ = V c main_v26 _
  refine congrArg (V c main_v26) (funext fun a => Fin.ext ?_)
  match a with
  | ⟨0, _⟩ => show win0_3.index t (0 : Fin 2) * 1024 + 1 * r.val = p.val; rw [e0, hp]; omega
  | ⟨1, _⟩ => show win0_3.index t (1 : Fin 2) * 128 + 1 * q.val = q.val; rw [e1]; omega

/-! ## The accumulator after every point -/

/-- Eight blocks of 1024 columns are the 8192 columns. -/
theorem r0_K : 8 * 1024 = 8192 := by norm_num

/-- The term of the row-times-column sum at row `p`, column `q`, for the contracted coordinate numbered `m` (numbered
    through eight blocks of 1024): the adjacency entry times the product of the features' and the scaling array's entries. -/
def r0_f (c : Dev nD) (p : Fin 8192) (q : Fin 128) (m : Fin (8 * 1024)) : EReal :=
  r0_aA V c (ix2 p (Fin.cast r0_K m)) * (r0_aR V c (ix2 (Fin.cast r0_K m) q) * r0_aD V c (ix2 (Fin.cast r0_K m) q))

/-- One point's step at row `r`, column `q` of the block: what the accumulator held, plus the sum of block `t % 8` of the
    terms of row `1024·(t/8) + r`. -/
theorem r0_point (c : Dev nD) (t : Fin cfg0.N) (acc : Vec Ideal S1024x128 .f32) (r : Fin 1024) (q : Fin 128) (p : Fin 8192)
    (hp : p.val = t.val / 8 * 1024 + r.val) :
    k0_pay2 (F := Ideal) (iblk0 V c 1 t) (iblk0 V c 2 t) (iblk0 V c 0 t) acc (ix2 r q)
      = acc (ix2 r q) + BlockedSum.blockSum 8 1024 (r0_f V c p q) (t.val % 8) := by
  have hk8 : t.val % 8 < 8 := Nat.mod_lt _ (by norm_num)
  rw [k0_pay2_apply]
  refine congrArg (acc (ix2 r q) + ·) ?_
  refine Eq.trans ?_ (BlockedSum.blockSum_of_lt 8 1024 (r0_f V c p q) ⟨t.val % 8, hk8⟩).symm
  refine Finset.sum_congr rfl fun j _ => ?_
  have hj : j.val < 1024 := j.isLt
  unfold r0_f
  exact congrArg₂ (· * ·) (iblk0_0_apply V c t r j p ⟨t.val % 8 * 1024 + j.val, by omega⟩ hp rfl)
    (congrArg₂ (· * ·) (iblk0_1_apply V c t j q ⟨t.val % 8 * 1024 + j.val, by omega⟩ rfl)
      (iblk0_2_apply V c t j q ⟨t.val % 8 * 1024 + j.val, by omega⟩ rfl))

/-- The accumulator after point `n`, at row `r`, column `q` of its block: the sum of the first `n % 8 + 1` block sums of
    row `1024·(n/8) + r` — by induction on the point: a first column block starts from zero, any other adds its block
    sum to what the point before left. -/
theorem acc0_apply (c : Dev nD) (n : ℕ) : ∀ (hn : n < cfg0.N) (r : Fin 1024) (q : Fin 128) (p : Fin 8192),
    p.val = n / 8 * 1024 + r.val →
    acc0 V c n hn (ix2 r q) = ∑ m ∈ Finset.range (n % 8 + 1), BlockedSum.blockSum 8 1024 (r0_f V c p q) m := by
  induction n with
  | zero =>
    intro hn r q p hp
    rw [show acc0 V c 0 hn = _ from acc0_first V c ⟨0, hn⟩ rfl, r0_point V c ⟨0, hn⟩ _ r q p hp, k0_pay1_apply, zero_add]
    show _ = ∑ m ∈ Finset.range 1, _
    rw [Finset.sum_range_one]
    rfl
  | succ n ih =>
    intro hn r q p hp
    by_cases h0 : (n + 1) % 8 = 0
    · rw [show acc0 V c (n + 1) hn = _ from acc0_first V c ⟨n + 1, hn⟩ h0, r0_point V c ⟨n + 1, hn⟩ _ r q p hp,
        k0_pay1_apply, zero_add]
      show BlockedSum.blockSum 8 1024 _ ((n + 1) % 8) = _
      rw [h0, Finset.sum_range_one]
    · have e1 : (n + 1) / 8 = n / 8 := by omega
      have e2 : (n + 1) % 8 = n % 8 + 1 := by omega
      rw [show acc0 V c (n + 1) hn = _ from acc0_next V c ⟨n + 1, hn⟩ h0, r0_point V c ⟨n + 1, hn⟩ _ r q p hp]
      show acc0 V c n _ (ix2 r q) + BlockedSum.blockSum 8 1024 _ ((n + 1) % 8) = _
      rw [ih (Nat.lt_of_succ_lt hn) r q p (by rw [hp, e1]), e2, ← Finset.sum_range_succ]

/-- All eight block sums together are the sum over the 8192 contracted coordinates. -/
theorem r0_sum_all (c : Dev nD) (p : Fin 8192) (q : Fin 128) :
    ∑ m ∈ Finset.range 8, BlockedSum.blockSum 8 1024 (r0_f V c p q) m
      = ∑ k : Fin 8192, r0_aA V c (ix2 p k) * (r0_aR V c (ix2 k q) * r0_aD V c (ix2 k q)) := by
  rw [BlockedSum.sum_range_blockSum]
  exact Fintype.sum_equiv (finCongr r0_K) _ _ (fun m => rfl)

/-! ## From blocks to the array -/

/-- The output array's entry at row `p`, column `q`: row `p` of the adjacency matrix against column `q` of the entrywise
    product of the features and the scaling array, the result scaled by the scaling array's entry at `(p, q)`. -/
def g0 (c : Dev nD) (p : Fin 8192) (q : Fin 128) : EReal :=
  (∑ k : Fin 8192, r0_aA V c (ix2 p k) * (r0_aR V c (ix2 k q) * r0_aD V c (ix2 k q))) * r0_aD V c (ix2 p q)

/-- The output array after the region, as one function of the arrays the region finds. -/
def G0 (c : Dev nD) : Buf (Elt Ideal) ((cfg0.win 4).arr.view.loc (c.tc : Thread nD τ)) :=
  fun i => g0 V c (i 0) (i 1)

/-- What a last column block stores, at row `r` and column `q` of the block, is the output function at row
    `1024·(t/8) + r`: the accumulator holds all eight block sums there, and the scaling block's entry is the array's. -/
theorem flushed0_point (c : Dev nD) (t : Fin cfg0.N) (h7 : t.val % 8 = 7) (r : Fin 1024) (q : Fin 128) (p : Fin 8192)
    (hp : p.val = t.val / 8 * 1024 + r.val) :
    out0 (F := Ideal) V c t (ix2 r q) = g0 V c p q := by
  unfold out0 g0
  rw [k0_pay3_apply, acc0_apply V c t.val t.isLt r q p hp, h7, r0_sum_all, iblk0_3_apply V c t r q p hp]

/-- What a flushing point `t` writes back is block `t / 8` of the output function. -/
theorem flushed0_eq (q0 : Fin cfg0.W → PosShare TreeShare) (c : Dev nD) (t : Fin cfg0.N) (hf : (cfg0.win 4).flush t = true) :
    (dat0 V q0 c).flushed 4 t = ((cfg0.win 4).blk t).view.read (Elt Ideal) (G0 V c) := by
  show (cfg0.win 4).cut (grid0.coords t) ((dat0 V q0 c).after 4 t) = _
  rw [after0_4]
  funext j
  have h7 : t.val % 8 = 7 := (flush0_4 t).mp hf
  have hr : (j 0).val < 1024 := (j 0).isLt
  have ho : (j 1).val < 128 := (j 1).isLt
  have hN : t.val < 64 := Nat.lt_of_lt_of_eq t.isLt N_0
  obtain ⟨-, -, -, -, -, -, -, -, e0, e1⟩ := idx_facts0 t
  have key := flushed0_point V c t h7 ⟨(j 0).val, hr⟩ ⟨(j 1).val, ho⟩ ⟨t.val / 8 * 1024 + (j 0).val, by omega⟩ rfl
  rw [View.read_apply]
  show out0 (F := Ideal) V c t ((cfg0.win 4).xinj (grid0.coords t) j)
    = g0 V c ((((cfg0.win 4).blk t).view.emb j) 0) ((((cfg0.win 4).blk t).view.emb j) 1)
  have hx : (cfg0.win 4).xinj (grid0.coords t) j = ix2 (⟨(j 0).val, hr⟩ : Fin 1024) (⟨(j 1).val, ho⟩ : Fin 128) := by
    funext a; apply Fin.ext
    match a with
    | ⟨0, _⟩ => rfl
    | ⟨1, _⟩ => rfl
  refine (congrArg (out0 (F := Ideal) V c t) hx).trans (key.trans ?_)
  refine congrArg₂ (g0 V c) (Fin.ext ?_) (Fin.ext ?_)
  · show t.val / 8 * 1024 + (j 0).val = win0_4.index t (0 : Fin 2) * 1024 + 1 * (j 0).val
    rw [e0]; omega
  · show (j 1).val = win0_4.index t (1 : Fin 2) * 128 + 1 * (j 1).val
    rw [e1]; omega

/-- An index of the output array is in point `t`'s block iff each coordinate is in the block's range on its axis. -/
theorem mem_blk0 (t : Fin cfg0.N) (i : S8192x128.Idx) :
    i ∈ ((cfg0.win 4).blk t).view.set ↔ ∀ a : Fin 2, win0_4.index t a * S1024x128.size a ≤ (i a).val
      ∧ (i a).val < win0_4.index t a * S1024x128.size a + S1024x128.size a := by
  show i ∈ ((View.whole main_v27).slice (win0_4.rect t)).set ↔ _
  rw [View.set_slice_whole, Rect.mem_set_unit]
  exact Iff.rfl

/-- Every row `p` of the output array is in the block of the flushing point `8·(p / 1024) + 7`: the eight blocks of 1024
    rows written back at the last column blocks tile it. -/
theorem covered0 (i : S8192x128.Idx) :
    ∃ t : Fin cfg0.N, (cfg0.win 4).flush t = true ∧ i ∈ ((cfg0.win 4).blk t).view.set := by
  have hi0 : (i 0).val < 8192 := (i 0).isLt
  have hi1 : (i 1).val < 128 := (i 1).isLt
  obtain ⟨t, ht⟩ : ∃ t : Fin cfg0.N, t.val = (i 0).val / 1024 * 8 + 7 :=
    ⟨⟨(i 0).val / 1024 * 8 + 7, Nat.lt_of_lt_of_eq (by omega : (i 0).val / 1024 * 8 + 7 < 64) N_0.symm⟩, rfl⟩
  obtain ⟨-, -, -, -, -, -, -, -, e0, e1⟩ := idx_facts0 t
  refine ⟨t, (flush0_4 t).mpr (by rw [ht]; omega), ?_⟩
  rw [mem_blk0]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 128 ≤ (i 1).val ∧ (i 1).val < win0_4.index t (1 : Fin 2) * 128 + 128
    rw [e1]; omega

/-- So the output array, after the eight write-backs, is the output function. -/
theorem arr0_eq (q0 : Fin cfg0.W → PosShare TreeShare) (c : Dev nD) : (dat0 V q0 c).arrAt 4 cfg0.N = G0 V c :=
  (dat0 V q0 c).arrAt_eq_of_cover 4 (G0 V c) (fun t hf => flushed0_eq V q0 c t hf) covered0

/-- Entry by entry: row `p`, column `q` of the output array after the region. -/
theorem arr0_apply (q0 : Fin cfg0.W → PosShare TreeShare) (c : Dev nD) (p : Fin 8192) (q : Fin 128) :
    (dat0 (F := Ideal) V q0 c).arrAt 4 cfg0.N (ix2 p q)
      = (∑ k : Fin 8192, r0_aA V c (ix2 p k) * (r0_aR V c (ix2 k q) * r0_aD V c (ix2 k q))) * r0_aD V c (ix2 p q) := by
  rw [arr0_eq]
  show g0 V c p q = _
  unfold g0
  rfl

end Cert.KernelIdeal.H

end
-- ==== Proof.KI.HostReads.lean ====
/-
  What the kernel program's host operations compute before its first region: from the edge list, the adjacency matrix
  (a count of edges per ordered pair of nodes), its row sums (the degrees), the inverse square roots of the positive
  degrees (zero elsewhere), and that vector repeated along 128 columns.
-/
import proofs.«138934_j78142634983584_1_alg».proof.Proof.Gen.KernelIdeal.Launch
import proofs.«138934_j78142634983584_1_alg».proof.Proof.Gen.KernelIdeal.Skeleton
import proofs.«138934_j78142634983584_1_alg».proof.Proof.Gen.KernelIdeal.Points
import proofs.«138934_j78142634983584_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

/-- A node index as the host normalises it: a negative index counts from the end. -/
def wrapIdx (r : IVec S262144 32) : IVec S262144 32 :=
  select (cmpi .slt r (broadcastInDim S262144 ![] bcast_S_S262144 (constantI S_ 32 0#32)))
    (addi r (broadcastInDim S262144 ![] bcast_S_S262144 (constantI S_ 32 8192#32))) r

/-- The edge list as the scatter's index tensor: row `e` is (source, target) of edge `e`. -/
def edgeIdx (x1 : IVec S2x262144 32) : IVec S262144x2 32 :=
  concatenate S262144x2 1
    [⟨S262144x1, broadcastInDim S262144x1 ![0] bcast_S262144_S262144x1_0
        (wrapIdx (shapeCast S262144 (extractStridedSlice S1x262144 ![0, 0] x1 slices_S2x262144_S1x262144_0_0) shapeCasts_S1x262144_S262144))⟩,
     ⟨S262144x1, broadcastInDim S262144x1 ![0] bcast_S262144_S262144x1_0
        (wrapIdx (shapeCast S262144 (extractStridedSlice S1x262144 ![1, 0] x1 slices_S2x262144_S1x262144_1_0) shapeCasts_S1x262144_S262144))⟩]
    concatenates_S262144x1_S262144x1_S262144x2_d1

/-- The adjacency matrix: one added for every edge, into zeros. -/
def adjK (x1 : IVec S2x262144 32) : FVec F S8192x8192 .f32 :=
  Host.scatterAdd scatter_S8192x8192_S262144x2_S262144_n_01_01_1
    (broadcastInDim S8192x8192 ![] bcast_S_S8192x8192 (constant S_ .f32 0x00000000#32))
    (edgeIdx x1)
    (broadcastInDim S262144 ![] bcast_S_S262144 (constant S_ .f32 0x3F800000#32))

/-- The degrees: the adjacency matrix's row sums. -/
def degK (x1 : IVec S2x262144 32) : FVec F S8192 .f32 :=
  Host.reduceAdd (adjK (F := F) x1) (constant S_ .f32 0x00000000#32) reducesTo_S8192x8192_S8192_d1 h_S_

/-- The inverse square root of each positive degree, zero where the degree is not positive. -/
def dinvK (x1 : IVec S2x262144 32) : FVec F S8192 .f32 :=
  select (cmpf (F := F) .ogt (degK (F := F) x1) (broadcastInDim S8192 ![] bcast_S_S8192 (constant S_ .f32 0x00000000#32)))
    (Host.rsqrt (degK (F := F) x1))
    (broadcastInDim S8192 ![] bcast_S_S8192 (id (constant (F := F) S_ .f32 0x00000000#32)))

/-- That vector repeated along the 128 feature columns. -/
def dbcK (x1 : IVec S2x262144 32) : FVec F S8192x128 .f32 :=
  broadcastInDim S8192x128 ![0, 1] bcast_S8192x1_S8192x128_0_1 (broadcastInDim S8192x1 ![0] bcast_S8192_S8192x1_0 (dinvK (F := F) x1))

variable (m : (ℓ : Loc nD τ sig) → Buf (Elt F) ℓ)

set_option maxHeartbeats 8000000 in
/-- When the first region is entered, buffer `main_v19` holds the adjacency matrix of the launch's edge list. -/
theorem V3_v19 (c : Dev nD) : V3 m c main_v19 = adjK (F := F) (m ((c : Thread nD τ).loc main_arg1)) := by
  dsimp only [V3, V2, V1, V0]
  after_results_simp <;> rfl

set_option maxHeartbeats 8000000 in
/-- and `main_v26` the inverse-root degrees repeated along the columns. -/
theorem V3_v26 (c : Dev nD) : V3 m c main_v26 = dbcK (F := F) (m ((c : Thread nD τ).loc main_arg1)) := by
  dsimp only [V3, V2, V1, V0]
  after_results_simp <;> rfl

variable (outs : Outs (F := F))

/-- The features are no host operation's result: at the first region's entry they are the launch's. -/
theorem V3_arg0 (c : Dev nD) : V3 m c main_arg0 = m ((c : Thread nD τ).loc main_arg0) :=
  (V3_of m c main_arg0 (by decide)).trans <| (V2_of m c main_arg0 (by decide)).trans <| (V1_of m c main_arg0 (by decide)).trans rfl

/-- After the first region its result buffer holds what the region left there. -/
theorem V4_v27 (c : Dev nD) : V4 m outs c main_v27 = outs 4 main_v27 c := by
  simp only [V4, Function.update_self]

theorem V4_arg0 (c : Dev nD) : V4 m outs c main_arg0 = m ((c : Thread nD τ).loc main_arg0) :=
  (V4_of m outs c main_arg0 (by decide)).trans (V3_arg0 m c)

/-- `Y₁ = x − S·x`: the host's subtraction between the first two regions. -/
theorem V5_v28 (c : Dev nD) : V5 m outs c main_v28 = subf (m ((c : Thread nD τ).loc main_arg0)) (outs 4 main_v27 c) := by
  dsimp only [V5]
  after_results_simp
  rw [V4_v27, V4_arg0]

/-- The second region finds the same adjacency matrix and the same repeated vector as the first. -/
theorem V5_v19 (c : Dev nD) : V5 m outs c main_v19 = adjK (F := F) (m ((c : Thread nD τ).loc main_arg1)) :=
  (V5_of m outs c main_v19 (by decide)).trans <| (V4_of m outs c main_v19 (by decide)).trans (V3_v19 m c)
theorem V5_v26 (c : Dev nD) : V5 m outs c main_v26 = dbcK (F := F) (m ((c : Thread nD τ).loc main_arg1)) :=
  (V5_of m outs c main_v26 (by decide)).trans <| (V4_of m outs c main_v26 (by decide)).trans (V3_v26 m c)

theorem V6_v29 (c : Dev nD) : V6 m outs c main_v29 = outs 6 main_v29 c := by
  simp only [V6, Function.update_self]
theorem V6_v28 (c : Dev nD) : V6 m outs c main_v28 = subf (m ((c : Thread nD τ).loc main_arg0)) (outs 4 main_v27 c) :=
  (V6_of m outs c main_v28 (by decide)).trans (V5_v28 m outs c)
theorem V6_arg0 (c : Dev nD) : V6 m outs c main_arg0 = m ((c : Thread nD τ).loc main_arg0) :=
  (V6_of m outs c main_arg0 (by decide)).trans <| (V5_of m outs c main_arg0 (by decide)).trans (V4_arg0 m outs c)

/-- The three feature matrices stacked along a new leading axis. -/
def stackK (y0 y1 y2 : FVec F S8192x128 .f32) : FVec F S3x8192x128 .f32 :=
  concatenate S3x8192x128 0
    [⟨S1x8192x128, broadcastInDim S1x8192x128 ![1, 2] bcast_S8192x128_S1x8192x128_1_2 y0⟩,
     ⟨S1x8192x128, broadcastInDim S1x8192x128 ![1, 2] bcast_S8192x128_S1x8192x128_1_2 y1⟩,
     ⟨S1x8192x128, broadcastInDim S1x8192x128 ![1, 2] bcast_S8192x128_S1x8192x128_1_2 y2⟩]
    concatenates_S1x8192x128_S1x8192x128_S1x8192x128_S3x8192x128_d0

/-- `Y₂ = 2·(Y₁ − S·Y₁) − x` as the host computes it from `Y₁` and the second region's result. -/
def y2K (x y1 s1 : FVec F S8192x128 .f32) : FVec F S8192x128 .f32 :=
  subf (mulf (broadcastInDim S8192x128 ![] bcast_S_S8192x128 (constant S_ .f32 0x40000000#32)) (subf y1 s1)) x

/-- A host operation over a literal family of three buffers (a concatenation of three operands): its result with each
    operand's contents read at its own buffer. -/
theorem nary3_result {x a b y : Ref sig .tc}
    (f : ((k : Fin 3) → ((![x, a, b] : Fin 3 → Ref sig .tc) k).ty.Contents (Elt F)) → y.ty.Contents (Elt F)) (hxs hy)
    (W : Valuation τ sig (Elt F)) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl

set_option backward.isDefEq.respectTransparency.types false in
set_option maxHeartbeats 4000000 in
/-- The third region's first operand: `x`, `Y₁`, `Y₂` stacked. -/
theorem V7_v37 (c : Dev nD) : V7 m outs c main_v37 =
    stackK (m ((c : Thread nD τ).loc main_arg0)) (subf (m ((c : Thread nD τ).loc main_arg0)) (outs 4 main_v27 c))
      (y2K (m ((c : Thread nD τ).loc main_arg0)) (subf (m ((c : Thread nD τ).loc main_arg0)) (outs 4 main_v27 c)) (outs 6 main_v29 c)) := by
  dsimp only [V7]
  simp only [after_cons, after_nil]
  rw [reshape_result_ne]; rotate_left; decide
  rw [nary3_result]
  repeat (first
    | rw [nullary_result] | rw [unary_result] | rw [binary_result]
    | (rw [nullary_result_ne]; rotate_left; decide)
    | (rw [unary_result_ne]; rotate_left; decide)
    | (rw [binary_result_ne]; rotate_left; decide))
  rw [V6_v29, V6_v28, V6_arg0]
  rfl

/-- Its third operand: the bias as one row. -/
theorem V7_v38 (c : Dev nD) : V7 m outs c main_v38 = shapeCast S1x128 (m ((c : Thread nD τ).loc main_arg3)) shapeCasts_S128_S1x128 := by
  dsimp only [V7]
  after_results_simp
  rw [V6_of m outs c main_arg3 (by decide), V5_of m outs c main_arg3 (by decide), V4_of m outs c main_arg3 (by decide),
    V3_of m c main_arg3 (by decide), V2_of m c main_arg3 (by decide), V1_of m c main_arg3 (by decide)]
  rfl

/-- Its second operand, the weights, are the launch's. -/
theorem V7_arg2 (c : Dev nD) : V7 m outs c main_arg2 = m ((c : Thread nD τ).loc main_arg2) :=
  (V7_of m outs c main_arg2 (by decide)).trans <| (V6_of m outs c main_arg2 (by decide)).trans <| (V5_of m outs c main_arg2 (by decide)).trans <|
    (V4_of m outs c main_arg2 (by decide)).trans <| (V3_of m c main_arg2 (by decide)).trans <| (V2_of m c main_arg2 (by decide)).trans <|
    (V1_of m c main_arg2 (by decide)).trans rfl

theorem V8_v39 (c : Dev nD) : V8 m outs c main_v39 = outs 8 main_v39 c := by
  simp only [V8, Function.update_self]

end Cert.KernelIdeal.H

end
-- ==== Proof.Spec.lean ====
/-
  The two programs as formulas on the extended reals, index by index, over one adjacency matrix `A` (8192 × 8192), one
  vector `d` of inverse square-root degrees (8192), the features `x` (8192 × 128), three weight matrices `W` (3 × 128 × 128)
  and a bias `b` (128).

  With `S = diag d · A · diag d` and `L = I − S`, the reference forms the MATRICES `T₀ = I`, `T₁ = L`, `T₂ = 2·(L·L) − I`
  and sums `(Tᵢ·x)·Wᵢ`; the kernel applies `L` to VECTORS: `Y₀ = x`, `Y₁ = Y₀ − S·Y₀`, `Y₂ = 2·(Y₁ − S·Y₁) − Y₀`, and sums
  `Yᵢ·Wᵢ`. The two agree when every entry is a real number: `Tᵢ·x = Yᵢ` by associativity of the matrix product and
  distributivity, both of which need finiteness on the extended reals.
-/
import Idealize.ShloMosaic.PureOps.Ideal
import Idealize.ShloMosaic.Lib.ValueIdx

noncomputable section

namespace Cert.Spec

open Idealize.ShloMosaic Idealize.ShloMosaic.ValueIdx

/-- The shapes, spelt as every printed program spells them. -/
abbrev SA : Shape := ⟨2, ![8192, 8192]⟩
abbrev SX : Shape := ⟨2, ![8192, 128]⟩
abbrev SD : Shape := ⟨1, ![8192]⟩
abbrev SW : Shape := ⟨3, ![3, 128, 128]⟩
abbrev SB : Shape := ⟨1, ![128]⟩

variable (A : SA.Idx → EReal) (d : SD.Idx → EReal) (x : SX.Idx → EReal) (W : SW.Idx → EReal) (b : SB.Idx → EReal)

/-- The number two, as the programs' literal `2.0` reads on the extended reals. -/
def two : EReal := ((2 : ℝ) : EReal)

/-! ## The kernel: the normalised adjacency applied to vectors -/

/-- `S·r` at row `p`, column `q`: `(∑ₖ A p k · (r k q · d k)) · d p`. -/
def spmv (r : SX.Idx → EReal) (p : Fin 8192) (q : Fin 128) : EReal :=
  (∑ k : Fin 8192, A (ix2 p k) * (r (ix2 k q) * d (ix1 k))) * d (ix1 p)

/-- `Y₁ = x − S·x`. -/
def Y1 : SX.Idx → EReal := fun j => x j - spmv A d x (j 0) (j 1)
/-- `Y₂ = 2·(Y₁ − S·Y₁) − x`. -/
def Y2 : SX.Idx → EReal := fun j => two * (Y1 A d x j - spmv A d (Y1 A d x) (j 0) (j 1)) - x j

/-- A feature matrix times the `i`-th weight matrix, at row `p`, column `o`. -/
def proj (y : SX.Idx → EReal) (i : Fin 3) (p : Fin 8192) (o : Fin 128) : EReal :=
  ∑ q : Fin 128, y (ix2 p q) * W (ix3 i q o)

/-- The kernel's result at row `p`, column `o`. -/
def kernelOut (p : Fin 8192) (o : Fin 128) : EReal :=
  ((proj W x 0 p o + proj W (Y1 A d x) 1 p o) + proj W (Y2 A d x) 2 p o) + b (ix1 o)

/-! ## The reference: the Chebyshev matrices, then the products -/

/-- The identity matrix. -/
def eye (p j : Fin 8192) : EReal := if p = j then 1 else 0
/-- `L = I − diag d · A · diag d`, the product grouped as the reference groups it. -/
def lap (p j : Fin 8192) : EReal := eye p j - (d (ix1 p) * A (ix2 p j)) * d (ix1 j)
/-- `T₂ = 2·(L·L) − I`. -/
def cheb2 (p j : Fin 8192) : EReal := two * (∑ k : Fin 8192, lap A d p k * lap A d k j) - eye p j

/-- A matrix `T` times `x`, at row `p`, column `q`. -/
def applyTo (T : Fin 8192 → Fin 8192 → EReal) (p : Fin 8192) (q : Fin 128) : EReal :=
  ∑ j : Fin 8192, T p j * x (ix2 j q)

/-- `(T·x)·Wᵢ` at row `p`, column `o`. -/
def projT (T : Fin 8192 → Fin 8192 → EReal) (i : Fin 3) (p : Fin 8192) (o : Fin 128) : EReal :=
  ∑ q : Fin 128, applyTo x T p q * W (ix3 i q o)

/-- The reference's result at row `p`, column `o`. -/
def refOut (p : Fin 8192) (o : Fin 128) : EReal :=
  ((projT x W eye 0 p o + projT x W (lap A d) 1 p o) + projT x W (cheb2 A d) 2 p o) + b (ix1 o)

/-- Every entry of an array is a real number. -/
def Finite {s : Shape} (v : s.Idx → EReal) : Prop := ∀ i, ∃ r : ℝ, v i = (r : EReal)

end Cert.Spec

end
-- ==== Proof.RefAdj.lean ====
/-
  The adjacency matrix and the scaling vector that the reference computes from the edge list, and the fact that every
  entry of either is a real number.

  The adjacency matrix is a zero matrix into which one is added at every edge, so an entry is zero plus a finite sum of
  ones. A degree is zero plus the sum of a row of the adjacency matrix, hence a real number `r`. The scaling vector is
  the inverse square root of the degree where the comparison "degree > 0" holds and zero elsewhere: where it holds `r`
  is a positive real, whose inverse square root is the real number `(√r)⁻¹`; where it fails the entry is zero.
-/
import proofs.«138934_j78142634983584_1_alg».proof.Proof.RefReadP
import proofs.«138934_j78142634983584_1_alg».proof.Proof.Spec
import Idealize.ShloMosaic.Lib.ValueIdx
import Idealize.ShloMosaic.PureOps.Ideal.Laws

noncomputable section

namespace Cert.RefValue

open Cert.ReferenceIdeal Cert.ReferenceIdeal.Gen Cert.ReferenceIdeal.ReadP Idealize.ShloMosaic Idealize.ShloMosaic.ValueIdx

/-- The adjacency matrix the reference builds from the edge list: one added into a zero matrix at every edge. -/
def adj (x1 : (⟨S2x262144, .i32⟩ : BufTy).Contents (Elt Ideal)) : Cert.Spec.SA.Idx → EReal :=
  val_main_v19 (F := Ideal) x1

/-- The inverse square roots of the degrees, zero where the degree is not positive. -/
def dinv (x1 : (⟨S2x262144, .i32⟩ : BufTy).Contents (Elt Ideal)) : Cert.Spec.SD.Idx → EReal :=
  val_main_v24 (F := Ideal) x1

/-- The float word of one is the real number one. -/
theorem ofBits_one_f32 : Ideal.ofBits .f32 0x3F800000#32 = ((1 : ℝ) : EReal) := by
  simp [Ideal.ofBits, Ideal.ieee]
  rw [← EReal.coe_mul, ← EReal.coe_one]
  norm_num

/-- The float word of two is the real number two. -/
theorem ofBits_two_f32 : Ideal.ofBits .f32 0x40000000#32 = ((2 : ℝ) : EReal) := by
  simp [Ideal.ofBits, Ideal.ieee]
  rw [← EReal.coe_mul]
  norm_num

/-- A finite sum of real numbers, read in the extended reals, is a real number. -/
theorem sum_real {ι : Type*} (s : Finset ι) (f : ι → EReal) (hf : ∀ j ∈ s, ∃ r : ℝ, f j = (r : EReal)) :
    ∃ r : ℝ, ∑ j ∈ s, f j = (r : EReal) := by
  classical
  induction s using Finset.induction_on with
  | empty => exact ⟨0, by simp⟩
  | insert a s ha ih =>
    obtain ⟨ra, hra⟩ := hf a (Finset.mem_insert_self a s)
    obtain ⟨rs, hrs⟩ := ih (fun j hj => hf j (Finset.mem_insert_of_mem hj))
    exact ⟨ra + rs, by rw [Finset.sum_insert ha, hra, hrs, EReal.coe_add]⟩

/-- Every entry of the adjacency matrix is a real number: zero plus a finite sum of ones. -/
theorem adj_finite (x1 : (⟨S2x262144, .i32⟩ : BufTy).Contents (Elt Ideal)) : Cert.Spec.Finite (adj x1) := by
  intro i
  show ∃ r : ℝ, val_main_v19 (F := Ideal) x1 i = (r : EReal)
  unfold val_main_v19
  generalize val_main_v17 (F := Ideal) x1 = idx
  simp only [Host.scatterAdd, Ideal.hostScatterAdd_def]
  unfold Ideal.hostScatterAdd
  rw [val_main_v0_apply, val_main_cst_apply, Ideal.ofBits_def, Ideal.ofBits_zero_f32, zero_add]
  refine sum_real _ _ (fun j _ => ⟨1, ?_⟩)
  rw [val_main_v18_apply, val_main_cst_3_apply, Ideal.ofBits_def, ofBits_one_f32]

/-- Every degree is a real number: zero plus a finite sum of entries of the adjacency matrix. -/
theorem deg_real (x1 : (⟨S2x262144, .i32⟩ : BufTy).Contents (Elt Ideal)) (i : S8192.Idx) :
    ∃ r : ℝ, val_main_v20 (F := Ideal) x1 i = (r : EReal) := by
  rw [val_main_v20_apply, val_main_cst_4_apply, Ideal.ofBits_def, Ideal.ofBits_zero_f32, zero_add]
  exact sum_real _ _ (fun k _ => adj_finite x1 _)

/-- Every entry of the scaling vector is a real number: where the degree is a positive real its inverse square root
    is a real, and elsewhere the entry is zero. -/
theorem dinv_finite (x1 : (⟨S2x262144, .i32⟩ : BufTy).Contents (Elt Ideal)) : Cert.Spec.Finite (dinv x1) := by
  intro i
  obtain ⟨r, hr⟩ := deg_real x1 i
  show ∃ r : ℝ, val_main_v24 (F := Ideal) x1 i = (r : EReal)
  rw [val_main_v24_apply, val_main_v22_apply, val_main_v23_apply, val_main_call0_v1_apply, val_main_call0_v0_apply,
    val_main_cst_6_apply, val_main_v21_apply, val_main_cst_5_apply, hr, Ideal.ofBits_def, Ideal.ofBits_zero_f32,
    Ideal.hostUnary_rsqrt_def, Ideal.cmpf_def]
  by_cases hpos : 0 < r
  · have hrs : Ideal.rsqrt (r : EReal) = (((Real.sqrt r)⁻¹ : ℝ) : EReal) := by
      rw [Ideal.rsqrt_coe, if_neg (not_lt.2 hpos.le), if_neg hpos.ne']
    rw [hrs]
    unfold Scalar.select
    split
    · exact ⟨_, rfl⟩
    · exact ⟨0, EReal.coe_zero.symm⟩
  · have hc : Ideal.cmp .ogt (r : EReal) 0 = 0#1 := by
      unfold Ideal.cmp
      have hn : ¬ ((0 : EReal) < (r : EReal)) := fun h => hpos (EReal.coe_pos.1 h)
      simp [hn]
    rw [hc, select_zero]
    exact ⟨0, EReal.coe_zero.symm⟩

end Cert.RefValue

end
-- ==== Proof.KI.Bridge.lean ====
/-
  The kernel program and the reference compute the adjacency matrix and the inverse-root degrees by the same host
  operations, so the two are the same arrays; and the repeated vector read at an entry.
-/
import proofs.«138934_j78142634983584_1_alg».proof.Proof.KI.HostReads
import proofs.«138934_j78142634983584_1_alg».proof.Proof.RefAdj
import Idealize.ShloMosaic.Lib.ValueIdx
import Idealize.ShloMosaic.Lib.Pipeline.Value

noncomputable section

namespace Cert.KernelIdeal.H

open Cert.KernelIdeal Cert.KernelIdeal.Gen Idealize.ShloMosaic Idealize.ShloMosaic.TcCoe Idealize.ShloMosaic.ValueIdx

set_option maxHeartbeats 2000000 in
/-- The kernel program's adjacency matrix is the reference's: the same scatter of ones over the same index tensor. -/
theorem adjK_eq_adj (x1 : IVec S2x262144 32) : adjK (F := Ideal) x1 = Cert.RefValue.adj x1 := rfl

set_option maxHeartbeats 2000000 in
/-- and its inverse-root degrees are the reference's. -/
theorem dinvK_eq_dinv (x1 : IVec S2x262144 32) : dinvK (F := Ideal) x1 = Cert.RefValue.dinv x1 := rfl

/-- The repeated vector at row `k`, any column, is the vector's entry `k`. -/
theorem dbcK_apply {F : FTy → Type} [FloatOps F] (x1 : IVec S2x262144 32) (k : Fin 8192) (q : Fin 128) :
    dbcK (F := F) x1 (ix2 k q) = dinvK (F := F) x1 (ix1 k) := by
  unfold dbcK
  generalize dinvK (F := F) x1 = y
  refine (broadcastInDim_apply _ bcast_S8192x1_S8192x128_0_1 _ (ix2 k q) (ix2 k (0 : Fin 1)) (fun a => match a with
    | ⟨0, _⟩ => by show k.val = if (8192 : Nat) = 1 then 0 else k.val; rw [if_neg (by decide)]
    | ⟨1, _⟩ => by show (0 : Nat) = if (1 : Nat) = 1 then 0 else q.val; rw [if_pos rfl])).trans ?_
  exact broadcastInDim_apply _ bcast_S8192_S8192x1_0 y (ix2 k (0 : Fin 1)) (ix1 k) (fun a => match a with
    | ⟨0, _⟩ => by show k.val = if (8192 : Nat) = 1 then 0 else k.val; rw [if_neg (by decide)])

end Cert.KernelIdeal.H

end
-- ==== Proof.KI.Spmv0.lean ====
/-
  What the first region writes, in the words of the specification: with the adjacency matrix `A` and the inverse-root
  degrees `d` that the host computed from the edge list, entry `(p, q)` of its result is
  `(∑ₖ A p k · (x k q · d k)) · d p`, the normalised adjacency applied to the features.
-/
import proofs.«138934_j78142634983584_1_alg».proof.Proof.KI.R0Value
import proofs.«138934_j78142634983584_1_alg».proof.Proof.KI.Bridge
import proofs.«138934_j78142634983584_1_alg».proof.Proof.Spec

noncomputable section

namespace Cert.KernelIdeal.H

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)

variable (m : (ℓ : Loc nD τ sig) → Buf (Elt Ideal) ℓ)

/-- The first region's result array, entry by entry, is the normalised adjacency applied to the features. -/
theorem S0_spmv (q0 : Fin cfg0.W → PosShare TreeShare) (c : Dev nD) (p : Fin 8192) (q : Fin 128) :
    (dat0 (F := Ideal) (fun c b => V3 m c b) q0 c).arrAt 4 cfg0.N (ix2 p q)
      = Cert.Spec.spmv (adjK (F := Ideal) (m ((c : Thread nD τ).loc main_arg1))) (dinvK (F := Ideal) (m ((c : Thread nD τ).loc main_arg1)))
          (m ((c : Thread nD τ).loc main_arg0)) p q := by
  rw [arr0_apply]
  have hA : r0_aA (fun c b => V3 m c b) c = adjK (F := Ideal) (m ((c : Thread nD τ).loc main_arg1)) := V3_v19 m c
  have hR : r0_aR (fun c b => V3 m c b) c = m ((c : Thread nD τ).loc main_arg0) := V3_arg0 m c
  have hD : r0_aD (fun c b => V3 m c b) c = dbcK (F := Ideal) (m ((c : Thread nD τ).loc main_arg1)) := V3_v26 m c
  rw [hA, hR, hD]
  unfold Cert.Spec.spmv
  simp only [dbcK_apply]

end Cert.KernelIdeal.H

end
-- ==== Proof.KI.R1Value.lean ====
/- REGION 1 of @main (custom_call 1, the second sparse-matrix product) at the ideal values: what its output array holds
   after the region, entry by entry — row `p` of the adjacency matrix against column `q` of the entrywise product of the
   right-hand side and the scaling array, an [8192]-term sum, scaled by the scaling array's entry at `(p, q)` — as a
   function of the arrays the region finds. The body is region 0's with another right-hand side and another output, and
   the steps are region 0's: the body's payloads at an index (the matrix product at an index is region 0's lemma), each
   window's block as entries of its array, the accumulator by induction on the point, the array after the eight
   write-backs. -/
import proofs.«138934_j78142634983584_1_alg».proof.Proof.Gen.KernelIdeal.Launch
import proofs.«138934_j78142634983584_1_alg».proof.Proof.Gen.KernelIdeal.Skeleton
import proofs.«138934_j78142634983584_1_alg».proof.Proof.Gen.KernelIdeal.Points
import proofs.«138934_j78142634983584_1_alg».proof.Proof.Gen.KernelIdeal.Regions
import proofs.«138934_j78142634983584_1_alg».proof.Proof.KI.R1
import proofs.«138934_j78142634983584_1_alg».proof.Proof.KI.R0Value
import proofs.«138934_j78142634983584_1_alg».proof.Proof.LibBlockedSum
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The body's payloads at an index -/

/-- The reset value of the accumulator is zero everywhere. -/
theorem k1_pay1_apply (r : Fin 1024) (q : Fin 128) : k1_pay1 (F := Ideal) (ix2 r q) = 0 := by
  unfold k1_pay1
  simp only [shapeCast_self, broadcast_apply]
  exact Ideal.ofBits_zero_f32

/-- One step of the accumulator at row `r`, column `q`: what it held, plus the [1024]-term sum of the matrix block's
    row `r` against column `q` of the entrywise product of the two feature blocks (the change of float format is the
    identity at the ideal values, the matrix unit's zero accumulator adds nothing). -/
theorem k1_pay2_apply (v3 v5 : Vec Ideal S1024x128 .f32) (v9 : Vec Ideal S1024x1024 .f32) (v12 : Vec Ideal S1024x128 .f32)
    (r : Fin 1024) (q : Fin 128) :
    k1_pay2 (F := Ideal) v3 v5 v9 v12 (ix2 r q)
      = v12 (ix2 r q) + ∑ j : Fin 1024, v9 (ix2 r j) * (v3 (ix2 j q) * v5 (ix2 j q)) := by
  unfold k1_pay2
  simp only [shapeCast_self, addf_apply]
  rw [r0_matmul_apply]
  simp only [truncf_apply, mulf_apply]

/-- The stored output at row `r`, column `q`: the accumulator's entry times the scaling block's. -/
theorem k1_pay3_apply (v21 v22 : Vec Ideal S1024x128 .f32) (r : Fin 1024) (q : Fin 128) :
    k1_pay3 (F := Ideal) v21 v22 (ix2 r q) = v21 (ix2 r q) * v22 (ix2 r q) := by
  unfold k1_pay3
  simp only [shapeCast_self, mulf_apply]

/-! ## The arrays the region reads, and its windows' blocks as entries of them -/

/-- The three arrays the region reads, as the region finds them, on their literal index types: the adjacency matrix,
    the right-hand side (the features minus the first product), and the scaling vector spread along the feature columns. -/
abbrev r1_aA (c : Dev nD) : S8192x8192.Idx → EReal := V c main_v19
abbrev r1_aR (c : Dev nD) : S8192x128.Idx → EReal := V c main_v28
abbrev r1_aD (c : Dev nD) : S8192x128.Idx → EReal := V c main_v26

/-- The printed index maps over the grid: at point `t` the row block is `t / 8` and the column block `t % 8`; the matrix
    window sits at (row block, column block), the two feature windows at block row `t % 8`, the scaling window and the
    output at block row `t / 8`. -/
theorem idx_facts1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0
    ∧ win1_4.index t (0 : Fin 2) = t.val / 8 ∧ win1_4.index t (1 : Fin 2) = 0 :=
  (by decide +kernel : ∀ t : Fin grid1.N, _)

/-- The matrix window's block at point `t` is rows `1024·(t/8) …`, columns `1024·(t%8) …` of the adjacency matrix. -/
theorem iblk1_0_apply (c : Dev nD) (t : Fin cfg1.N) (r j : Fin 1024) (p k : Fin 8192)
    (hp : p.val = t.val / 8 * 1024 + r.val) (hk : k.val = t.val % 8 * 1024 + j.val) :
    (iblk1 V c 0 t : Vec Ideal S1024x1024 .f32) (ix2 r j) = r1_aA V c (ix2 p k) := by
  obtain ⟨e0, e1, -⟩ := idx_facts1 t
  unfold iblk1
  rw [View.read_apply]
  show V c main_v19 _ = V c main_v19 _
  refine congrArg (V c main_v19) (funext fun a => Fin.ext ?_)
  match a with
  | ⟨0, _⟩ => show win1_0.index t (0 : Fin 2) * 1024 + 1 * r.val = p.val; rw [e0, hp]; omega
  | ⟨1, _⟩ => show win1_0.index t (1 : Fin 2) * 1024 + 1 * j.val = k.val; rw [e1, hk]; omega

/-- The right-hand side's block at point `t` is its rows `1024·(t%8) …`. -/
theorem iblk1_1_apply (c : Dev nD) (t : Fin cfg1.N) (j : Fin 1024) (q : Fin 128) (k : Fin 8192)
    (hk : k.val = t.val % 8 * 1024 + j.val) :
    (iblk1 V c 1 t : Vec Ideal S1024x128 .f32) (ix2 j q) = r1_aR V c (ix2 k q) := by
  obtain ⟨-, -, e0, e1, -⟩ := idx_facts1 t
  unfold iblk1
  rw [View.read_apply]
  show V c main_v28 _ = V c main_v28 _
  refine congrArg (V c main_v28) (funext fun a => Fin.ext ?_)
  match a with
  | ⟨0, _⟩ => show win1_1.index t (0 : Fin 2) * 1024 + 1 * j.val = k.val; rw [e0, hk]; omega
  | ⟨1, _⟩ => show win1_1.index t (1 : Fin 2) * 128 + 1 * q.val = q.val; rw [e1]; omega

/-- The scaling array's block under the product at point `t` is its rows `1024·(t%8) …`. -/
theorem iblk1_2_apply (c : Dev nD) (t : Fin cfg1.N) (j : Fin 1024) (q : Fin 128) (k : Fin 8192)
    (hk : k.val = t.val % 8 * 1024 + j.val) :
    (iblk1 V c 2 t : Vec Ideal S1024x128 .f32) (ix2 j q) = r1_aD V c (ix2 k q) := by
  obtain ⟨-, -, -, -, e0, e1, -⟩ := idx_facts1 t
  unfold iblk1
  rw [View.read_apply]
  show V c main_v26 _ = V c main_v26 _
  refine congrArg (V c main_v26) (funext fun a => Fin.ext ?_)
  match a with
  | ⟨0, _⟩ => show win1_2.index t (0 : Fin 2) * 1024 + 1 * j.val = k.val; rw [e0, hk]; omega
  | ⟨1, _⟩ => show win1_2.index t (1 : Fin 2) * 128 + 1 * q.val = q.val; rw [e1]; omega

/-- The scaling array's block that scales the output at point `t` is its rows `1024·(t/8) …`. -/
theorem iblk1_3_apply (c : Dev nD) (t : Fin cfg1.N) (r : Fin 1024) (q : Fin 128) (p : Fin 8192)
    (hp : p.val = t.val / 8 * 1024 + r.val) :
    (iblk1 V c 3 t : Vec Ideal S1024x128 .f32) (ix2 r q) = r1_aD V c (ix2 p q) := by
  obtain ⟨-, -, -, -, -, -, e0, e1, -⟩ := idx_facts1 t
  unfold iblk1
  rw [View.read_apply]
  show V c main_v26 _ = V c main_v26 _
  refine congrArg (V c main_v26) (funext fun a => Fin.ext ?_)
  match a with
  | ⟨0, _⟩ => show win1_3.index t (0 : Fin 2) * 1024 + 1 * r.val = p.val; rw [e0, hp]; omega
  | ⟨1, _⟩ => show win1_3.index t (1 : Fin 2) * 128 + 1 * q.val = q.val; rw [e1]; omega

/-! ## The accumulator after every point -/

/-- The term of the row-times-column sum at row `p`, column `q`, for the contracted coordinate numbered `m` (numbered
    through eight blocks of 1024): the adjacency entry times the product of the right-hand side's and the scaling array's entries. -/
def r1_f (c : Dev nD) (p : Fin 8192) (q : Fin 128) (m : Fin (8 * 1024)) : EReal :=
  r1_aA V c (ix2 p (Fin.cast r0_K m)) * (r1_aR V c (ix2 (Fin.cast r0_K m) q) * r1_aD V c (ix2 (Fin.cast r0_K m) q))

/-- One point's step at row `r`, column `q` of the block: what the accumulator held, plus the sum of block `t % 8` of the
    terms of row `1024·(t/8) + r`. -/
theorem r1_point (c : Dev nD) (t : Fin cfg1.N) (acc : Vec Ideal S1024x128 .f32) (r : Fin 1024) (q : Fin 128) (p : Fin 8192)
    (hp : p.val = t.val / 8 * 1024 + r.val) :
    k1_pay2 (F := Ideal) (iblk1 V c 1 t) (iblk1 V c 2 t) (iblk1 V c 0 t) acc (ix2 r q)
      = acc (ix2 r q) + BlockedSum.blockSum 8 1024 (r1_f V c p q) (t.val % 8) := by
  have hk8 : t.val % 8 < 8 := Nat.mod_lt _ (by norm_num)
  rw [k1_pay2_apply]
  refine congrArg (acc (ix2 r q) + ·) ?_
  refine Eq.trans ?_ (BlockedSum.blockSum_of_lt 8 1024 (r1_f V c p q) ⟨t.val % 8, hk8⟩).symm
  refine Finset.sum_congr rfl fun j _ => ?_
  have hj : j.val < 1024 := j.isLt
  unfold r1_f
  exact congrArg₂ (· * ·) (iblk1_0_apply V c t r j p ⟨t.val % 8 * 1024 + j.val, by omega⟩ hp rfl)
    (congrArg₂ (· * ·) (iblk1_1_apply V c t j q ⟨t.val % 8 * 1024 + j.val, by omega⟩ rfl)
      (iblk1_2_apply V c t j q ⟨t.val % 8 * 1024 + j.val, by omega⟩ rfl))

/-- The accumulator after point `n`, at row `r`, column `q` of its block: the sum of the first `n % 8 + 1` block sums of
    row `1024·(n/8) + r` — by induction on the point: a first column block starts from zero, any other adds its block
    sum to what the point before left. -/
theorem acc1_apply (c : Dev nD) (n : ℕ) : ∀ (hn : n < cfg1.N) (r : Fin 1024) (q : Fin 128) (p : Fin 8192),
    p.val = n / 8 * 1024 + r.val →
    acc1 V c n hn (ix2 r q) = ∑ m ∈ Finset.range (n % 8 + 1), BlockedSum.blockSum 8 1024 (r1_f V c p q) m := by
  induction n with
  | zero =>
    intro hn r q p hp
    rw [show acc1 V c 0 hn = _ from acc1_first V c ⟨0, hn⟩ rfl, r1_point V c ⟨0, hn⟩ _ r q p hp, k1_pay1_apply, zero_add]
    show _ = ∑ m ∈ Finset.range 1, _
    rw [Finset.sum_range_one]
    rfl
  | succ n ih =>
    intro hn r q p hp
    by_cases h0 : (n + 1) % 8 = 0
    · rw [show acc1 V c (n + 1) hn = _ from acc1_first V c ⟨n + 1, hn⟩ h0, r1_point V c ⟨n + 1, hn⟩ _ r q p hp,
        k1_pay1_apply, zero_add]
      show BlockedSum.blockSum 8 1024 _ ((n + 1) % 8) = _
      rw [h0, Finset.sum_range_one]
    · have e1 : (n + 1) / 8 = n / 8 := by omega
      have e2 : (n + 1) % 8 = n % 8 + 1 := by omega
      rw [show acc1 V c (n + 1) hn = _ from acc1_next V c ⟨n + 1, hn⟩ h0, r1_point V c ⟨n + 1, hn⟩ _ r q p hp]
      show acc1 V c n _ (ix2 r q) + BlockedSum.blockSum 8 1024 _ ((n + 1) % 8) = _
      rw [ih (Nat.lt_of_succ_lt hn) r q p (by rw [hp, e1]), e2, ← Finset.sum_range_succ]

/-- All eight block sums together are the sum over the 8192 contracted coordinates. -/
theorem r1_sum_all (c : Dev nD) (p : Fin 8192) (q : Fin 128) :
    ∑ m ∈ Finset.range 8, BlockedSum.blockSum 8 1024 (r1_f V c p q) m
      = ∑ k : Fin 8192, r1_aA V c (ix2 p k) * (r1_aR V c (ix2 k q) * r1_aD V c (ix2 k q)) := by
  rw [BlockedSum.sum_range_blockSum]
  exact Fintype.sum_equiv (finCongr r0_K) _ _ (fun m => rfl)

/-! ## From blocks to the array -/

/-- The output array's entry at row `p`, column `q`: row `p` of the adjacency matrix against column `q` of the entrywise
    product of the right-hand side and the scaling array, the result scaled by the scaling array's entry at `(p, q)`. -/
def g1 (c : Dev nD) (p : Fin 8192) (q : Fin 128) : EReal :=
  (∑ k : Fin 8192, r1_aA V c (ix2 p k) * (r1_aR V c (ix2 k q) * r1_aD V c (ix2 k q))) * r1_aD V c (ix2 p q)

/-- The output array after the region, as one function of the arrays the region finds. -/
def G1 (c : Dev nD) : Buf (Elt Ideal) ((cfg1.win 4).arr.view.loc (c.tc : Thread nD τ)) :=
  fun i => g1 V c (i 0) (i 1)

/-- What a last column block stores, at row `r` and column `q` of the block, is the output function at row
    `1024·(t/8) + r`: the accumulator holds all eight block sums there, and the scaling block's entry is the array's. -/
theorem flushed1_point (c : Dev nD) (t : Fin cfg1.N) (h7 : t.val % 8 = 7) (r : Fin 1024) (q : Fin 128) (p : Fin 8192)
    (hp : p.val = t.val / 8 * 1024 + r.val) :
    out1 (F := Ideal) V c t (ix2 r q) = g1 V c p q := by
  unfold out1 g1
  rw [k1_pay3_apply, acc1_apply V c t.val t.isLt r q p hp, h7, r1_sum_all, iblk1_3_apply V c t r q p hp]

/-- What a flushing point `t` writes back is block `t / 8` of the output function. -/
theorem flushed1_eq (q0 : Fin cfg1.W → PosShare TreeShare) (c : Dev nD) (t : Fin cfg1.N) (hf : (cfg1.win 4).flush t = true) :
    (dat1 V q0 c).flushed 4 t = ((cfg1.win 4).blk t).view.read (Elt Ideal) (G1 V c) := by
  show (cfg1.win 4).cut (grid1.coords t) ((dat1 V q0 c).after 4 t) = _
  rw [after1_4]
  funext j
  have h7 : t.val % 8 = 7 := (flush1_4 t).mp hf
  have hr : (j 0).val < 1024 := (j 0).isLt
  have ho : (j 1).val < 128 := (j 1).isLt
  have hN : t.val < 64 := Nat.lt_of_lt_of_eq t.isLt N_1
  obtain ⟨-, -, -, -, -, -, -, -, e0, e1⟩ := idx_facts1 t
  have key := flushed1_point V c t h7 ⟨(j 0).val, hr⟩ ⟨(j 1).val, ho⟩ ⟨t.val / 8 * 1024 + (j 0).val, by omega⟩ rfl
  rw [View.read_apply]
  show out1 (F := Ideal) V c t ((cfg1.win 4).xinj (grid1.coords t) j)
    = g1 V c ((((cfg1.win 4).blk t).view.emb j) 0) ((((cfg1.win 4).blk t).view.emb j) 1)
  have hx : (cfg1.win 4).xinj (grid1.coords t) j = ix2 (⟨(j 0).val, hr⟩ : Fin 1024) (⟨(j 1).val, ho⟩ : Fin 128) := by
    funext a; apply Fin.ext
    match a with
    | ⟨0, _⟩ => rfl
    | ⟨1, _⟩ => rfl
  refine (congrArg (out1 (F := Ideal) V c t) hx).trans (key.trans ?_)
  refine congrArg₂ (g1 V c) (Fin.ext ?_) (Fin.ext ?_)
  · show t.val / 8 * 1024 + (j 0).val = win1_4.index t (0 : Fin 2) * 1024 + 1 * (j 0).val
    rw [e0]; omega
  · show (j 1).val = win1_4.index t (1 : Fin 2) * 128 + 1 * (j 1).val
    rw [e1]; omega

/-- An index of the output array is in point `t`'s block iff each coordinate is in the block's range on its axis. -/
theorem mem_blk1 (t : Fin cfg1.N) (i : S8192x128.Idx) :
    i ∈ ((cfg1.win 4).blk t).view.set ↔ ∀ a : Fin 2, win1_4.index t a * S1024x128.size a ≤ (i a).val
      ∧ (i a).val < win1_4.index t a * S1024x128.size a + S1024x128.size a := by
  show i ∈ ((View.whole main_v29).slice (win1_4.rect t)).set ↔ _
  rw [View.set_slice_whole, Rect.mem_set_unit]
  exact Iff.rfl

/-- Every row `p` of the output array is in the block of the flushing point `8·(p / 1024) + 7`: the eight blocks of 1024
    rows written back at the last column blocks tile it. -/
theorem covered1 (i : S8192x128.Idx) :
    ∃ t : Fin cfg1.N, (cfg1.win 4).flush t = true ∧ i ∈ ((cfg1.win 4).blk t).view.set := by
  have hi0 : (i 0).val < 8192 := (i 0).isLt
  have hi1 : (i 1).val < 128 := (i 1).isLt
  obtain ⟨t, ht⟩ : ∃ t : Fin cfg1.N, t.val = (i 0).val / 1024 * 8 + 7 :=
    ⟨⟨(i 0).val / 1024 * 8 + 7, Nat.lt_of_lt_of_eq (by omega : (i 0).val / 1024 * 8 + 7 < 64) N_1.symm⟩, rfl⟩
  obtain ⟨-, -, -, -, -, -, -, -, e0, e1⟩ := idx_facts1 t
  refine ⟨t, (flush1_4 t).mpr (by rw [ht]; omega), ?_⟩
  rw [mem_blk1]
  intro a
  match a with
  | ⟨0, _⟩ =>
    show win1_4.index t (0 : Fin 2) * 1024 ≤ (i 0).val ∧ (i 0).val < win1_4.index t (0 : Fin 2) * 1024 + 1024
    rw [e0, ht]; omega
  | ⟨1, _⟩ =>
    show win1_4.index t (1 : Fin 2) * 128 ≤ (i 1).val ∧ (i 1).val < win1_4.index t (1 : Fin 2) * 128 + 128
    rw [e1]; omega

/-- So the output array, after the eight write-backs, is the output function. -/
theorem arr1_eq (q0 : Fin cfg1.W → PosShare TreeShare) (c : Dev nD) : (dat1 V q0 c).arrAt 4 cfg1.N = G1 V c :=
  (dat1 V q0 c).arrAt_eq_of_cover 4 (G1 V c) (fun t hf => flushed1_eq V q0 c t hf) covered1

/-- Entry by entry: row `p`, column `q` of the output array after the region. -/
theorem arr1_apply (q0 : Fin cfg1.W → PosShare TreeShare) (c : Dev nD) (p : Fin 8192) (q : Fin 128) :
    (dat1 (F := Ideal) V q0 c).arrAt 4 cfg1.N (ix2 p q)
      = (∑ k : Fin 8192, r1_aA V c (ix2 p k) * (r1_aR V c (ix2 k q) * r1_aD V c (ix2 k q))) * r1_aD V c (ix2 p q) := by
  rw [arr1_eq]
  show g1 V c p q = _
  unfold g1
  rfl

end Cert.KernelIdeal.H

end
-- ==== Proof.KI.R2Value.lean ====
/- REGION 2 of @main (custom_call 2, the combine kernel) at the ideal values: what its output array holds after the
   region, entry by entry — three [128]-term sums of products of an input row with a weight column, plus the bias —
   as a function of the arrays the region finds. First the body's payload at an index, then each window's block as
   entries of its array, then the array after all eight write-backs. -/
import proofs.«138934_j78142634983584_1_alg».proof.Proof.Gen.KernelIdeal.Launch
import proofs.«138934_j78142634983584_1_alg».proof.Proof.Gen.KernelIdeal.Skeleton
import proofs.«138934_j78142634983584_1_alg».proof.Proof.Gen.KernelIdeal.Points
import proofs.«138934_j78142634983584_1_alg».proof.Proof.Gen.KernelIdeal.Regions
import proofs.«138934_j78142634983584_1_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The body's payload at an index -/

/-- The product of a [1024,128] by a [128,128] matrix into a zero accumulator, read at an index: the sum over the
    contracted coordinate of the products of the entries. -/
theorem r2_matmul_apply {φ₁ φ₂ : FTy} (A : FVec Ideal S1024x128 φ₁) (B : FVec Ideal S128x128 φ₂) (r : Fin 1024) (o : Fin 128) :
    matmul dot_S1024x128_S128x128_S1024x128_1_0_0_1_n_n none A B (constant (F := Ideal) S1024x128 .f32 0x00000000#32) (ix2 r o)
      = ∑ q : Fin 128, A (ix2 r q) * B (ix2 q o) := by
  show FloatOps.matmul _ none A B _ (ix2 r o) = _
  rw [Ideal.matmul_constant_zero_apply,
    ← Equiv.sum_comp (contrEquiv1 dot_S1024x128_S128x128_S1024x128_1_0_0_1_n_n 128 rfl rfl).symm]
  refine Finset.sum_congr rfl fun q _ => ?_
  have c2 := contrEquiv1_symm_val dot_S1024x128_S128x128_S1024x128_1_0_0_1_n_n 128 rfl rfl q
  have l2 : dot_S1024x128_S128x128_S1024x128_1_0_0_1_n_n.lhsIdx (ix2 r o) ((contrEquiv1 _ 128 rfl rfl).symm q) = ix2 r q := by
    funext ax; apply Fin.ext
    match ax with
    | ⟨0, _⟩ => simp [DotDims.lhsIdx, dot_S1024x128_S128x128_S1024x128_1_0_0_1_n_n]; rfl
    | ⟨1, _⟩ => simp [DotDims.lhsIdx, dot_S1024x128_S128x128_S1024x128_1_0_0_1_n_n]; exact c2
  have r2 : dot_S1024x128_S128x128_S1024x128_1_0_0_1_n_n.rhsIdx (ix2 r o) ((contrEquiv1 _ 128 rfl rfl).symm q) = ix2 q o := by
    funext ax; apply Fin.ext
    match ax with
    | ⟨0, _⟩ => simp [DotDims.rhsIdx, dot_S1024x128_S128x128_S1024x128_1_0_0_1_n_n]; exact c2
    | ⟨1, _⟩ => simp [DotDims.rhsIdx, dot_S1024x128_S128x128_S1024x128_1_0_0_1_n_n]; rfl
  rw [l2, r2]

theorem r2_hz : (![0, 0] : Fin 2 → Nat) = fun _ => 0 := funext fun a => by fin_cases a <;> rfl

/-- The body's stored value at row `r`, column `o`, from the seven loaded values: each [1,1024,128] slab against its
    [1,128,128] weight as a [128]-term sum of products (the change of float format is the identity at the ideal values,
    the zero accumulators and the leading zero vector add nothing), the three sums added in order, plus the bias row's
    entry at `o`. -/
theorem k2_pay1_apply (v1 : Vec Ideal S1x1024x128 .f32) (v4 : Vec Ideal S1x128x128 .f32) (v9 : Vec Ideal S1x1024x128 .f32)
    (v12 : Vec Ideal S1x128x128 .f32) (v17 : Vec Ideal S1x1024x128 .f32) (v20 : Vec Ideal S1x128x128 .f32)
    (v25 : Vec Ideal S1x128 .f32) (r : Fin 1024) (o : Fin 128) :
    k2_pay1 (F := Ideal) v1 v4 v9 v12 v17 v20 v25 (ix2 r o)
      = ((∑ q : Fin 128, v1 (ix3 0 r q) * v4 (ix3 0 q o)) + (∑ q : Fin 128, v9 (ix3 0 r q) * v12 (ix3 0 q o))
          + (∑ q : Fin 128, v17 (ix3 0 r q) * v20 (ix3 0 q o))) + v25 (ix2 0 o) := by
  unfold k2_pay1
  simp only [addf_apply, broadcast_apply]
  rw [r2_matmul_apply, r2_matmul_apply, r2_matmul_apply]
  simp only [truncf_apply, shapeCast_1ab_ab_apply, broadcastTo_1b_ab_apply, shapeCast_self]
  have h0 : (FloatOps.ofBits FTy.f32 0x00000000#32 : Idealize.ShloMosaic.Ideal FTy.f32) = 0 := Ideal.ofBits_zero_f32
  rw [h0, zero_add]

/-! ## The body's loads and its one store, at an index -/

/-- Slab `k` of the input block, read at `(0, r, q)`, is the block's entry `(k, r, q)`; -/
theorem r2_ldY0_apply (xY : Vec Ideal S3x1024x128 .f32) (r : Fin 1024) (q : Fin 128) :
    View.ld xY r2_Y0 (ix3 0 r q) = xY (ix3 0 r q) := by
  show xY (r2_Y0.toLoadRect.idx (ix3 0 r q)) = xY (ix3 0 r q)
  refine congrArg xY (funext fun a => Fin.ext ?_)
  match a with
  | ⟨0, _⟩ => rfl
  | ⟨1, _⟩ => show 0 + 1 * r.val = r.val; omega
  | ⟨2, _⟩ => show 0 + 1 * q.val = q.val; omega

theorem r2_ldY1_apply (xY : Vec Ideal S3x1024x128 .f32) (r : Fin 1024) (q : Fin 128) :
    View.ld xY r2_Y1 (ix3 0 r q) = xY (ix3 1 r q) := by
  show xY (r2_Y1.toLoadRect.idx (ix3 0 r q)) = xY (ix3 1 r q)
  refine congrArg xY (funext fun a => Fin.ext ?_)
  match a with
  | ⟨0, _⟩ => rfl
  | ⟨1, _⟩ => show 0 + 1 * r.val = r.val; omega
  | ⟨2, _⟩ => show 0 + 1 * q.val = q.val; omega

theorem r2_ldY2_apply (xY : Vec Ideal S3x1024x128 .f32) (r : Fin 1024) (q : Fin 128) :
    View.ld xY r2_Y2 (ix3 0 r q) = xY (ix3 2 r q) := by
  show xY (r2_Y2.toLoadRect.idx (ix3 0 r q)) = xY (ix3 2 r q)
  refine congrArg xY (funext fun a => Fin.ext ?_)
  match a with
  | ⟨0, _⟩ => rfl
  | ⟨1, _⟩ => show 0 + 1 * r.val = r.val; omega
  | ⟨2, _⟩ => show 0 + 1 * q.val = q.val; omega

/-- matrix `k` of the weights, read at `(0, q, o)`, is the weights' entry `(k, q, o)`; -/
theorem r2_ldW0_apply (xW : Vec Ideal S3x128x128 .f32) (q : Fin 128) (o : Fin 128) :
    View.ld xW r2_W0 (ix3 0 q o) = xW (ix3 0 q o) := by
  show xW (r2_W0.toLoadRect.idx (ix3 0 q o)) = xW (ix3 0 q o)
  refine congrArg xW (funext fun a => Fin.ext ?_)
  match a with
  | ⟨0, _⟩ => rfl
  | ⟨1, _⟩ => show 0 + 1 * q.val = q.val; omega
  | ⟨2, _⟩ => show 0 + 1 * o.val = o.val; omega

theorem r2_ldW1_apply (xW : Vec Ideal S3x128x128 .f32) (q : Fin 128) (o : Fin 128) :
    View.ld xW r2_W1 (ix3 0 q o) = xW (ix3 1 q o) := by
  show xW (r2_W1.toLoadRect.idx (ix3 0 q o)) = xW (ix3 1 q o)
  refine congrArg xW (funext fun a => Fin.ext ?_)
  match a with
  | ⟨0, _⟩ => rfl
  | ⟨1, _⟩ => show 0 + 1 * q.val = q.val; omega
  | ⟨2, _⟩ => show 0 + 1 * o.val = o.val; omega

theorem r2_ldW2_apply (xW : Vec Ideal S3x128x128 .f32) (q : Fin 128) (o : Fin 128) :
    View.ld xW r2_W2 (ix3 0 q o) = xW (ix3 2 q o) := by
  show xW (r2_W2.toLoadRect.idx (ix3 0 q o)) = xW (ix3 2 q o)
  refine congrArg xW (funext fun a => Fin.ext ?_)
  match a with
  | ⟨0, _⟩ => rfl
  | ⟨1, _⟩ => show 0 + 1 * q.val = q.val; omega
  | ⟨2, _⟩ => show 0 + 1 * o.val = o.val; omega

/-- What the body leaves in the output block, at row `r` and column `o`: the three slabs' rows `r` against the three
    matrices' columns `o`, summed in order, plus the bias at `o`. -/
theorem out2_apply (xY : Vec Ideal S3x1024x128 .f32) (xW : Vec Ideal S3x128x128 .f32) (xB : Vec Ideal S1x128 .f32)
    (r : Fin 1024) (o : Fin 128) :
    out2 (F := Ideal) xY xW xB (ix2 r o)
      = ((∑ q : Fin 128, xY (ix3 0 r q) * xW (ix3 0 q o)) + (∑ q : Fin 128, xY (ix3 1 r q) * xW (ix3 1 q o))
          + (∑ q : Fin 128, xY (ix3 2 r q) * xW (ix3 2 q o))) + xB (ix2 0 o) := by
  unfold out2
  rw [View.canon_unit_zero r2_hz]
  refine (k2_pay1_apply _ _ _ _ _ _ _ r o).trans ?_
  have eB : View.ld xB r2_B (ix2 0 o) = xB (ix2 0 o) := congrFun (View.ld_unit_zero (S := S1x128) r2_hz _ xB) _
  exact congrArg₂ (· + ·)
    (congrArg₂ (· + ·)
      (congrArg₂ (· + ·)
        (Finset.sum_congr rfl fun q _ => congrArg₂ (· * ·) (r2_ldY0_apply xY r q) (r2_ldW0_apply xW q o))
        (Finset.sum_congr rfl fun q _ => congrArg₂ (· * ·) (r2_ldY1_apply xY r q) (r2_ldW1_apply xW q o)))
      (Finset.sum_congr rfl fun q _ => congrArg₂ (· * ·) (r2_ldY2_apply xY r q) (r2_ldW2_apply xW q o)))
    eB

/-! ## From blocks to the array -/

/-- The three arrays the region reads, as the region finds them, on their literal index types. -/
abbrev r2_aY (c : Dev nD) : S3x8192x128.Idx → EReal := V c main_v37
abbrev r2_aW (c : Dev nD) : S3x128x128.Idx → EReal := V c main_arg2
abbrev r2_aB (c : Dev nD) : S1x128.Idx → EReal := V c main_v38

/-- The output array's entry at row `p`, column `o`: the three [128]-term sums of row `p` of input slab `k` against
    column `o` of weight matrix `k`, added in order, plus the bias at `o`. -/
def g2 (c : Dev nD) (p : Fin 8192) (o : Fin 128) : EReal :=
  ((∑ q : Fin 128, r2_aY V c (ix3 0 p q) * r2_aW V c (ix3 0 q o)) + (∑ q : Fin 128, r2_aY V c (ix3 1 p q) * r2_aW V c (ix3 1 q o))
      + (∑ q : Fin 128, r2_aY V c (ix3 2 p q) * r2_aW V c (ix3 2 q o))) + r2_aB V c (ix2 0 o)

/-- The output array after the region, as one function of the arrays the region finds. -/
def G2 (c : Dev nD) : Buf (Elt Ideal) ((cfg2.win 3).arr.view.loc (c.tc : Thread nD τ)) :=
  fun i => g2 V c (i 0) (i 1)

/-- The printed index maps over the grid: the input window moves along its middle axis with the point, the weights and
    the bias stay at block zero, the output moves along its rows with the point. -/
theorem idx_facts2 : ∀ t : Fin cfg2.N,
    win2_0.index t (0 : Fin 3) = 0 ∧ win2_0.index t (1 : Fin 3) = t.val ∧ win2_0.index t (2 : Fin 3) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input window's block at point `t` is rows `1024·t … 1024·t + 1023` of each slab of its array. -/
theorem iblk2_0_apply (c : Dev nD) (t : Fin cfg2.N) (k : Fin 3) (r : Fin 1024) (q : Fin 128) (p : Fin 8192)
    (hp : p.val = t.val * 1024 + r.val) :
    (iblk2 V c 0 t : Vec Ideal S3x1024x128 .f32) (ix3 k r q) = r2_aY V c (ix3 k p q) := by
  obtain ⟨e0, e1, e2, -⟩ := idx_facts2 t
  unfold iblk2
  rw [View.read_apply]
  show V c main_v37 _ = V c main_v37 _
  refine congrArg (V c main_v37) (funext fun a => Fin.ext ?_)
  match a with
  | ⟨0, _⟩ => show win2_0.index t (0 : Fin 3) * 3 + 1 * k.val = k.val; rw [e0]; omega
  | ⟨1, _⟩ => show win2_0.index t (1 : Fin 3) * 1024 + 1 * r.val = p.val; rw [e1, hp]; omega
  | ⟨2, _⟩ => show win2_0.index t (2 : Fin 3) * 128 + 1 * q.val = q.val; rw [e2]; omega

/-- The weights' block at every point is the whole array. -/
theorem iblk2_1_apply (c : Dev nD) (t : Fin cfg2.N) (k : Fin 3) (q : Fin 128) (o : Fin 128) :
    (iblk2 V c 1 t : Vec Ideal S3x128x128 .f32) (ix3 k q o) = r2_aW V c (ix3 k q o) := by
  obtain ⟨-, -, -, e0, e1, e2, -⟩ := idx_facts2 t
  unfold iblk2
  rw [View.read_apply]
  show V c main_arg2 _ = V c main_arg2 _
  refine congrArg (V c main_arg2) (funext fun a => Fin.ext ?_)
  match a with
  | ⟨0, _⟩ => show win2_1.index t (0 : Fin 3) * 3 + 1 * k.val = k.val; rw [e0]; omega
  | ⟨1, _⟩ => show win2_1.index t (1 : Fin 3) * 128 + 1 * q.val = q.val; rw [e1]; omega
  | ⟨2, _⟩ => show win2_1.index t (2 : Fin 3) * 128 + 1 * o.val = o.val; rw [e2]; omega

/-- The bias row's block at every point is the whole row. -/
theorem iblk2_2_apply (c : Dev nD) (t : Fin cfg2.N) (z : Fin 1) (o : Fin 128) :
    (iblk2 V c 2 t : Vec Ideal S1x128 .f32) (ix2 z o) = r2_aB V c (ix2 z o) := by
  obtain ⟨-, -, -, -, -, -, e0, e1, -⟩ := idx_facts2 t
  unfold iblk2
  rw [View.read_apply]
  show V c main_v38 _ = V c main_v38 _
  refine congrArg (V c main_v38) (funext fun a => Fin.ext ?_)
  match a with
  | ⟨0, _⟩ => show win2_2.index t (0 : Fin 2) * 1 + 1 * z.val = z.val; rw [e0]; omega
  | ⟨1, _⟩ => show win2_2.index t (1 : Fin 2) * 128 + 1 * o.val = o.val; rw [e1]; omega

/-- What the body leaves at point `t`, at row `r` and column `o` of the block, is the output function at row
    `1024·t + r`: each block entry the sums read is the array's entry at that row. -/
theorem flushed2_point (c : Dev nD) (t : Fin cfg2.N) (r : Fin 1024) (o : Fin 128) (p : Fin 8192)
    (hp : p.val = t.val * 1024 + r.val) :
    out2 (F := Ideal) (iblk2 V c 0 t) (iblk2 V c 1 t) (iblk2 V c 2 t) (ix2 r o) = g2 V c p o := by
  refine (out2_apply (iblk2 V c 0 t) (iblk2 V c 1 t) (iblk2 V c 2 t) r o).trans ?_
  unfold g2
  exact congrArg₂ (· + ·)
    (congrArg₂ (· + ·)
      (congrArg₂ (· + ·)
        (Finset.sum_congr rfl fun q _ => congrArg₂ (· * ·) (iblk2_0_apply V c t 0 r q p hp) (iblk2_1_apply V c t 0 q o))
        (Finset.sum_congr rfl fun q _ => congrArg₂ (· * ·) (iblk2_0_apply V c t 1 r q p hp) (iblk2_1_apply V c t 1 q o)))
      (Finset.sum_congr rfl fun q _ => congrArg₂ (· * ·) (iblk2_0_apply V c t 2 r q p hp) (iblk2_1_apply V c t 2 q o)))
    (iblk2_2_apply V c t 0 o)

/-- What point `t` writes back is block `t` of the output function. -/
theorem flushed2_eq (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  funext j
  have hr : (j 0).val < 1024 := (j 0).isLt
  have ho : (j 1).val < 128 := (j 1).isLt
  have hN : t.val < 8 := Nat.lt_of_lt_of_eq t.isLt N_2
  obtain ⟨-, -, -, -, -, -, -, -, e0, e1⟩ := idx_facts2 t
  have key := flushed2_point V c t ⟨(j 0).val, hr⟩ ⟨(j 1).val, ho⟩ ⟨t.val * 1024 + (j 0).val, by omega⟩ rfl
  rw [View.read_apply]
  show out2 (F := Ideal) (iblk2 V c 0 t) (iblk2 V c 1 t) (iblk2 V c 2 t) ((cfg2.win 3).xinj (grid2.coords t) j)
    = g2 V c ((((cfg2.win 3).blk t).view.emb j) 0) ((((cfg2.win 3).blk t).view.emb j) 1)
  have hx : (cfg2.win 3).xinj (grid2.coords t) j = ix2 (⟨(j 0).val, hr⟩ : Fin 1024) (⟨(j 1).val, ho⟩ : Fin 128) := by
    funext a; apply Fin.ext
    match a with
    | ⟨0, _⟩ => rfl
    | ⟨1, _⟩ => rfl
  refine (congrArg (out2 (F := Ideal) (iblk2 V c 0 t) (iblk2 V c 1 t) (iblk2 V c 2 t)) hx).trans (key.trans ?_)
  refine congrArg₂ (g2 V c) (Fin.ext ?_) (Fin.ext ?_)
  · show t.val * 1024 + (j 0).val = win2_3.index t (0 : Fin 2) * 1024 + 1 * (j 0).val
    rw [e0]; omega
  · show (j 1).val = win2_3.index t (1 : Fin 2) * 128 + 1 * (j 1).val
    rw [e1]; omega

/-- An index of the output array is in point `t`'s block iff each coordinate is in the block's range on its axis. -/
theorem mem_blk2 (t : Fin cfg2.N) (i : S8192x128.Idx) :
    i ∈ ((cfg2.win 3).blk t).view.set ↔ ∀ a : Fin 2, win2_3.index t a * S1024x128.size a ≤ (i a).val
      ∧ (i a).val < win2_3.index t a * S1024x128.size a + S1024x128.size a := by
  show i ∈ ((View.whole main_v39).slice (win2_3.rect t)).set ↔ _
  rw [View.set_slice_whole, Rect.mem_set_unit]
  exact Iff.rfl

/-- Every row `p` of the output array is in the block of point `p / 1024`: the eight blocks of 1024 rows tile it. -/
theorem covered2 (i : S8192x128.Idx) :
    ∃ t : Fin cfg2.N, (cfg2.win 3).flush t = true ∧ i ∈ ((cfg2.win 3).blk t).view.set := by
  have hi0 : (i 0).val < 8192 := (i 0).isLt
  have hi1 : (i 1).val < 128 := (i 1).isLt
  obtain ⟨t, ht⟩ : ∃ t : Fin cfg2.N, t.val = (i 0).val / 1024 :=
    ⟨⟨(i 0).val / 1024, Nat.lt_of_lt_of_eq (by omega : (i 0).val / 1024 < 8) N_2.symm⟩, rfl⟩
  obtain ⟨-, -, -, -, -, -, -, -, e0, e1⟩ := idx_facts2 t
  refine ⟨t, flush2_3 t, ?_⟩
  rw [mem_blk2]
  intro a
  match a with
  | ⟨0, _⟩ =>
    show win2_3.index t (0 : Fin 2) * 1024 ≤ (i 0).val ∧ (i 0).val < win2_3.index t (0 : Fin 2) * 1024 + 1024
    rw [e0, ht]; omega
  | ⟨1, _⟩ =>
    show win2_3.index t (1 : Fin 2) * 128 ≤ (i 1).val ∧ (i 1).val < win2_3.index t (1 : Fin 2) * 128 + 128
    rw [e1]; omega

/-- So the output array, after all eight write-backs, is the output function. -/
theorem arr2_eq (c : Dev nD) : (dat2 V c).arrAt 3 cfg2.N = G2 V c :=
  (dat2 V c).arrAt_eq_of_cover 3 (G2 V c) (fun t _ => flushed2_eq V c t) covered2

/-- Entry by entry: row `p`, column `o` of the output array after the region. -/
theorem arr2_apply (c : Dev nD) (p : Fin 8192) (o : Fin 128) :
    (dat2 (F := Ideal) V c).arrAt 3 cfg2.N (ix2 p o)
      = ((∑ q : Fin 128, r2_aY V c (ix3 0 p q) * r2_aW V c (ix3 0 q o)) + (∑ q : Fin 128, r2_aY V c (ix3 1 p q) * r2_aW V c (ix3 1 q o))
          + (∑ q : Fin 128, r2_aY V c (ix3 2 p q) * r2_aW V c (ix3 2 q o))) + r2_aB V c (ix2 0 o) := by
  rw [arr2_eq]
  show g2 V c p o = _
  unfold g2
  rfl

end Cert.KernelIdeal.H

end
-- ==== Proof.KI.R2Host.lean ====
/- REGION 2's value with what the host wrote before it: the region's three operand arrays are, by the host
   operations between the regions, the features `x`, `Y₁ = x − S₀` and `Y₂ = 2·(Y₁ − S₁) − x` stacked (`S₀`, `S₁` what the
   first two regions left), the launch's weights, and the launch's bias as one row; so each entry of the output array is
   the three [128]-term sums of a row of `x`, `Y₁`, `Y₂` against a column of the three weight matrices, plus the bias. -/
import proofs.«138934_j78142634983584_1_alg».proof.Proof.Gen.KernelIdeal.Launch
import proofs.«138934_j78142634983584_1_alg».proof.Proof.Gen.KernelIdeal.Skeleton
import proofs.«138934_j78142634983584_1_alg».proof.Proof.Gen.KernelIdeal.Points
import proofs.«138934_j78142634983584_1_alg».proof.Proof.Gen.KernelIdeal.Regions
import proofs.«138934_j78142634983584_1_alg».proof.Proof.KI.R2Value
import proofs.«138934_j78142634983584_1_alg».proof.Proof.KI.HostReads
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The host's operations at an index -/

/-- The stack of three [8192,128] matrices read at `(0, p, q)` is the first matrix at `(p, q)`: the index falls in the
    first piece of the concatenation, which is the matrix with a unit leading axis added. -/
theorem stackK_apply0 (y0 y1 y2 : FVec Ideal S8192x128 .f32) (p : Fin 8192) (q : Fin 128) :
    stackK (F := Ideal) y0 y1 y2 (ix3 (0 : Fin 3) p q) = y0 (ix2 p q) := by
  unfold stackK
  refine (concatenate_apply_piece (α := Ideal .f32) (t := S3x8192x128) (0 : Fin 3)
      [⟨S1x8192x128, broadcastInDim S1x8192x128 ![1, 2] bcast_S8192x128_S1x8192x128_1_2 y0⟩,
       ⟨S1x8192x128, broadcastInDim S1x8192x128 ![1, 2] bcast_S8192x128_S1x8192x128_1_2 y1⟩,
       ⟨S1x8192x128, broadcastInDim S1x8192x128 ![1, 2] bcast_S8192x128_S1x8192x128_1_2 y2⟩]
      concatenates_S1x8192x128_S1x8192x128_S1x8192x128_S3x8192x128_d0
      (ix3 (0 : Fin 3) p q) 0 (by show (0 : ℕ) < 3; decide) S1x8192x128 _ rfl rfl 0 rfl
    (ix3 (0 : Fin 1) p q) ?_ ?_).trans ?_
  · intro b hb
    match b with
    | ⟨0, _⟩ => exact absurd rfl hb
    | ⟨1, _⟩ => rfl
    | ⟨2, _⟩ => rfl
  · rfl
  · exact broadcastInDim_apply _ bcast_S8192x128_S1x8192x128_1_2 y0 _ (ix2 p q) (fun a => match a with
      | ⟨0, _⟩ => by show p.val = if (8192 : Nat) = 1 then 0 else p.val; rw [if_neg (by decide)]
      | ⟨1, _⟩ => by show q.val = if (128 : Nat) = 1 then 0 else q.val; rw [if_neg (by decide)])

/-- at `(1, p, q)` the second matrix at `(p, q)`; -/
theorem stackK_apply1 (y0 y1 y2 : FVec Ideal S8192x128 .f32) (p : Fin 8192) (q : Fin 128) :
    stackK (F := Ideal) y0 y1 y2 (ix3 (1 : Fin 3) p q) = y1 (ix2 p q) := by
  unfold stackK
  refine (concatenate_apply_piece (α := Ideal .f32) (t := S3x8192x128) (0 : Fin 3)
      [⟨S1x8192x128, broadcastInDim S1x8192x128 ![1, 2] bcast_S8192x128_S1x8192x128_1_2 y0⟩,
       ⟨S1x8192x128, broadcastInDim S1x8192x128 ![1, 2] bcast_S8192x128_S1x8192x128_1_2 y1⟩,
       ⟨S1x8192x128, broadcastInDim S1x8192x128 ![1, 2] bcast_S8192x128_S1x8192x128_1_2 y2⟩]
      concatenates_S1x8192x128_S1x8192x128_S1x8192x128_S3x8192x128_d0
      (ix3 (1 : Fin 3) p q) 1 (by show (1 : ℕ) < 3; decide) S1x8192x128 _ rfl rfl 1 rfl
    (ix3 (0 : Fin 1) p q) ?_ ?_).trans ?_
  · intro b hb
    match b with
    | ⟨0, _⟩ => exact absurd rfl hb
    | ⟨1, _⟩ => rfl
    | ⟨2, _⟩ => rfl
  · rfl
  · exact broadcastInDim_apply _ bcast_S8192x128_S1x8192x128_1_2 y1 _ (ix2 p q) (fun a => match a with
      | ⟨0, _⟩ => by show p.val = if (8192 : Nat) = 1 then 0 else p.val; rw [if_neg (by decide)]
      | ⟨1, _⟩ => by show q.val = if (128 : Nat) = 1 then 0 else q.val; rw [if_neg (by decide)])

/-- at `(2, p, q)` the third matrix at `(p, q)`. -/
theorem stackK_apply2 (y0 y1 y2 : FVec Ideal S8192x128 .f32) (p : Fin 8192) (q : Fin 128) :
    stackK (F := Ideal) y0 y1 y2 (ix3 (2 : Fin 3) p q) = y2 (ix2 p q) := by
  unfold stackK
  refine (concatenate_apply_piece (α := Ideal .f32) (t := S3x8192x128) (0 : Fin 3)
      [⟨S1x8192x128, broadcastInDim S1x8192x128 ![1, 2] bcast_S8192x128_S1x8192x128_1_2 y0⟩,
       ⟨S1x8192x128, broadcastInDim S1x8192x128 ![1, 2] bcast_S8192x128_S1x8192x128_1_2 y1⟩,
       ⟨S1x8192x128, broadcastInDim S1x8192x128 ![1, 2] bcast_S8192x128_S1x8192x128_1_2 y2⟩]
      concatenates_S1x8192x128_S1x8192x128_S1x8192x128_S3x8192x128_d0
      (ix3 (2 : Fin 3) p q) 2 (by show (2 : ℕ) < 3; decide) S1x8192x128 _ rfl rfl 2 rfl
    (ix3 (0 : Fin 1) p q) ?_ ?_).trans ?_
  · intro b hb
    match b with
    | ⟨0, _⟩ => exact absurd rfl hb
    | ⟨1, _⟩ => rfl
    | ⟨2, _⟩ => rfl
  · rfl
  · exact broadcastInDim_apply _ bcast_S8192x128_S1x8192x128_1_2 y2 _ (ix2 p q) (fun a => match a with
      | ⟨0, _⟩ => by show p.val = if (8192 : Nat) = 1 then 0 else p.val; rw [if_neg (by decide)]
      | ⟨1, _⟩ => by show q.val = if (128 : Nat) = 1 then 0 else q.val; rw [if_neg (by decide)])

/-- The bias vector as one row, read at `(0, o)`, is the vector at `o`. -/
theorem bias_apply (x3 : FVec Ideal S128 .f32) (o : Fin 128) :
    shapeCast S1x128 x3 shapeCasts_S128_S1x128 (ix2 (0 : Fin 1) o) = x3 (ix1 o) :=
  shapeCast_a_1a_apply x3 shapeCasts_S128_S1x128 (0 : Fin 1) o

/-- `Y₂` at an index: twice the difference of `Y₁` and the second region's result there, less the feature. -/
theorem y2K_apply (x y1 s1 : FVec Ideal S8192x128 .f32) (j : S8192x128.Idx) :
    y2K (F := Ideal) x y1 s1 j = Ideal.ofBits .f32 0x40000000#32 * (y1 j - s1 j) - x j := by
  unfold y2K
  rw [subf_apply, mulf_apply, subf_apply]
  refine congrArg (· * (y1 j - s1 j) - x j) ?_
  exact (broadcastInDim_apply _ bcast_S_S8192x128 _ j (fun a => a.elim0) (fun a => a.elim0)).trans (constant_apply _ _)

/-! ## Region 2's output array from the launch and the first two regions' results -/

variable (m : (ℓ : Loc nD τ sig) → Buf (Elt Ideal) ℓ) (outs : Outs (F := Ideal))

/-- The launch's features, weights and bias, and what the first two regions left, on their literal index types. -/
abbrev r2h_X (c : Dev nD) : S8192x128.Idx → EReal := m ((c : Thread nD τ).loc main_arg0)
abbrev r2h_W (c : Dev nD) : S3x128x128.Idx → EReal := m ((c : Thread nD τ).loc main_arg2)
abbrev r2h_B (c : Dev nD) : S128.Idx → EReal := m ((c : Thread nD τ).loc main_arg3)
abbrev r2h_S0 (c : Dev nD) : S8192x128.Idx → EReal := outs 4 main_v27 c
abbrev r2h_S1 (c : Dev nD) : S8192x128.Idx → EReal := outs 6 main_v29 c

/-- `Y₁ = x − S₀` and `Y₂ = 2·(Y₁ − S₁) − x`, entry by entry. -/
abbrev r2h_Y1 (c : Dev nD) : S8192x128.Idx → EReal := fun j => r2h_X m c j - r2h_S0 outs c j
abbrev r2h_Y2 (c : Dev nD) : S8192x128.Idx → EReal :=
  fun j => Ideal.ofBits .f32 0x40000000#32 * (r2h_Y1 m outs c j - r2h_S1 outs c j) - r2h_X m c j

/-- Row `p`, column `o` of region 2's output array after the region, entered at the contents the host operations before
    it leave: rows `p` of `x`, `Y₁`, `Y₂` against columns `o` of the three weight matrices, plus the bias at `o`. -/
theorem region2_value (c : Dev nD) (p : Fin 8192) (o : Fin 128) :
    (dat2 (F := Ideal) (fun c b => V7 m outs c b) c).arrAt 3 cfg2.N (ix2 p o)
      = ((∑ q : Fin 128, r2h_X m c (ix2 p q) * r2h_W m c (ix3 0 q o))
          + (∑ q : Fin 128, r2h_Y1 m outs c (ix2 p q) * r2h_W m c (ix3 1 q o))
          + (∑ q : Fin 128, r2h_Y2 m outs c (ix2 p q) * r2h_W m c (ix3 2 q o))) + r2h_B m c (ix1 o) := by
  have hY : r2_aY (fun c b => V7 m outs c b) c
      = stackK (F := Ideal) (r2h_X m c) (subf (r2h_X m c) (r2h_S0 outs c))
          (y2K (F := Ideal) (r2h_X m c) (subf (r2h_X m c) (r2h_S0 outs c)) (r2h_S1 outs c)) := V7_v37 m outs c
  have hW : r2_aW (fun c b => V7 m outs c b) c = r2h_W m c := V7_arg2 m outs c
  have hB : r2_aB (fun c b => V7 m outs c b) c = shapeCast S1x128 (r2h_B m c) shapeCasts_S128_S1x128 := V7_v38 m outs c
  have e0 : ∀ q : Fin 128, r2_aY (fun c b => V7 m outs c b) c (ix3 0 p q) = r2h_X m c (ix2 p q) :=
    fun q => (congrFun hY _).trans (stackK_apply0 _ _ _ p q)
  have e1 : ∀ q : Fin 128, r2_aY (fun c b => V7 m outs c b) c (ix3 1 p q) = r2h_Y1 m outs c (ix2 p q) :=
    fun q => (congrFun hY _).trans ((stackK_apply1 _ _ _ p q).trans (subf_apply _ _ _))
  have e2 : ∀ q : Fin 128, r2_aY (fun c b => V7 m outs c b) c (ix3 2 p q) = r2h_Y2 m outs c (ix2 p q) :=
    fun q => (congrFun hY _).trans ((stackK_apply2 _ _ _ p q).trans (y2K_apply _ _ _ _))
  refine (arr2_apply (fun c b => V7 m outs c b) c p o).trans ?_
  exact congrArg₂ (· + ·)
    (congrArg₂ (· + ·)
      (congrArg₂ (· + ·)
        (Finset.sum_congr rfl fun q _ => congrArg₂ (· * ·) (e0 q) (congrFun hW _))
        (Finset.sum_congr rfl fun q _ => congrArg₂ (· * ·) (e1 q) (congrFun hW _)))
      (Finset.sum_congr rfl fun q _ => congrArg₂ (· * ·) (e2 q) (congrFun hW _)))
    ((congrFun hB _).trans (bias_apply _ o))

end Cert.KernelIdeal.H

end
-- ==== Proof.KI.Spmv1.lean ====
/-
  What the second region writes: the normalised adjacency applied to `Y₁ = x − S·x`, the matrix the host formed from the
  features and the first region's result.
-/
import proofs.«138934_j78142634983584_1_alg».proof.Proof.KI.R1Value
import proofs.«138934_j78142634983584_1_alg».proof.Proof.KI.Bridge
import proofs.«138934_j78142634983584_1_alg».proof.Proof.KI.R2Host
import proofs.«138934_j78142634983584_1_alg».proof.Proof.Spec

noncomputable section

namespace Cert.KernelIdeal.H

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)

variable (m : (ℓ : Loc nD τ sig) → Buf (Elt Ideal) ℓ) (outs : Outs (F := Ideal))

/-- The second region's result array, entry by entry, is the normalised adjacency applied to the features less the
    first region's result. -/
theorem S1_spmv (q0 : Fin cfg1.W → PosShare TreeShare) (c : Dev nD) (p : Fin 8192) (q : Fin 128) :
    (dat1 (F := Ideal) (fun c b => V5 m outs c b) q0 c).arrAt 4 cfg1.N (ix2 p q)
      = Cert.Spec.spmv (adjK (F := Ideal) (m ((c : Thread nD τ).loc main_arg1))) (dinvK (F := Ideal) (m ((c : Thread nD τ).loc main_arg1)))
          (r2h_Y1 m outs c) p q := by
  rw [arr1_apply]
  have hA : r1_aA (fun c b => V5 m outs c b) c = adjK (F := Ideal) (m ((c : Thread nD τ).loc main_arg1)) := V5_v19 m outs c
  have hR : r1_aR (fun c b => V5 m outs c b) c = _ := V5_v28 m outs c
  have hD : r1_aD (fun c b => V5 m outs c b) c = dbcK (F := Ideal) (m ((c : Thread nD τ).loc main_arg1)) := V5_v26 m outs c
  rw [hA, hR, hD]
  unfold Cert.Spec.spmv
  simp only [dbcK_apply]
  rfl

end Cert.KernelIdeal.H

end
-- ==== Proof.KI.Compose.lean ====
/- REGION 2's result as the kernel's formula: given that what the first two regions left is the normalised adjacency
   applied to `x` and to `Y₁`, the third region's operands are `x`, `Y₁ = x − S·x` and `Y₂ = 2·(Y₁ − S·Y₁) − x`, and its
   output array is, entry by entry, the sum of the three products with the weight matrices plus the bias. -/
import proofs.«138934_j78142634983584_1_alg».proof.Proof.KI.R2Host
import proofs.«138934_j78142634983584_1_alg».proof.Proof.Spec
import proofs.«138934_j78142634983584_1_alg».proof.Proof.RefAdj

set_option maxRecDepth 16384

noncomputable section

namespace Cert.KernelIdeal.H

open Cert.KernelIdeal Cert.KernelIdeal.Gen
open Idealize.ShloMosaic Idealize.ShloMosaic.TcCoe
open Idealize.ShloMosaic.Pipeline (Dat)
open Idealize.ShloMosaic.ValueIdx

variable (m : (ℓ : Loc nD τ sig) → Buf (Elt Ideal) ℓ) (outs : Outs (F := Ideal))

/-- If the first region left `S·x`, the host's `Y₁` is the formula's. -/
theorem r2h_Y1_eq (c : Dev nD) (A : Cert.Spec.SA.Idx → EReal) (d : Cert.Spec.SD.Idx → EReal)
    (h0 : ∀ (p : Fin 8192) (q : Fin 128), r2h_S0 outs c (ix2 p q) = Cert.Spec.spmv A d (r2h_X m c) p q) :
    r2h_Y1 m outs c = Cert.Spec.Y1 A d (r2h_X m c) := by
  funext j
  obtain ⟨p, q, rfl⟩ : ∃ (p : Fin 8192) (q : Fin 128), j = ix2 p q := ⟨j 0, j 1, eq_ix2 j⟩
  show r2h_X m c (ix2 p q) - r2h_S0 outs c (ix2 p q) = r2h_X m c (ix2 p q) - Cert.Spec.spmv A d (r2h_X m c) p q
  rw [h0 p q]

/-- If moreover the second region left `S·Y₁`, the host's `Y₂` is the formula's: the float word of the host's factor is
    the real number two. -/
theorem r2h_Y2_eq (c : Dev nD) (A : Cert.Spec.SA.Idx → EReal) (d : Cert.Spec.SD.Idx → EReal)
    (h0 : ∀ (p : Fin 8192) (q : Fin 128), r2h_S0 outs c (ix2 p q) = Cert.Spec.spmv A d (r2h_X m c) p q)
    (h1 : ∀ (p : Fin 8192) (q : Fin 128), r2h_S1 outs c (ix2 p q) = Cert.Spec.spmv A d (r2h_Y1 m outs c) p q) :
    r2h_Y2 m outs c = Cert.Spec.Y2 A d (r2h_X m c) := by
  have e1 := r2h_Y1_eq m outs c A d h0
  funext j
  obtain ⟨p, q, rfl⟩ : ∃ (p : Fin 8192) (q : Fin 128), j = ix2 p q := ⟨j 0, j 1, eq_ix2 j⟩
  show Ideal.ofBits .f32 0x40000000#32 * (r2h_Y1 m outs c (ix2 p q) - r2h_S1 outs c (ix2 p q)) - r2h_X m c (ix2 p q)
    = Cert.Spec.two * (Cert.Spec.Y1 A d (r2h_X m c) (ix2 p q) - Cert.Spec.spmv A d (Cert.Spec.Y1 A d (r2h_X m c)) p q)
        - r2h_X m c (ix2 p q)
  rw [h1 p q, e1, Cert.RefValue.ofBits_two_f32]
  rfl

/-- Region 2's output array, entry by entry, is the kernel's formula of the adjacency matrix `A`, the scaling vector `d`
    and the launch's features, weights and bias — given that the first two regions left `S·x` and `S·Y₁`. -/
theorem kernel_value_of (c : Dev nD) (A : Cert.Spec.SA.Idx → EReal) (d : Cert.Spec.SD.Idx → EReal)
    (h0 : ∀ (p : Fin 8192) (q : Fin 128), r2h_S0 outs c (ix2 p q) = Cert.Spec.spmv A d (r2h_X m c) p q)
    (h1 : ∀ (p : Fin 8192) (q : Fin 128), r2h_S1 outs c (ix2 p q) = Cert.Spec.spmv A d (r2h_Y1 m outs c) p q)
    (p : Fin 8192) (o : Fin 128) :
    (dat2 (F := Ideal) (fun c b => V7 m outs c b) c).arrAt 3 cfg2.N (ix2 p o)
      = Cert.Spec.kernelOut A d (r2h_X m c) (r2h_W m c) (r2h_B m c) p o := by
  refine (region2_value m outs c p o).trans ?_
  rw [r2h_Y1_eq m outs c A d h0, r2h_Y2_eq m outs c A d h0 h1]
  unfold Cert.Spec.kernelOut Cert.Spec.proj
  rfl

end Cert.KernelIdeal.H

end
-- ==== Proof.RefValue.lean ====
/-
  The reference's result, index by index, is the specification's `refOut` at the adjacency matrix and the scaling vector
  that the reference itself computes from the edge list.

  Read at an index with row `p` and column `j`: the reference's identity matrix compares the row number with the column
  number and reads the bit as a float, which is one on the diagonal and zero off it; its `L` is that identity minus the
  adjacency matrix multiplied by the scaling vector along the rows and then along the columns; its `T₂` is two times
  the product `L·L`, a sum over the node set, minus the identity. Each of the three matrices is multiplied into the
  features (a sum over the node set), each product into its weight matrix (a slice of the stacked weights with the
  leading unit axis dropped; a sum over the feature columns), the three results are added to a zero array, and the bias
  is added along the rows. Term by term this is `refOut`.
-/
import proofs.«138934_j78142634983584_1_alg».proof.Proof.RefAdj
import proofs.«138934_j78142634983584_1_alg».proof.Proof.RefReadP
import proofs.«138934_j78142634983584_1_alg».proof.Proof.Spec
import Idealize.ShloMosaic.Lib.ValueIdx
import Idealize.ShloMosaic.PureOps.Ideal.Laws

noncomputable section

namespace Cert.RefValue

open Cert.ReferenceIdeal Cert.ReferenceIdeal.Gen Cert.ReferenceIdeal.ReadP Idealize.ShloMosaic Idealize.ShloMosaic.ValueIdx

/-! ## The identity matrix -/

/-- Two node numbers with the same 32-bit word are equal: both are below `2 ^ 32`. -/
theorem ofNat32_inj (p j : Fin 8192) (h : BitVec.ofNat 32 p.val = BitVec.ofNat 32 j.val) : p = j := by
  have h2 := congrArg BitVec.toNat h
  simp only [BitVec.toNat_ofNat] at h2
  have hp : p.val < 8192 := p.isLt
  have hj : j.val < 8192 := j.isLt
  exact Fin.ext (by omega)

/-- The reference's identity matrix — the row number compared with the column number, the bit read as a float — is one
    on the diagonal and zero off it. -/
theorem eye_at (p j : Fin 8192) : val_main_v36 (F := Ideal) (ix2 p j) = Cert.Spec.eye p j := by
  rw [val_main_v36_apply, val_main_v35_apply, val_main_v34_apply, val_main_v31_apply, val_main_v32_apply,
    val_main_v33_apply, val_main_c_7_apply]
  show (((IntOp.cmpi .eq (IntOp.addi (BitVec.ofNat 32 p.val) 0#32) (BitVec.ofNat 32 j.val)).toNat : ℝ) : EReal) = _
  unfold Spec.eye IntOp.cmpi IntOp.addi
  by_cases h : p = j
  · subst h
    simp
  · have hne : ¬ BitVec.ofNat 32 p.val = BitVec.ofNat 32 j.val := fun he => h (ofNat32_inj p j he)
    simp [h, hne]

/-! ## The Laplacian and the second Chebyshev matrix -/

/-- The reference's `L`: the identity minus the adjacency matrix scaled by rows, then by columns. -/
theorem lap_at (x1 : (⟨S2x262144, .i32⟩ : BufTy).Contents (Elt Ideal)) (p j : Fin 8192) :
    val_main_v37 (F := Ideal) x1 (ix2 p j) = Cert.Spec.lap (adj x1) (dinv x1) p j := by
  have e1 : idx_main_v25 (idx_main_v26 (ix2 p j)) = ix1 p :=
    funext fun a => Fin.ext (by match a with | ⟨0, _⟩ => rfl)
  have e2 : idx_main_v28 (idx_main_v29 (ix2 p j)) = ix1 j :=
    funext fun a => Fin.ext (by match a with | ⟨0, _⟩ => rfl)
  rw [val_main_v37_apply, val_main_v30_apply, val_main_v27_apply, val_main_v26_apply, val_main_v25_apply,
    val_main_v29_apply, val_main_v28_apply, e1, e2, eye_at, Ideal.subf_def, Ideal.mulf_def, Ideal.mulf_def]
  rfl

/-- The reference's `T₂ = 2·(L·L) − I`. -/
theorem cheb2_at (x1 : (⟨S2x262144, .i32⟩ : BufTy).Contents (Elt Ideal)) (p j : Fin 8192) :
    val_main_v41 (F := Ideal) x1 (ix2 p j) = Cert.Spec.cheb2 (adj x1) (dinv x1) p j := by
  have el : ∀ k : Fin 8192, lidx_main_v38 (ix2 p j) k = ix2 p k := fun k => funext fun a => Fin.ext (by match a with | ⟨0, _⟩ => rfl | ⟨1, _⟩ => rfl)
  have er : ∀ k : Fin 8192, ridx_main_v38 (ix2 p j) k = ix2 k j := fun k => funext fun a => Fin.ext (by match a with | ⟨0, _⟩ => rfl | ⟨1, _⟩ => rfl)
  rw [val_main_v41_apply, val_main_v40_apply, val_main_v39_apply, val_main_cst_8_apply, val_main_v38_apply, eye_at,
    Ideal.ofBits_def, ofBits_two_f32, Ideal.subf_def, Ideal.mulf_def]
  simp only [el, er, lap_at]
  rfl

/-! ## The three matrices applied to the features -/

/-- `T₀·x`. -/
theorem apply_eye_at (x0 : (⟨S8192x128, .f32⟩ : BufTy).Contents (Elt Ideal)) (p : Fin 8192) (q : Fin 128) :
    val_main_v43 (F := Ideal) x0 (ix2 p q) = Cert.Spec.applyTo x0 Cert.Spec.eye p q := by
  have el : ∀ k : Fin 8192, lidx_main_v43 (ix2 p q) k = ix2 p k := fun k => funext fun a => Fin.ext (by match a with | ⟨0, _⟩ => rfl | ⟨1, _⟩ => rfl)
  have er : ∀ k : Fin 8192, ridx_main_v43 (ix2 p q) k = ix2 k q := fun k => funext fun a => Fin.ext (by match a with | ⟨0, _⟩ => rfl | ⟨1, _⟩ => rfl)
  rw [val_main_v43_apply]
  simp only [el, er, eye_at]
  rfl

/-- `T₁·x`. -/
theorem apply_lap_at (x0 : (⟨S8192x128, .f32⟩ : BufTy).Contents (Elt Ideal)) (x1 : (⟨S2x262144, .i32⟩ : BufTy).Contents (Elt Ideal)) (p : Fin 8192) (q : Fin 128) :
    val_main_v48 (F := Ideal) x0 x1 (ix2 p q) = Cert.Spec.applyTo x0 (Cert.Spec.lap (adj x1) (dinv x1)) p q := by
  have el : ∀ k : Fin 8192, lidx_main_v48 (ix2 p q) k = ix2 p k := fun k => funext fun a => Fin.ext (by match a with | ⟨0, _⟩ => rfl | ⟨1, _⟩ => rfl)
  have er : ∀ k : Fin 8192, ridx_main_v48 (ix2 p q) k = ix2 k q := fun k => funext fun a => Fin.ext (by match a with | ⟨0, _⟩ => rfl | ⟨1, _⟩ => rfl)
  rw [val_main_v48_apply]
  simp only [el, er, lap_at]
  rfl

/-- `T₂·x`. -/
theorem apply_cheb2_at (x0 : (⟨S8192x128, .f32⟩ : BufTy).Contents (Elt Ideal)) (x1 : (⟨S2x262144, .i32⟩ : BufTy).Contents (Elt Ideal)) (p : Fin 8192) (q : Fin 128) :
    val_main_v53 (F := Ideal) x0 x1 (ix2 p q) = Cert.Spec.applyTo x0 (Cert.Spec.cheb2 (adj x1) (dinv x1)) p q := by
  have el : ∀ k : Fin 8192, lidx_main_v53 (ix2 p q) k = ix2 p k := fun k => funext fun a => Fin.ext (by match a with | ⟨0, _⟩ => rfl | ⟨1, _⟩ => rfl)
  have er : ∀ k : Fin 8192, ridx_main_v53 (ix2 p q) k = ix2 k q := fun k => funext fun a => Fin.ext (by match a with | ⟨0, _⟩ => rfl | ⟨1, _⟩ => rfl)
  rw [val_main_v53_apply]
  simp only [el, er, cheb2_at]
  rfl

/-! ## The three weight matrices: a slice of the stacked weights, its leading unit axis dropped -/

/-- The first weight matrix. -/
theorem w0_at (x2 : (⟨S3x128x128, .f32⟩ : BufTy).Contents (Elt Ideal)) (k o : Fin 128) :
    val_main_v45 (F := Ideal) x2 (ix2 k o) = x2 (ix3 (0 : Fin 3) k o) := by
  have hk : k.val < 128 := k.isLt
  have ho : o.val < 128 := o.isLt
  rw [val_main_v45_apply, val_main_v44_apply]
  refine congrArg x2 (funext fun a => Fin.ext ?_)
  match a with
  | ⟨0, _⟩ => rfl
  | ⟨1, _⟩ => show (k.val * 128 + o.val) / 128 % 128 = k.val; omega
  | ⟨2, _⟩ => show (k.val * 128 + o.val) % 128 = o.val; omega

/-- The second weight matrix. -/
theorem w1_at (x2 : (⟨S3x128x128, .f32⟩ : BufTy).Contents (Elt Ideal)) (k o : Fin 128) :
    val_main_v50 (F := Ideal) x2 (ix2 k o) = x2 (ix3 (1 : Fin 3) k o) := by
  have hk : k.val < 128 := k.isLt
  have ho : o.val < 128 := o.isLt
  rw [val_main_v50_apply, val_main_v49_apply]
  refine congrArg x2 (funext fun a => Fin.ext ?_)
  match a with
  | ⟨0, _⟩ => rfl
  | ⟨1, _⟩ => show (k.val * 128 + o.val) / 128 % 128 = k.val; omega
  | ⟨2, _⟩ => show (k.val * 128 + o.val) % 128 = o.val; omega

/-- The third weight matrix. -/
theorem w2_at (x2 : (⟨S3x128x128, .f32⟩ : BufTy).Contents (Elt Ideal)) (k o : Fin 128) :
    val_main_v55 (F := Ideal) x2 (ix2 k o) = x2 (ix3 (2 : Fin 3) k o) := by
  have hk : k.val < 128 := k.isLt
  have ho : o.val < 128 := o.isLt
  rw [val_main_v55_apply, val_main_v54_apply]
  refine congrArg x2 (funext fun a => Fin.ext ?_)
  match a with
  | ⟨0, _⟩ => rfl
  | ⟨1, _⟩ => show (k.val * 128 + o.val) / 128 % 128 = k.val; omega
  | ⟨2, _⟩ => show (k.val * 128 + o.val) % 128 = o.val; omega

/-! ## The three products with the weights -/

/-- `(T₀·x)·W₀`. -/
theorem proj0_at (x0 : (⟨S8192x128, .f32⟩ : BufTy).Contents (Elt Ideal)) (x2 : (⟨S3x128x128, .f32⟩ : BufTy).Contents (Elt Ideal)) (p : Fin 8192) (o : Fin 128) :
    val_main_v46 (F := Ideal) x0 x2 (ix2 p o) = Cert.Spec.projT x0 x2 Cert.Spec.eye 0 p o := by
  have el : ∀ k : Fin 128, lidx_main_v46 (ix2 p o) k = ix2 p k := fun k => funext fun a => Fin.ext (by match a with | ⟨0, _⟩ => rfl | ⟨1, _⟩ => rfl)
  have er : ∀ k : Fin 128, ridx_main_v46 (ix2 p o) k = ix2 k o := fun k => funext fun a => Fin.ext (by match a with | ⟨0, _⟩ => rfl | ⟨1, _⟩ => rfl)
  rw [val_main_v46_apply]
  simp only [el, er, apply_eye_at, w0_at]
  rfl

/-- `(T₁·x)·W₁`. -/
theorem proj1_at (x0 : (⟨S8192x128, .f32⟩ : BufTy).Contents (Elt Ideal)) (x1 : (⟨S2x262144, .i32⟩ : BufTy).Contents (Elt Ideal)) (x2 : (⟨S3x128x128, .f32⟩ : BufTy).Contents (Elt Ideal)) (p : Fin 8192) (o : Fin 128) :
    val_main_v51 (F := Ideal) x0 x1 x2 (ix2 p o) = Cert.Spec.projT x0 x2 (Cert.Spec.lap (adj x1) (dinv x1)) 1 p o := by
  have el : ∀ k : Fin 128, lidx_main_v51 (ix2 p o) k = ix2 p k := fun k => funext fun a => Fin.ext (by match a with | ⟨0, _⟩ => rfl | ⟨1, _⟩ => rfl)
  have er : ∀ k : Fin 128, ridx_main_v51 (ix2 p o) k = ix2 k o := fun k => funext fun a => Fin.ext (by match a with | ⟨0, _⟩ => rfl | ⟨1, _⟩ => rfl)
  rw [val_main_v51_apply]
  simp only [el, er, apply_lap_at, w1_at]
  rfl

/-- `(T₂·x)·W₂`. -/
theorem proj2_at (x0 : (⟨S8192x128, .f32⟩ : BufTy).Contents (Elt Ideal)) (x1 : (⟨S2x262144, .i32⟩ : BufTy).Contents (Elt Ideal)) (x2 : (⟨S3x128x128, .f32⟩ : BufTy).Contents (Elt Ideal)) (p : Fin 8192) (o : Fin 128) :
    val_main_v56 (F := Ideal) x0 x1 x2 (ix2 p o) = Cert.Spec.projT x0 x2 (Cert.Spec.cheb2 (adj x1) (dinv x1)) 2 p o := by
  have el : ∀ k : Fin 128, lidx_main_v56 (ix2 p o) k = ix2 p k := fun k => funext fun a => Fin.ext (by match a with | ⟨0, _⟩ => rfl | ⟨1, _⟩ => rfl)
  have er : ∀ k : Fin 128, ridx_main_v56 (ix2 p o) k = ix2 k o := fun k => funext fun a => Fin.ext (by match a with | ⟨0, _⟩ => rfl | ⟨1, _⟩ => rfl)
  rw [val_main_v56_apply]
  simp only [el, er, apply_cheb2_at, w2_at]
  rfl

/-! ## The result -/

/-- The reference's result, index by index, is the specification's `refOut` of the adjacency matrix and the scaling
    vector it computes: zero plus the three products, plus the bias along the rows. -/
theorem ref_value (x0 : (⟨S8192x128, .f32⟩ : BufTy).Contents (Elt Ideal)) (x1 : (⟨S2x262144, .i32⟩ : BufTy).Contents (Elt Ideal)) (x2 : (⟨S3x128x128, .f32⟩ : BufTy).Contents (Elt Ideal)) (x3 : (⟨S128, .f32⟩ : BufTy).Contents (Elt Ideal)) (j : S8192x128.Idx) :
    val_main_v60 (F := Ideal) x0 x1 x2 x3 j = Cert.Spec.refOut (adj x1) (dinv x1) x0 x2 x3 (j 0) (j 1) := by
  obtain ⟨p, o, rfl⟩ : ∃ (p : Fin 8192) (o : Fin 128), j = ix2 p o := ⟨j 0, j 1, eq_ix2 j⟩
  show _ = Cert.Spec.refOut (adj x1) (dinv x1) x0 x2 x3 p o
  have eb : idx_main_v58 (idx_main_v59 (ix2 p o)) = ix1 o :=
    funext fun a => Fin.ext (by match a with | ⟨0, _⟩ => rfl)
  rw [val_main_v60_apply, val_main_v57_apply, val_main_v52_apply, val_main_v47_apply, val_main_v42_apply,
    val_main_cst_9_apply, val_main_v59_apply, val_main_v58_apply, eb, proj0_at, proj1_at, proj2_at,
    Ideal.ofBits_def, Ideal.ofBits_zero_f32]
  simp only [Ideal.addf_def, zero_add]
  rfl

end Cert.RefValue

end
-- ==== Proof.PreFinite.lean ====
/-
  The features are an array of real numbers whenever the precondition's predicate holds.

  The predicate is the conjunction of three tests "every entry has absolute value below plus infinity", the first of
  them on the features. Its one output bit being one, the first test's bit is one, so at every index the comparison
  `|x| < +∞` holds; an extended real whose absolute value `max x (−x)` is below the top is neither the top nor the
  bottom, hence a real number.
-/
import proofs.«138934_j78142634983584_1_alg».proof.Pre_finite_inputs
import proofs.«138934_j78142634983584_1_alg».proof.Proof.Spec
import Idealize.ShloMosaic.Lib.ReduceAll
import Idealize.ShloMosaic.Lib.ValueIdx
import Idealize.ShloMosaic.Lib.Pipeline.Value
import Idealize.ShloMosaic.PureOps.Ideal.Laws

noncomputable section

namespace Cert.PreFinite

open Cert.Pre_finite_inputs Idealize.ShloMosaic Idealize.ShloMosaic.ValueIdx

/-- The scalar shape has exactly one index. -/
instance : Subsingleton S_.Idx := ⟨fun a b => funext fun d => d.elim0⟩

/-- The float word of plus infinity is the top of the extended reals. -/
theorem ofBits_inf_f32 : Ideal.ofBits .f32 0x7F800000#32 = ⊤ := by
  simp [Ideal.ofBits, Ideal.ieee]

/-- An extended real whose absolute value `max a (−a)` is below the top is a real number: the absolute value of the
    top and of the bottom is the top. -/
theorem real_of_abs_lt_top (a : EReal) (h : max a (-a) < ⊤) : ∃ r : ℝ, a = (r : EReal) := by
  induction a using EReal.rec with
  | bot => simp at h
  | coe r => exact ⟨r, rfl⟩
  | top => simp at h

/-- If the precondition's predicate holds, every entry of the features is a real number. -/
theorem x_finite [Facts] (x0 : FVec Ideal S8192x128 .f32) (x1 : IVec S2x262144 32) (x2 : FVec Ideal S3x128x128 .f32)
    (x3 : FVec Ideal S128 .f32) (h : fn (F := Ideal) x0 x1 x2 x3 = fun _ => 1#1) :
    Cert.Spec.Finite (s := Cert.Spec.SX) x0 := by
  intro i
  have h0 := congrFun h ix0
  dsimp only [fn] at h0
  have h1 := (IntOp.andi_eq_one.1 h0).1
  have h2 := (IntOp.andi_eq_one.1 h1).1
  have h3 := Host.reduce_andi_all _ _ _ _ _ h2 i
  have hb : broadcastInDim S8192x128 ![] Facts.bcast_S_S8192x128 (constant (F := Ideal) S_ .f32 0x7F800000#32) i = ⊤ := by
    rw [broadcastInDim_apply _ _ _ i (fun a => a.elim0) (fun a => a.elim0), constant_apply, ofBits_inf_f32]
  have h4 : Ideal.cmp .olt (max (x0 i) (-(x0 i))) ⊤ = 1#1 := by
    rw [← hb]
    exact h3
  have h5 : max (x0 i) (-(x0 i)) < ⊤ := by
    by_contra hn
    unfold Ideal.cmp at h4
    simp [hn] at h4
  exact real_of_abs_lt_top _ h5

end Cert.PreFinite

end
-- ==== Proof.LibChebGraph.lean ====
/-
  Chebyshev graph filters on a finite graph, entry by entry.

  For an adjacency matrix `A` on a finite node set `n`, a scaling vector `d` and a feature matrix `x` with columns `c`,
  put `S = diag d · A · diag d` and `L = I − S`. The first three Chebyshev polynomials of `L` are `T₀ = I`, `T₁ = L`,
  `T₂ = 2·(L·L) − I`. This file shows that applying these MATRICES to `x` gives the same entries as the recurrence on
  VECTORS, `Y₀ = x`, `Y₁ = Y₀ − S·Y₀`, `Y₂ = 2·(Y₁ − S·Y₁) − Y₀`: first over the real numbers, where it is associativity
  of the matrix product and distributivity, then for arrays of extended reals every entry of which is a real number.
-/
import Mathlib.Data.EReal.Operations
import Mathlib.Algebra.BigOperators.Ring.Finset
import Mathlib.Algebra.BigOperators.Group.Finset.Sigma
import Mathlib.Tactic.Ring

noncomputable section

open scoped BigOperators

namespace ChebGraph

variable {n c : Type*} [Fintype n] [DecidableEq n]

/-! ## Over the real numbers -/

/-- The identity matrix. -/
def eyeR (i j : n) : ℝ := if i = j then 1 else 0

/-- `L = I − diag d · A · diag d`, entry `(i, j)`. -/
def lapR (A : n → n → ℝ) (d : n → ℝ) (i j : n) : ℝ := eyeR i j - (d i * A i j) * d j

/-- `S·r` at row `i`, column `q`, the scalings applied inside and outside the sum: `(∑ₖ A i k · (r k q · d k)) · d i`. -/
def spmvR (A : n → n → ℝ) (d : n → ℝ) (r : n → c → ℝ) (i : n) (q : c) : ℝ :=
  (∑ k, A i k * (r k q * d k)) * d i

/-- `Y₁ = x − S·x`. -/
def y1R (A : n → n → ℝ) (d : n → ℝ) (x : n → c → ℝ) (i : n) (q : c) : ℝ := x i q - spmvR A d x i q

/-- `Y₂ = 2·(Y₁ − S·Y₁) − x`. -/
def y2R (A : n → n → ℝ) (d : n → ℝ) (x : n → c → ℝ) (i : n) (q : c) : ℝ :=
  2 * (y1R A d x i q - spmvR A d (y1R A d x) i q) - x i q

/-- `T₂ = 2·(L·L) − I`, entry `(i, j)`. -/
def cheb2R (A : n → n → ℝ) (d : n → ℝ) (i j : n) : ℝ := 2 * (∑ k, lapR A d i k * lapR A d k j) - eyeR i j

/-- The identity matrix times `x` is `x`: only the diagonal term of the sum survives. -/
theorem eyeR_apply (x : n → c → ℝ) (i : n) (q : c) : ∑ j, eyeR i j * x j q = x i q := by
  have h : ∀ j, eyeR i j * x j q = if i = j then x j q else 0 := by
    intro j
    unfold eyeR
    split <;> simp
  simp only [h, Finset.sum_ite_eq, Finset.mem_univ, if_true]

/-- `L·x = x − S·x`: the sum splits over the difference `I − S`, and `d i` comes out of the sum. -/
theorem lapR_apply (A : n → n → ℝ) (d : n → ℝ) (x : n → c → ℝ) (i : n) (q : c) :
    ∑ j, lapR A d i j * x j q = y1R A d x i q := by
  unfold lapR y1R spmvR
  simp only [sub_mul, Finset.sum_sub_distrib, eyeR_apply]
  congr 1
  rw [Finset.sum_mul]
  refine Finset.sum_congr rfl fun k _ => ?_
  ring

/-- `(2·(L·L) − I)·x = 2·(Y₁ − S·Y₁) − x`: the double sum is reordered so that `L·x = Y₁` appears inside
    (associativity of the matrix product), and `L·Y₁ = Y₁ − S·Y₁` is the previous lemma at `Y₁`. -/
theorem cheb2R_apply (A : n → n → ℝ) (d : n → ℝ) (x : n → c → ℝ) (i : n) (q : c) :
    ∑ j, cheb2R A d i j * x j q = y2R A d x i q := by
  have hassoc : ∑ j, (∑ k, lapR A d i k * lapR A d k j) * x j q = ∑ k, lapR A d i k * y1R A d x k q := by
    simp only [Finset.sum_mul]
    rw [Finset.sum_comm]
    refine Finset.sum_congr rfl fun k _ => ?_
    rw [← lapR_apply, Finset.mul_sum]
    refine Finset.sum_congr rfl fun j _ => ?_
    ring
  unfold cheb2R y2R
  simp only [sub_mul, Finset.sum_sub_distrib, eyeR_apply, mul_assoc, ← Finset.mul_sum]
  rw [hassoc, lapR_apply A d (y1R A d x) i q]
  rfl

/-! ## The lift to the extended reals

  On the extended reals addition and multiplication are not distributive in general (`⊤ − ⊤`), so the identities are
  carried over from the real numbers: sums, products and differences of real numbers, read in the extended reals, are
  the extended reals' sums, products and differences. -/

/-- The coercion from the reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity matrix on the extended reals. -/
def eyeE (i j : n) : EReal := if i = j then 1 else 0

/-- `L = I − diag d · A · diag d`, entry `(i, j)`, on the extended reals. -/
def lapE (A : n → n → EReal) (d : n → EReal) (i j : n) : EReal := eyeE i j - (d i * A i j) * d j

/-- `S·r` at row `i`, column `q`, on the extended reals: `(∑ₖ A i k · (r k q · d k)) · d i`. -/
def spmvE (A : n → n → EReal) (d : n → EReal) (r : n → c → EReal) (i : n) (q : c) : EReal :=
  (∑ k, A i k * (r k q * d k)) * d i

/-- `Y₁ = x − S·x` on the extended reals. -/
def y1E (A : n → n → EReal) (d : n → EReal) (x : n → c → EReal) (i : n) (q : c) : EReal :=
  x i q - spmvE A d x i q

/-- `Y₂ = 2·(Y₁ − S·Y₁) − x` on the extended reals; the two is the real number two. -/
def y2E (A : n → n → EReal) (d : n → EReal) (x : n → c → EReal) (i : n) (q : c) : EReal :=
  ((2 : ℝ) : EReal) * (y1E A d x i q - spmvE A d (y1E A d x) i q) - x i q

/-- `T₂ = 2·(L·L) − I`, entry `(i, j)`, on the extended reals; the two is the real number two. -/
def cheb2E (A : n → n → EReal) (d : n → EReal) (i j : n) : EReal :=
  ((2 : ℝ) : EReal) * (∑ k, lapE A d i k * lapE A d k j) - eyeE i j

/-- The extended reals' identity matrix is the reals' one. -/
theorem eyeE_coe (i j : n) : (eyeE i j : EReal) = ((eyeR i j : ℝ) : EReal) := by
  unfold eyeE eyeR
  split <;> simp

/-- `L` of real arrays, read in the extended reals. -/
theorem lapE_coe (A : n → n → ℝ) (d : n → ℝ) (i j : n) :
    lapE (fun i j => (A i j : EReal)) (fun i => (d i : EReal)) i j = ((lapR A d i j : ℝ) : EReal) := by
  unfold lapE lapR
  rw [eyeE_coe, EReal.coe_sub, EReal.coe_mul, EReal.coe_mul]

/-- `S·r` of real arrays, read in the extended reals. -/
theorem spmvE_coe (A : n → n → ℝ) (d : n → ℝ) (r : n → c → ℝ) (i : n) (q : c) :
    spmvE (fun i j => (A i j : EReal)) (fun i => (d i : EReal)) (fun k q => (r k q : EReal)) i q
      = ((spmvR A d r i q : ℝ) : EReal) := by
  unfold spmvE spmvR
  rw [EReal.coe_mul, coe_finset_sum]
  simp only [EReal.coe_mul]

/-- `Y₁` of real arrays, read in the extended reals. -/
theorem y1E_coe (A : n → n → ℝ) (d : n → ℝ) (x : n → c → ℝ) (i : n) (q : c) :
    y1E (fun i j => (A i j : EReal)) (fun i => (d i : EReal)) (fun k q => (x k q : EReal)) i q
      = ((y1R A d x i q : ℝ) : EReal) := by
  unfold y1E y1R
  rw [spmvE_coe, EReal.coe_sub]

/-- `Y₂` of real arrays, read in the extended reals. -/
theorem y2E_coe (A : n → n → ℝ) (d : n → ℝ) (x : n → c → ℝ) (i : n) (q : c) :
    y2E (fun i j => (A i j : EReal)) (fun i => (d i : EReal)) (fun k q => (x k q : EReal)) i q
      = ((y2R A d x i q : ℝ) : EReal) := by
  have h1 : y1E (fun i j => (A i j : EReal)) (fun i => (d i : EReal)) (fun k q => (x k q : EReal))
      = fun k q => ((y1R A d x k q : ℝ) : EReal) := by
    funext k q
    exact y1E_coe A d x k q
  unfold y2E y2R
  rw [h1, spmvE_coe, EReal.coe_sub, EReal.coe_mul, EReal.coe_sub]

/-- `T₂` of real arrays, read in the extended reals. -/
theorem cheb2E_coe (A : n → n → ℝ) (d : n → ℝ) (i j : n) :
    cheb2E (fun i j => (A i j : EReal)) (fun i => (d i : EReal)) i j = ((cheb2R A d i j : ℝ) : EReal) := by
  unfold cheb2E cheb2R
  rw [eyeE_coe, EReal.coe_sub, EReal.coe_mul, coe_finset_sum]
  simp only [lapE_coe, EReal.coe_mul]

/-- An array of extended reals every entry of which is a real number is the coercion of a real array. -/
theorem exists_real₂ {α β : Type*} (v : α → β → EReal) (hv : ∀ a b, ∃ r : ℝ, v a b = (r : EReal)) :
    ∃ w : α → β → ℝ, v = fun a b => (w a b : EReal) := by
  choose w hw using hv
  exact ⟨w, funext fun a => funext fun b => hw a b⟩

/-- A vector of extended reals every entry of which is a real number is the coercion of a real vector. -/
theorem exists_real₁ {α : Type*} (v : α → EReal) (hv : ∀ a, ∃ r : ℝ, v a = (r : EReal)) :
    ∃ w : α → ℝ, v = fun a => (w a : EReal) := by
  choose w hw using hv
  exact ⟨w, funext fun a => hw a⟩

/-- The identity matrix times `x` is `x` on the extended reals, whatever the entries of `x`: `0 · ⊤ = 0` there. -/
theorem eyeE_apply (x : n → c → EReal) (i : n) (q : c) : ∑ j, eyeE i j * x j q = x i q := by
  have h : ∀ j, eyeE i j * x j q = if i = j then x j q else 0 := by
    intro j
    unfold eyeE
    split <;> simp
  simp only [h, Finset.sum_ite_eq, Finset.mem_univ, if_true]

/-- `L·x = x − S·x` on the extended reals, for arrays whose entries are all real numbers. -/
theorem lapE_apply (A : n → n → EReal) (d : n → EReal) (x : n → c → EReal)
    (hA : ∀ i j, ∃ r : ℝ, A i j = (r : EReal)) (hd : ∀ i, ∃ r : ℝ, d i = (r : EReal))
    (hx : ∀ i q, ∃ r : ℝ, x i q = (r : EReal)) (i : n) (q : c) :
    ∑ j, lapE A d i j * x j q = y1E A d x i q := by
  obtain ⟨Ar, rfl⟩ := exists_real₂ A hA
  obtain ⟨dr, rfl⟩ := exists_real₁ d hd
  obtain ⟨xr, rfl⟩ := exists_real₂ x hx
  rw [y1E_coe, ← lapR_apply, coe_finset_sum]
  refine Finset.sum_congr rfl fun j _ => ?_
  rw [lapE_coe, EReal.coe_mul]

/-- `(2·(L·L) − I)·x = 2·(Y₁ − S·Y₁) − x` on the extended reals, for arrays whose entries are all real numbers. -/
theorem cheb2E_apply (A : n → n → EReal) (d : n → EReal) (x : n → c → EReal)
    (hA : ∀ i j, ∃ r : ℝ, A i j = (r : EReal)) (hd : ∀ i, ∃ r : ℝ, d i = (r : EReal))
    (hx : ∀ i q, ∃ r : ℝ, x i q = (r : EReal)) (i : n) (q : c) :
    ∑ j, cheb2E A d i j * x j q = y2E A d x i q := by
  obtain ⟨Ar, rfl⟩ := exists_real₂ A hA
  obtain ⟨dr, rfl⟩ := exists_real₁ d hd
  obtain ⟨xr, rfl⟩ := exists_real₂ x hx
  rw [y2E_coe, ← cheb2R_apply, coe_finset_sum]
  refine Finset.sum_congr rfl fun j _ => ?_
  rw [cheb2E_coe, EReal.coe_mul]

end ChebGraph

end
-- ==== Proof.SpecAlgebra.lean ====
/-
  The kernel's result and the reference's are equal, entry by entry, when the adjacency matrix, the scaling vector and the
  features are arrays of real numbers.

  The reference multiplies the MATRICES `T₀ = I`, `T₁ = L`, `T₂ = 2·(L·L) − I` into the features; the kernel runs the
  recurrence `Y₀ = x`, `Y₁ = Y₀ − S·Y₀`, `Y₂ = 2·(Y₁ − S·Y₁) − Y₀` on VECTORS. Read by coordinates, both are the general
  objects of the Chebyshev-filter lemmas on the node set `Fin 8192` with feature columns `Fin 128`, so `Tᵢ·x = Yᵢ` entry
  by entry; the products with the weights and the bias are then the same sums of the same terms, and need no further
  algebra (in particular nothing about the weights or the bias).
-/
import proofs.«138934_j78142634983584_1_alg».proof.Proof.Spec
import proofs.«138934_j78142634983584_1_alg».proof.Proof.LibChebGraph

noncomputable section

namespace Cert.Spec

open Idealize.ShloMosaic Idealize.ShloMosaic.ValueIdx

/-! ## The arrays by coordinates -/

/-- The adjacency matrix as a function of its row and its column. -/
def Am (A : SA.Idx → EReal) : Fin 8192 → Fin 8192 → EReal := fun p k => A (ix2 p k)

/-- The scaling vector as a function of its one coordinate. -/
def dv (d : SD.Idx → EReal) : Fin 8192 → EReal := fun k => d (ix1 k)

/-- A feature matrix as a function of its row and its column. -/
def mat (r : SX.Idx → EReal) : Fin 8192 → Fin 128 → EReal := fun k q => r (ix2 k q)

/-- A matrix of real numbers, by coordinates, has real entries. -/
theorem Am_real (A : SA.Idx → EReal) (hA : Finite A) : ∀ i j, ∃ r : ℝ, Am A i j = (r : EReal) :=
  fun i j => hA (ix2 i j)

/-- A vector of real numbers, by its coordinate, has real entries. -/
theorem dv_real (d : SD.Idx → EReal) (hd : Finite d) : ∀ i, ∃ r : ℝ, dv d i = (r : EReal) :=
  fun i => hd (ix1 i)

/-- A feature matrix of real numbers, by coordinates, has real entries. -/
theorem mat_real (x : SX.Idx → EReal) (hx : Finite x) : ∀ i q, ∃ r : ℝ, mat x i q = (r : EReal) :=
  fun i q => hx (ix2 i q)

/-! ## The kernel's vectors are the general recurrence -/

/-- `S·r` is the general one at the coordinate views. -/
theorem spmv_eq (A : SA.Idx → EReal) (d : SD.Idx → EReal) (r : SX.Idx → EReal) (p : Fin 8192) (q : Fin 128) :
    spmv A d r p q = ChebGraph.spmvE (Am A) (dv d) (mat r) p q := rfl

/-- `Y₁` at the index with coordinates `p`, `q` is the general one. -/
theorem Y1_eq (A : SA.Idx → EReal) (d : SD.Idx → EReal) (x : SX.Idx → EReal) (p : Fin 8192) (q : Fin 128) :
    Y1 A d x (ix2 p q) = ChebGraph.y1E (Am A) (dv d) (mat x) p q := rfl

/-- `Y₁` as a matrix by coordinates is the general one. -/
theorem mat_Y1 (A : SA.Idx → EReal) (d : SD.Idx → EReal) (x : SX.Idx → EReal) :
    mat (Y1 A d x) = ChebGraph.y1E (Am A) (dv d) (mat x) :=
  funext fun k => funext fun q => Y1_eq A d x k q

/-- `Y₂` at the index with coordinates `p`, `q` is the general one. -/
theorem Y2_eq (A : SA.Idx → EReal) (d : SD.Idx → EReal) (x : SX.Idx → EReal) (p : Fin 8192) (q : Fin 128) :
    Y2 A d x (ix2 p q) = ChebGraph.y2E (Am A) (dv d) (mat x) p q := by
  show two * (Y1 A d x (ix2 p q) - spmv A d (Y1 A d x) p q) - x (ix2 p q) = _
  rw [spmv_eq, mat_Y1, Y1_eq]
  rfl

/-! ## The reference's matrices are the general Chebyshev matrices -/

/-- The identity matrix is the general one. -/
theorem eye_eq : eye = ChebGraph.eyeE := rfl

/-- `L` is the general one at the coordinate views. -/
theorem lap_eq (A : SA.Idx → EReal) (d : SD.Idx → EReal) : lap A d = ChebGraph.lapE (Am A) (dv d) := rfl

/-- `T₂` is the general one at the coordinate views. -/
theorem cheb2_eq (A : SA.Idx → EReal) (d : SD.Idx → EReal) : cheb2 A d = ChebGraph.cheb2E (Am A) (dv d) := rfl

/-- A matrix times the features is the sum over the node set of the matrix's row against the features' column. -/
theorem applyTo_eq (x : SX.Idx → EReal) (T : Fin 8192 → Fin 8192 → EReal) (p : Fin 8192) (q : Fin 128) :
    applyTo x T p q = ∑ j : Fin 8192, T p j * mat x j q := rfl

/-! ## `Tᵢ·x = Yᵢ`, entry by entry -/

/-- `T₀·x = x`. -/
theorem applyTo_eye (x : SX.Idx → EReal) (p : Fin 8192) (q : Fin 128) : applyTo x eye p q = x (ix2 p q) := by
  rw [applyTo_eq, eye_eq]
  exact ChebGraph.eyeE_apply (mat x) p q

/-- `T₁·x = Y₁`, for arrays of real numbers. -/
theorem applyTo_lap (A : SA.Idx → EReal) (d : SD.Idx → EReal) (x : SX.Idx → EReal)
    (hA : Finite A) (hd : Finite d) (hx : Finite x) (p : Fin 8192) (q : Fin 128) :
    applyTo x (lap A d) p q = Y1 A d x (ix2 p q) := by
  rw [applyTo_eq, lap_eq, Y1_eq]
  exact ChebGraph.lapE_apply (Am A) (dv d) (mat x) (Am_real A hA) (dv_real d hd) (mat_real x hx) p q

/-- `T₂·x = Y₂`, for arrays of real numbers. -/
theorem applyTo_cheb2 (A : SA.Idx → EReal) (d : SD.Idx → EReal) (x : SX.Idx → EReal)
    (hA : Finite A) (hd : Finite d) (hx : Finite x) (p : Fin 8192) (q : Fin 128) :
    applyTo x (cheb2 A d) p q = Y2 A d x (ix2 p q) := by
  rw [applyTo_eq, cheb2_eq, Y2_eq]
  exact ChebGraph.cheb2E_apply (Am A) (dv d) (mat x) (Am_real A hA) (dv_real d hd) (mat_real x hx) p q

/-! ## The two results -/

/-- The kernel's result is the reference's at every row and column, when the adjacency matrix, the scaling vector and the
    features have real entries: each `(Tᵢ·x)` entry under the reference's outer sums is the kernel's `Yᵢ` entry. -/
theorem kernelOut_eq_refOut (A : SA.Idx → EReal) (d : SD.Idx → EReal) (x : SX.Idx → EReal) (W : SW.Idx → EReal)
    (b : SB.Idx → EReal) (hA : Finite A) (hd : Finite d) (hx : Finite x) (p : Fin 8192) (o : Fin 128) :
    kernelOut A d x W b p o = refOut A d x W b p o := by
  unfold kernelOut refOut proj projT
  simp only [applyTo_eye, applyTo_lap A d x hA hd hx, applyTo_cheb2 A d x hA hd hx]

end Cert.Spec

end
-- ==== Proof.KI.Final.lean ====
/-
  The idealised kernel's result is the specification's kernel formula, entry by entry, over the adjacency matrix and the
  inverse-root degrees that the host computes from the edge list; hence, with the reference's result being the
  specification's reference formula over the same two arrays and the two formulas agreeing on finite inputs, the two
  programs end with equal results.
-/
import proofs.«138934_j78142634983584_1_alg».proof.Defs
import proofs.«138934_j78142634983584_1_alg».proof.Proof.Gen.KernelIdeal
import proofs.«138934_j78142634983584_1_alg».proof.Proof.Gen.ReferenceIdeal
import proofs.«138934_j78142634983584_1_alg».proof.Proof.Gen.Pre_finite_inputs
import proofs.«138934_j78142634983584_1_alg».proof.Proof.KI.Data
import proofs.«138934_j78142634983584_1_alg».proof.Proof.KI.Spmv0
import proofs.«138934_j78142634983584_1_alg».proof.Proof.KI.Spmv1
import proofs.«138934_j78142634983584_1_alg».proof.Proof.KI.Compose
import proofs.«138934_j78142634983584_1_alg».proof.Proof.KI.Bridge
import proofs.«138934_j78142634983584_1_alg».proof.Proof.RefValue
import proofs.«138934_j78142634983584_1_alg».proof.Proof.PreFinite
import proofs.«138934_j78142634983584_1_alg».proof.Proof.SpecAlgebra

noncomputable section

namespace Cert.KernelIdeal.H

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)

variable (m : (ℓ : Loc nD τ sig) → Buf (Elt Ideal) ℓ)

/-- The third region is entered with the buffers as the host left them after the second. -/
theorem Vent2_eq : Vent2 (regionData (F := Ideal)) m = fun (c : Dev nD) (b : Ref sig .tc) => V7 m (outs regionData m) c b := by
  funext c b
  exact (congrFun (V7_eq regionData m c) _).symm

/-- The second region is entered with the buffers as the host left them after the first. -/
theorem Vent1_eq : Vent1 (regionData (F := Ideal)) m = fun (c : Dev nD) (b : Ref sig .tc) => V5 m (outs regionData m) c b := by
  funext c b
  exact (congrFun (V5_eq regionData m c) _).symm

/-- The result buffer, entry by entry, holds the kernel formula of the specification. -/
theorem kernel_value (c : Dev nD) (p : Fin 8192) (o : Fin 128) :
    X2 (regionData (F := Ideal)) m c (ix2 p o)
      = Cert.Spec.kernelOut (adjK (F := Ideal) (m ((c : Thread nD τ).loc main_arg1))) (dinvK (F := Ideal) (m ((c : Thread nD τ).loc main_arg1)))
          (r2h_X m c) (r2h_W m c) (r2h_B m c) p o := by
  rw [X2_eq]
  show (dat2 (F := Ideal) (Vent2 regionData m) c).arrAt 3 cfg2.N (ix2 p o) = _
  rw [Vent2_eq]
  refine kernel_value_of m (outs regionData m) c _ _ (fun p q => ?_) (fun p q => ?_) p o
  · show (outs regionData m 4 main_v27 c : S8192x128.Idx → EReal) (ix2 p q) = _
    rw [outs_4]
    exact S0_spmv m q01 c p q
  · show (outs regionData m 6 main_v29 c : S8192x128.Idx → EReal) (ix2 p q) = _
    rw [outs_6]
    show (dat1 (F := Ideal) (Vent1 regionData m) q01 c).arrAt 4 cfg1.N (ix2 p q) = _
    rw [Vent1_eq]
    exact S1_spmv m (outs regionData m) q01 c p q

end Cert.KernelIdeal.H

namespace Cert.Proof.Main

open Idealize.ShloMosaic Idealize.SL.Sem Idealize.ShloMosaic.ValueIdx

/-- The idealised kernel runs to the end and leaves its arguments unchanged. -/
theorem frame_ki : Cert.frame_KernelIdeal := fun m ρ _ => Cert.KernelIdeal.H.frame (F := Ideal) m ρ

/-- From memories agreeing on the arguments, the idealised kernel and the idealised reference end with equal results:
    both are the specification's formulas over one adjacency matrix and one vector of inverse-root degrees, and those
    formulas agree because every entry involved is a real number — the features by the precondition, the adjacency matrix
    as a count of edges, the inverse roots as reciprocals of roots of positive counts, or zero. -/
theorem algebraic : Cert.algebraic_KernelIdeal_ReferenceIdeal := by
  intro m ρ m' ρ' hpre hagree
  refine ⟨fun c => Cert.KernelIdeal.H.X2 (Cert.KernelIdeal.H.regionData (F := Ideal)) m c, Cert.KernelIdeal.H.run (F := Ideal) m ρ, ?_⟩
  refine (θ_run Cert.ReferenceIdeal.defs _ _).mono (fun r h c => ⟨(h c).1.trans ?_, (h c).2⟩)
    (Cert.ReferenceIdeal.ValueP.run (F := Ideal) m' ρ')
  rw [Cert.ReferenceIdeal.ReadP.val_main_v60_eq, (hagree c).1, (hagree c).2.1, (hagree c).2.2.1, (hagree c).2.2.2]
  funext j
  obtain ⟨p, o, rfl⟩ : ∃ (p : Fin 8192) (o : Fin 128), j = ix2 p o := ⟨j 0, j 1, eq_ix2 j⟩
  rw [Cert.RefValue.ref_value]
  show Cert.Spec.refOut _ _ _ _ _ p o = Cert.KernelIdeal.H.X2 Cert.KernelIdeal.H.regionData m c (ix2 p o)
  rw [Cert.KernelIdeal.H.kernel_value m c p o, Cert.KernelIdeal.H.adjK_eq_adj, Cert.KernelIdeal.H.dinvK_eq_dinv]
  exact (Cert.Spec.kernelOut_eq_refOut _ _ _ _ _ (Cert.RefValue.adj_finite _) (Cert.RefValue.dinv_finite _)
    (Cert.PreFinite.x_finite _ _ _ _ (hpre c)) p o).symm

end Cert.Proof.Main

end
-- ==== Proof.K.R0.lean ====
import proofs.«138934_j78142634983584_1_alg».proof.Proof.Gen.Kernel.Launch
import proofs.«138934_j78142634983584_1_alg».proof.Proof.Gen.Kernel.Skeleton
import proofs.«138934_j78142634983584_1_alg».proof.Proof.Gen.Kernel.Points
import proofs.«138934_j78142634983584_1_alg».proof.Proof.Gen.Kernel.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Region 0: the first sparse-matrix product

The kernel runs on an 8 × 8 grid; point t has row block i = t / 8 and column block k = t mod 8. At each point it adds to
an accumulator (a scratch buffer carried from point to point) the matrix product of a 1024 × 1024 block of the
matrix (window 0) with the elementwise product of two 1024 × 128 blocks (windows 1 and 2, block row k), both factors
rounded to bf16 before the product and the sum kept in f32. At k = 0 the
accumulator is first reset to zero; at k = 7 the finished accumulator, scaled elementwise by window 3's block (block
row i), is stored into the output's block (window 4), which is written back there and nowhere else.

This file states what the body does in each of the three cases, names the accumulator after every point (`acc0`) and
the stored output (`out0`), gives the proof data of the region (`dat0`) and proves its body obligation. Everything is
generic in the value family `F`; the contents `V` of the buffers when the region is entered are a parameter. -/

/-- The zero offsets of a whole-buffer access, however spelt. -/
theorem zeroOff0 : (![0, 0] : Fin 2 → Nat) = fun _ => 0 := funext fun a => by fin_cases a <;> rfl

/-- The condition of the body's first conditional (the reset of the accumulator), from the grid coordinates. -/
abbrev cond0_0 (i : grid0.Coords) : Prop :=
  Scalar.cmpi .ne (Scalar.extui (Scalar.cmpi .eq (BitVec.ofNat 32 (i 1).val) (0#32 : BitVec 32)) : BitVec 32) (0#32 : BitVec 32) = 1#1
/-- The condition of its second conditional (the store of the output block). -/
abbrev cond0_1 (i : grid0.Coords) : Prop := k0_cond2 i = 1#1

/-! ## The body in its three cases

On whole staging memrefs at given contents: `xA` window 0's block, `xR`, `xD`, `xM` those of windows 1, 2, 3, `xO` the
output's buffer, `xS` the accumulator. Every case hands the inputs back as they were. -/

set_option maxHeartbeats 4000000 in
/-- Case A (first column block, k = 0): the accumulator is reset to zero and takes the first product; the output's
    buffer is handed back as found. -/
theorem run0_A (c : Dev nD) (i : grid0.Coords)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x128 .f32) (harg7 : arg7.IsWhole)
    (hc0 : cond0_0 i) (hc1 : ¬ cond0_1 i)
    (xA : Vec F S1024x1024 .f32) (xR xD xM xO : Vec F S1024x128 .f32) (E : Set ℕ) (K : PUnit → sProp 𝕄) :
    iprop(owns (c : Thread nD τ) arg2 fullShare xA ∗ owns (c : Thread nD τ) arg3 fullShare xR ∗ owns (c : Thread nD τ) arg4 fullShare xD
        ∗ owns (c : Thread nD τ) arg5 fullShare xM ∗ owns (c : Thread nD τ) arg6 fullShare xO ∗ (∃ d, owns (c : Thread nD τ) arg7 fullShare d)
        ∗ (iprop(owns (c : Thread nD τ) arg2 fullShare xA ∗ owns (c : Thread nD τ) arg3 fullShare xR ∗ owns (c : Thread nD τ) arg4 fullShare xD
            ∗ owns (c : Thread nD τ) arg5 fullShare xM ∗ owns (c : Thread nD τ) arg6 fullShare xO
            ∗ owns (c : Thread nD τ) arg7 fullShare (k0_pay2 xR xD xA (k0_pay1 (F := F)))) -∗ K ⟨⟩))
      ⊢ wp frame (wpE (defs₀ (F := F)) Variants.none c none) E (cc0__spmv_kernel i arg2 harg2 arg3 harg3 arg4 harg4 arg5 harg5 arg6 harg6 arg7 harg7) K := by
  simp only [cc0__spmv_kernel_eq_skeleton]; unfold cc0__spmv_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr; swap; · iexact H7
  ipureintro
  sl_unfold_words
  rw [View.read_writes_eq_canon _ _ _ (fun y => ⟨_, List.mem_cons_self, View.mem_set_unit_zero zeroOff0 inb_S1024x128_S1024x128_0_0 y⟩),
    View.canon_cons_unit_zero (S := S1024x128) zeroOff0, View.readCov_unit_zero (S := S1024x128) _ zeroOff0]
  simp only [View.readAt_eq_ld, harg2.read_unread, harg3.read_unread, harg4.read_unread,
    View.ld_unit_zero (S := S1024x128) zeroOff0, View.ld_unit_zero (S := S1024x1024) zeroOff0]

set_option maxHeartbeats 4000000 in
/-- Case B (a middle column block, 0 < k < 7): the accumulator takes one more product; the output's buffer is handed
    back as found. -/
theorem run0_B (c : Dev nD) (i : grid0.Coords)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x128 .f32) (harg7 : arg7.IsWhole)
    (hc0 : ¬ cond0_0 i) (hc1 : ¬ cond0_1 i)
    (xA : Vec F S1024x1024 .f32) (xR xD xM xO xS : Vec F S1024x128 .f32) (E : Set ℕ) (K : PUnit → sProp 𝕄) :
    iprop(owns (c : Thread nD τ) arg2 fullShare xA ∗ owns (c : Thread nD τ) arg3 fullShare xR ∗ owns (c : Thread nD τ) arg4 fullShare xD
        ∗ owns (c : Thread nD τ) arg5 fullShare xM ∗ owns (c : Thread nD τ) arg6 fullShare xO ∗ owns (c : Thread nD τ) arg7 fullShare xS
        ∗ (iprop(owns (c : Thread nD τ) arg2 fullShare xA ∗ owns (c : Thread nD τ) arg3 fullShare xR ∗ owns (c : Thread nD τ) arg4 fullShare xD
            ∗ owns (c : Thread nD τ) arg5 fullShare xM ∗ owns (c : Thread nD τ) arg6 fullShare xO
            ∗ owns (c : Thread nD τ) arg7 fullShare (k0_pay2 xR xD xA xS)) -∗ K ⟨⟩))
      ⊢ wp frame (wpE (defs₀ (F := F)) Variants.none c none) E (cc0__spmv_kernel i arg2 harg2 arg3 harg3 arg4 harg4 arg5 harg5 arg6 harg6 arg7 harg7) K := by
  simp only [cc0__spmv_kernel_eq_skeleton]; unfold cc0__spmv_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr; swap; · iexact H7
  ipureintro
  rw [View.read_writes_eq_canon _ _ _ (fun y => ⟨_, List.mem_singleton_self _, View.mem_set_unit_zero zeroOff0 inb_S1024x128_S1024x128_0_0 y⟩),
    View.canon_unit_zero (S := S1024x128) zeroOff0]
  simp only [View.readAt_eq_ld, harg2.read_unread, harg3.read_unread, harg4.read_unread, harg7.read_unread,
    View.ld_unit_zero (S := S1024x128) zeroOff0, View.ld_unit_zero (S := S1024x1024) zeroOff0]

set_option maxHeartbeats 4000000 in
/-- Case C (last column block, k = 7): the accumulator takes the last product, and the output's buffer takes the
    accumulator scaled by window 3's block. -/
theorem run0_C (c : Dev nD) (i : grid0.Coords)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x128 .f32) (harg7 : arg7.IsWhole)
    (hc0 : ¬ cond0_0 i) (hc1 : cond0_1 i)
    (xA : Vec F S1024x1024 .f32) (xR xD xM xS : Vec F S1024x128 .f32) (E : Set ℕ) (K : PUnit → sProp 𝕄) :
    iprop(owns (c : Thread nD τ) arg2 fullShare xA ∗ owns (c : Thread nD τ) arg3 fullShare xR ∗ owns (c : Thread nD τ) arg4 fullShare xD
        ∗ owns (c : Thread nD τ) arg5 fullShare xM ∗ (∃ d, owns (c : Thread nD τ) arg6 fullShare d) ∗ owns (c : Thread nD τ) arg7 fullShare xS
        ∗ (iprop(owns (c : Thread nD τ) arg2 fullShare xA ∗ owns (c : Thread nD τ) arg3 fullShare xR ∗ owns (c : Thread nD τ) arg4 fullShare xD
            ∗ owns (c : Thread nD τ) arg5 fullShare xM ∗ owns (c : Thread nD τ) arg6 fullShare (k0_pay3 (k0_pay2 xR xD xA xS) xM)
            ∗ owns (c : Thread nD τ) arg7 fullShare (k0_pay2 xR xD xA xS)) -∗ K ⟨⟩))
      ⊢ wp frame (wpE (defs₀ (F := F)) Variants.none c none) E (cc0__spmv_kernel i arg2 harg2 arg3 harg3 arg4 harg4 arg5 harg5 arg6 harg6 arg7 harg7) K := by
  simp only [cc0__spmv_kernel_eq_skeleton]; unfold cc0__spmv_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4
  obtain rfl := harg5.eq_unread hf5; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [View.read_writes_eq_canon _ _ _ (fun y => ⟨_, List.mem_singleton_self _, View.mem_set_unit_zero zeroOff0 inb_S1024x128_S1024x128_0_0 y⟩),
      View.canon_unit_zero (S := S1024x128) zeroOff0, View.readCov_unit_zero (S := S1024x128) _ zeroOff0]
    simp only [View.readAt_eq_ld, harg2.read_unread, harg3.read_unread, harg4.read_unread, harg5.read_unread, harg7.read_unread,
      View.ld_unit_zero (S := S1024x128) zeroOff0, View.ld_unit_zero (S := S1024x1024) zeroOff0]
  iexists _; isplitr; swap; · iexact H7
  ipureintro
  sl_unfold_words
  rw [View.read_writes_eq_canon _ _ _ (fun y => ⟨_, List.mem_singleton_self _, View.mem_set_unit_zero zeroOff0 inb_S1024x128_S1024x128_0_0 y⟩),
    View.canon_unit_zero (S := S1024x128) zeroOff0]
  simp only [View.readAt_eq_ld, harg2.read_unread, harg3.read_unread, harg4.read_unread, harg7.read_unread,
    View.ld_unit_zero (S := S1024x128) zeroOff0, View.ld_unit_zero (S := S1024x1024) zeroOff0]

/-! ## Where the two conditions hold, and where the output window is idle -/

/-- The reset condition holds at the points of the first column block (k = 0). -/
theorem hcond0_0 : ∀ t : Fin cfg0.N, cond0_0 (grid0.coords t) ↔ t.val % 8 = 0 :=
  (by decide +kernel : ∀ t : Fin grid0.N, cond0_0 (grid0.coords t) ↔ t.val % 8 = 0)
/-- The store condition holds at the points of the last column block (k = 7). -/
theorem hcond0_1 : ∀ t : Fin cfg0.N, cond0_1 (grid0.coords t) ↔ t.val % 8 = 7 :=
  (by decide +kernel : ∀ t : Fin grid0.N, cond0_1 (grid0.coords t) ↔ t.val % 8 = 7)

/-- The four input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Off the last column block the output window is idle (nothing is stored into it), -/
theorem idleAt0_4 : ∀ t : Fin cfg0.N, ¬cond0_1 (grid0.coords t) → cfg0.idle 4 (grid0.coords t) = true := by decide +kernel
/-- and its block is not written back there; -/
theorem noFlush0_4 : ∀ t : Fin cfg0.N, ¬cond0_1 (grid0.coords t) → (cfg0.win 4).flush t = false := by decide +kernel
/-- on the last column block it is live. -/
theorem liveAt0_4 : ∀ t : Fin cfg0.N, cond0_1 (grid0.coords t) → cfg0.idle 4 (grid0.coords t) = false := by decide +kernel

/-! ## The staging memrefs at a point, and the scratch -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from one grid point to the next. -/
abbrev scM0 : Memref sig .tc .vmem S1024x128 .f32 := Memref.whole cc0_scratch0

/-- The core's scoped buffers that are no staging buffer of this call, the accumulator apart: the other two calls'
    staging buffers and scratch, each at some contents, carried along unopened. -/
abbrev rest0 (c : Dev nD) : sProp 𝕄 :=
  Pipeline.scopedRestBut (Ix := Unit) (Name := ℕ) (U := UR sig nD τ) (Lvl := ℕ) (Val := Elt F) spec0 c [cc0_scratch0]

/-- What the launch hands the region: the accumulator at some contents, the other scoped buffers, the generator
    register at some state. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA
  rw [Pipeline.scopedRest_split_of_list spec0 c [cc0_scratch0] (by decide) (by decide)]
  simp only [bigSepL_singleton, scM0, owns_whole]; try rfl

variable (V : (c : Dev nD) → (b : Ref sig .tc) → Buf (Elt F) ((c : Thread nD τ).loc b))

/-! ## The windows' blocks, the accumulator and the output point by point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`: at the first column block of a row block (n ≡ 0 mod 8) the first product added to
    zero; at every other point one more product added to what the point before left. -/
def acc0 (c : Dev nD) : (n : ℕ) → n < cfg0.N → Vec F S1024x128 .f32
  | 0, hn => k0_pay2 (iblk0 V c 1 ⟨0, hn⟩) (iblk0 V c 2 ⟨0, hn⟩) (iblk0 V c 0 ⟨0, hn⟩) (k0_pay1 (F := F))
  | n + 1, hn =>
    if (n + 1) % 8 = 0 then
      k0_pay2 (iblk0 V c 1 ⟨n + 1, hn⟩) (iblk0 V c 2 ⟨n + 1, hn⟩) (iblk0 V c 0 ⟨n + 1, hn⟩) (k0_pay1 (F := F))
    else
      k0_pay2 (iblk0 V c 1 ⟨n + 1, hn⟩) (iblk0 V c 2 ⟨n + 1, hn⟩) (iblk0 V c 0 ⟨n + 1, hn⟩) (acc0 c n (Nat.lt_of_succ_lt hn))

/-- At a first column block the accumulator starts afresh. -/
theorem acc0_first (c : Dev nD) (t : Fin cfg0.N) (h : t.val % 8 = 0) :
    acc0 V c t.val t.isLt = k0_pay2 (iblk0 V c 1 t) (iblk0 V c 2 t) (iblk0 V c 0 t) (k0_pay1 (F := F)) := by
  obtain ⟨n, hn⟩ := t
  cases n with
  | zero => rfl
  | succ n => exact (if_pos h).trans rfl

/-- At any other point it adds to what the point before left. -/
theorem acc0_next (c : Dev nD) (t : Fin cfg0.N) (h : t.val % 8 ≠ 0) :
    acc0 V c t.val t.isLt = k0_pay2 (iblk0 V c 1 t) (iblk0 V c 2 t) (iblk0 V c 0 t)
      (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-- What the last column block stores into the output's buffer: the finished accumulator scaled by window 3's block. -/
def out0 (c : Dev nD) (t : Fin cfg0.N) : Vec F S1024x128 .f32 := k0_pay3 (acc0 V c t.val t.isLt) (iblk0 V c 3 t)

/-! ## The invariant that carries the accumulator -/

/-- Before point `n`: at the first point what the launch hands over; afterwards the accumulator at what the point
    before left, the other scoped buffers and the generator register as they come. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-! ## The proof data of region 0 -/

/-- The arrays as the region finds them; after the body each input's buffer at its block, the output's at what the
    last column block stores; the invariant carrying the accumulator; nothing owed. The shares `q` at which the input
    arrays are held are a parameter: windows 2 and 3 read one array, so neither holds it outright. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q := q
  owed _ := 0

theorem A_eq0 (q : Fin cfg0.W → PosShare TreeShare) (c : Dev nD) (w : Fin cfg0.W) :
    (dat0 V q c).A w = V c (Pipeline.arrRef spec0 w) := by
  dsimp only [dat0]

theorem Phi0_zero (q : Fin cfg0.W → PosShare TreeShare) (c : Dev nD) : (dat0 V q c).Φ 0 = Pipeline.ΦA spec0 c := by
  rw [show (dat0 V q c).Φ 0 = PhiS0 V c 0 (Nat.zero_le _) from rfl, PhiS0_zero V c 0 _ rfl]

theorem Phi0_castSucc (q : Fin cfg0.W → PosShare TreeShare) (c : Dev nD) (t : Fin cfg0.N) :
    (dat0 V q c).Φ t.castSucc = PhiS0 V c t.val (Nat.le_of_lt t.isLt) := by
  dsimp only [dat0]; simp only [Fin.coe_castSucc]

/-- After the last point the invariant gives back what the launch handed over: the accumulator's contents forgotten. -/
theorem Phi0_last (q : Fin cfg0.W → PosShare TreeShare) (c : Dev nD) : (dat0 V q c).Φ (Fin.last cfg0.N) ⊢ Pipeline.ΦA spec0 c := by
  rw [show (dat0 V q c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, HR⟩, Hg⟩
  isplitl [HS HR]
  · isplitl [HS]
    · iexists _; iexact HS
    iexact HR
  iexact Hg

theorem after0_0 (q : Fin cfg0.W → PosShare TreeShare) (c : Dev nD) (t : Fin cfg0.N) : (dat0 V q c).after 0 t = iblk0 V c 0 t := by dsimp only [dat0]
theorem after0_1 (q : Fin cfg0.W → PosShare TreeShare) (c : Dev nD) (t : Fin cfg0.N) : (dat0 V q c).after 1 t = iblk0 V c 1 t := by dsimp only [dat0]
theorem after0_2 (q : Fin cfg0.W → PosShare TreeShare) (c : Dev nD) (t : Fin cfg0.N) : (dat0 V q c).after 2 t = iblk0 V c 2 t := by dsimp only [dat0]
theorem after0_3 (q : Fin cfg0.W → PosShare TreeShare) (c : Dev nD) (t : Fin cfg0.N) : (dat0 V q c).after 3 t = iblk0 V c 3 t := by dsimp only [dat0]
theorem after0_4 (q : Fin cfg0.W → PosShare TreeShare) (c : Dev nD) (t : Fin cfg0.N) : (dat0 V q c).after 4 t = out0 V c t := by dsimp only [dat0]

/-- Each input's current staging buffer holds its block at every point, fetched there or not: where it is not
    fetched (window 3 off the first column block) the block index has not moved. -/
theorem before0_0 (q : Fin cfg0.W → PosShare TreeShare) (c : Dev nD) (t : Fin cfg0.N) (d) : (dat0 V q c).before 0 t d = iblk0 V c 0 t :=
  ((dat0 V q c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (q : Fin cfg0.W → PosShare TreeShare) (c : Dev nD) (t : Fin cfg0.N) (d) : (dat0 V q c).before 1 t d = iblk0 V c 1 t :=
  ((dat0 V q c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (q : Fin cfg0.W → PosShare TreeShare) (c : Dev nD) (t : Fin cfg0.N) (d) : (dat0 V q c).before 2 t d = iblk0 V c 2 t :=
  ((dat0 V q c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (q : Fin cfg0.W → PosShare TreeShare) (c : Dev nD) (t : Fin cfg0.N) (d) : (dat0 V q c).before 3 t d = iblk0 V c 3 t :=
  ((dat0 V q c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## The body obligation -/

/-- What the body is called with at point `t`: the invariant, the core's tallies, each window's current buffer. -/
def bodyPre0 (q : Fin cfg0.W → PosShare TreeShare) (c : Dev nD) (t : Fin cfg0.N) : sProp 𝕄 :=
  iprop((dat0 V q c).Φ t.castSucc ∗ (dat0 V q c).owesAt () t.castSucc
    ∗ (∃ d, owns (c : Thread nD τ) (ms0_0 t) fullShare ((dat0 V q c).before 0 t d))
    ∗ (∃ d, owns (c : Thread nD τ) (ms0_1 t) fullShare ((dat0 V q c).before 1 t d))
    ∗ (∃ d, owns (c : Thread nD τ) (ms0_2 t) fullShare ((dat0 V q c).before 2 t d))
    ∗ (∃ d, owns (c : Thread nD τ) (ms0_3 t) fullShare ((dat0 V q c).before 3 t d))
    ∗ (∃ d, owns (c : Thread nD τ) (ms0_4 t) fullShare ((dat0 V q c).before 4 t d)))

/-- What it returns. -/
def bodyPost0 (q : Fin cfg0.W → PosShare TreeShare) (c : Dev nD) (t : Fin cfg0.N) : sProp 𝕄 :=
  iprop((dat0 V q c).Φ t.succ ∗ (dat0 V q c).owesAt () t.succ
    ∗ (dat0 V q c).leavesExact 0 t ∗ (dat0 V q c).leavesExact 1 t ∗ (dat0 V q c).leavesExact 2 t ∗ (dat0 V q c).leavesExact 3 t ∗ (dat0 V q c).leavesExact 4 t)

set_option maxHeartbeats 4000000 in
/-- The body at any point. The inputs' buffers hold their blocks; the point's column block k = t mod 8 says which of
    the three cases runs; the invariant hands the body the accumulator at what the point before left (at anything
    where the case resets it) and takes it back at this point's; off the last column block the output's buffer goes
    back as it came. -/
theorem sound_body0 (q : Fin cfg0.W → PosShare TreeShare) (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2, before0_3]
  rw [show (dat0 V q c).owesAt () t.succ = (dat0 V q c).owesAt () t.castSucc from rfl]
  rw [show (dat0 V q c).Φ t.succ = PhiS0 V c (t.val + 1) t.isLt from rfl, PhiS0_succ]
  have hN : t.val < 64 := lt_of_lt_of_eq t.isLt (show cfg0.N = 64 from N_0)
  by_cases h0 : t.val % 8 = 0
  · have hc0 : cond0_0 (grid0.coords t) := (hcond0_0 t).mpr h0
    have hc1 : ¬cond0_1 (grid0.coords t) := fun h => by have := (hcond0_1 t).mp h; omega
    rw [show (dat0 V q c).leavesExact 0 t = owns (c : Thread nD τ) (ms0_0 t) fullShare ((dat0 V q c).after 0 t) from by
      unfold Dat.leavesExact; rw [liveAt0_0 t], after0_0]
    rw [show (dat0 V q c).leavesExact 1 t = owns (c : Thread nD τ) (ms0_1 t) fullShare ((dat0 V q c).after 1 t) from by
      unfold Dat.leavesExact; rw [liveAt0_1 t], after0_1]
    rw [show (dat0 V q c).leavesExact 2 t = owns (c : Thread nD τ) (ms0_2 t) fullShare ((dat0 V q c).after 2 t) from by
      unfold Dat.leavesExact; rw [liveAt0_2 t], after0_2]
    rw [show (dat0 V q c).leavesExact 3 t = owns (c : Thread nD τ) (ms0_3 t) fullShare ((dat0 V q c).after 3 t) from by
      unfold Dat.leavesExact; rw [liveAt0_3 t], after0_3]
    rw [Dat.leavesExact_idle (dat0 V q c) 4 t (idleAt0_4 t hc1) (noFlush0_4 t hc1)]
    rw [acc0_first V c t h0]
    by_cases hz : t.val = 0
    · rw [Phi0_castSucc V q c t, PhiS0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply (run0_A c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (iblk0 V c 2 t) (iblk0 V c 3 t) ((dat0 V q c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [Phi0_castSucc V q c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run0_A c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (iblk0 V c 2 t) (iblk0 V c 3 t) ((dat0 V q c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hc0 : ¬cond0_0 (grid0.coords t) := fun h => h0 ((hcond0_0 t).mp h)
    have hz : t.val ≠ 0 := fun e => h0 (by rw [e])
    by_cases h1 : t.val % 8 = 7
    · have hc1 : cond0_1 (grid0.coords t) := (hcond0_1 t).mpr h1
      rw [show (dat0 V q c).leavesExact 0 t = owns (c : Thread nD τ) (ms0_0 t) fullShare ((dat0 V q c).after 0 t) from by
        unfold Dat.leavesExact; rw [liveAt0_0 t], after0_0]
      rw [show (dat0 V q c).leavesExact 1 t = owns (c : Thread nD τ) (ms0_1 t) fullShare ((dat0 V q c).after 1 t) from by
        unfold Dat.leavesExact; rw [liveAt0_1 t], after0_1]
      rw [show (dat0 V q c).leavesExact 2 t = owns (c : Thread nD τ) (ms0_2 t) fullShare ((dat0 V q c).after 2 t) from by
        unfold Dat.leavesExact; rw [liveAt0_2 t], after0_2]
      rw [show (dat0 V q c).leavesExact 3 t = owns (c : Thread nD τ) (ms0_3 t) fullShare ((dat0 V q c).after 3 t) from by
        unfold Dat.leavesExact; rw [liveAt0_3 t], after0_3]
      rw [show (dat0 V q c).leavesExact 4 t = owns (c : Thread nD τ) (ms0_4 t) fullShare ((dat0 V q c).after 4 t) from by
        unfold Dat.leavesExact; rw [liveAt0_4 t hc1], after0_4]
      unfold out0
      rw [acc0_next V c t h0]
      rw [Phi0_castSucc V q c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run0_C c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (iblk0 V c 2 t) (iblk0 V c 3 t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [show (dat0 V q c).leavesExact 0 t = owns (c : Thread nD τ) (ms0_0 t) fullShare ((dat0 V q c).after 0 t) from by
        unfold Dat.leavesExact; rw [liveAt0_0 t], after0_0]
      rw [show (dat0 V q c).leavesExact 1 t = owns (c : Thread nD τ) (ms0_1 t) fullShare ((dat0 V q c).after 1 t) from by
        unfold Dat.leavesExact; rw [liveAt0_1 t], after0_1]
      rw [show (dat0 V q c).leavesExact 2 t = owns (c : Thread nD τ) (ms0_2 t) fullShare ((dat0 V q c).after 2 t) from by
        unfold Dat.leavesExact; rw [liveAt0_2 t], after0_2]
      rw [show (dat0 V q c).leavesExact 3 t = owns (c : Thread nD τ) (ms0_3 t) fullShare ((dat0 V q c).after 3 t) from by
        unfold Dat.leavesExact; rw [liveAt0_3 t], after0_3]
      rw [Dat.leavesExact_idle (dat0 V q c) 4 t (idleAt0_4 t hc1) (noFlush0_4 t hc1)]
      rw [acc0_next V c t h0]
      rw [Phi0_castSucc V q c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run0_B c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (iblk0 V c 2 t) (iblk0 V c 3 t) ((dat0 V q c).before 4 t d4) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation for region 0, at every point, at whatever shares the input arrays are held. -/
theorem body_obligation0 (q : Fin cfg0.W → PosShare TreeShare) (c : Dev nD) :
    BodyObligation (dat0 (F := F) V q c) (defs₀ (F := F)) Variants.none () Set.univ := fun t => by
  rw [bigSep_W0, bigSep_W0]
  exact sound_body0 V q c t

end Cert.Kernel.H
end
-- ==== Proof.K.R1.lean ====
import proofs.«138934_j78142634983584_1_alg».proof.Proof.Gen.Kernel.Launch
import proofs.«138934_j78142634983584_1_alg».proof.Proof.Gen.Kernel.Skeleton
import proofs.«138934_j78142634983584_1_alg».proof.Proof.Gen.Kernel.Points
import proofs.«138934_j78142634983584_1_alg».proof.Proof.Gen.Kernel.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Region 1: the second sparse-matrix product

The kernel runs on an 8 × 8 grid; point t has row block i = t / 8 and column block k = t mod 8. At each point it adds to
an accumulator (a scratch buffer carried from point to point) the matrix product of a 1024 × 1024 block of the
matrix (window 0) with the elementwise product of two 1024 × 128 blocks (windows 1 and 2, block row k), both factors
rounded to bf16 before the product and the sum kept in f32. At k = 0 the
accumulator is first reset to zero; at k = 7 the finished accumulator, scaled elementwise by window 3's block (block
row i), is stored into the output's block (window 4), which is written back there and nowhere else.

This file states what the body does in each of the three cases, names the accumulator after every point (`acc1`) and
the stored output (`out1`), gives the proof data of the region (`dat1`) and proves its body obligation. Everything is
generic in the value family `F`; the contents `V` of the buffers when the region is entered are a parameter. -/

/-- The zero offsets of a whole-buffer access, however spelt. -/
theorem zeroOff1 : (![0, 0] : Fin 2 → Nat) = fun _ => 0 := funext fun a => by fin_cases a <;> rfl

/-- The condition of the body's first conditional (the reset of the accumulator), from the grid coordinates. -/
abbrev cond1_0 (i : grid1.Coords) : Prop :=
  Scalar.cmpi .ne (Scalar.extui (Scalar.cmpi .eq (BitVec.ofNat 32 (i 1).val) (0#32 : BitVec 32)) : BitVec 32) (0#32 : BitVec 32) = 1#1
/-- The condition of its second conditional (the store of the output block). -/
abbrev cond1_1 (i : grid1.Coords) : Prop := k1_cond2 i = 1#1

/-! ## The body in its three cases

On whole staging memrefs at given contents: `xA` window 0's block, `xR`, `xD`, `xM` those of windows 1, 2, 3, `xO` the
output's buffer, `xS` the accumulator. Every case hands the inputs back as they were. -/

set_option maxHeartbeats 4000000 in
/-- Case A (first column block, k = 0): the accumulator is reset to zero and takes the first product; the output's
    buffer is handed back as found. -/
theorem run1_A (c : Dev nD) (i : grid1.Coords)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x128 .f32) (harg7 : arg7.IsWhole)
    (hc0 : cond1_0 i) (hc1 : ¬ cond1_1 i)
    (xA : Vec F S1024x1024 .f32) (xR xD xM xO : Vec F S1024x128 .f32) (E : Set ℕ) (K : PUnit → sProp 𝕄) :
    iprop(owns (c : Thread nD τ) arg2 fullShare xA ∗ owns (c : Thread nD τ) arg3 fullShare xR ∗ owns (c : Thread nD τ) arg4 fullShare xD
        ∗ owns (c : Thread nD τ) arg5 fullShare xM ∗ owns (c : Thread nD τ) arg6 fullShare xO ∗ (∃ d, owns (c : Thread nD τ) arg7 fullShare d)
        ∗ (iprop(owns (c : Thread nD τ) arg2 fullShare xA ∗ owns (c : Thread nD τ) arg3 fullShare xR ∗ owns (c : Thread nD τ) arg4 fullShare xD
            ∗ owns (c : Thread nD τ) arg5 fullShare xM ∗ owns (c : Thread nD τ) arg6 fullShare xO
            ∗ owns (c : Thread nD τ) arg7 fullShare (k1_pay2 xR xD xA (k1_pay1 (F := F)))) -∗ K ⟨⟩))
      ⊢ wp frame (wpE (defs₀ (F := F)) Variants.none c none) E (cc1__spmv_kernel i arg2 harg2 arg3 harg3 arg4 harg4 arg5 harg5 arg6 harg6 arg7 harg7) K := by
  simp only [cc1__spmv_kernel_eq_skeleton]; unfold cc1__spmv_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr; swap; · iexact H7
  ipureintro
  sl_unfold_words
  rw [View.read_writes_eq_canon _ _ _ (fun y => ⟨_, List.mem_cons_self, View.mem_set_unit_zero zeroOff1 inb_S1024x128_S1024x128_0_0 y⟩),
    View.canon_cons_unit_zero (S := S1024x128) zeroOff1, View.readCov_unit_zero (S := S1024x128) _ zeroOff1]
  simp only [View.readAt_eq_ld, harg2.read_unread, harg3.read_unread, harg4.read_unread,
    View.ld_unit_zero (S := S1024x128) zeroOff1, View.ld_unit_zero (S := S1024x1024) zeroOff1]

set_option maxHeartbeats 4000000 in
/-- Case B (a middle column block, 0 < k < 7): the accumulator takes one more product; the output's buffer is handed
    back as found. -/
theorem run1_B (c : Dev nD) (i : grid1.Coords)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x128 .f32) (harg7 : arg7.IsWhole)
    (hc0 : ¬ cond1_0 i) (hc1 : ¬ cond1_1 i)
    (xA : Vec F S1024x1024 .f32) (xR xD xM xO xS : Vec F S1024x128 .f32) (E : Set ℕ) (K : PUnit → sProp 𝕄) :
    iprop(owns (c : Thread nD τ) arg2 fullShare xA ∗ owns (c : Thread nD τ) arg3 fullShare xR ∗ owns (c : Thread nD τ) arg4 fullShare xD
        ∗ owns (c : Thread nD τ) arg5 fullShare xM ∗ owns (c : Thread nD τ) arg6 fullShare xO ∗ owns (c : Thread nD τ) arg7 fullShare xS
        ∗ (iprop(owns (c : Thread nD τ) arg2 fullShare xA ∗ owns (c : Thread nD τ) arg3 fullShare xR ∗ owns (c : Thread nD τ) arg4 fullShare xD
            ∗ owns (c : Thread nD τ) arg5 fullShare xM ∗ owns (c : Thread nD τ) arg6 fullShare xO
            ∗ owns (c : Thread nD τ) arg7 fullShare (k1_pay2 xR xD xA xS)) -∗ K ⟨⟩))
      ⊢ wp frame (wpE (defs₀ (F := F)) Variants.none c none) E (cc1__spmv_kernel i arg2 harg2 arg3 harg3 arg4 harg4 arg5 harg5 arg6 harg6 arg7 harg7) K := by
  simp only [cc1__spmv_kernel_eq_skeleton]; unfold cc1__spmv_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr; swap; · iexact H7
  ipureintro
  rw [View.read_writes_eq_canon _ _ _ (fun y => ⟨_, List.mem_singleton_self _, View.mem_set_unit_zero zeroOff1 inb_S1024x128_S1024x128_0_0 y⟩),
    View.canon_unit_zero (S := S1024x128) zeroOff1]
  simp only [View.readAt_eq_ld, harg2.read_unread, harg3.read_unread, harg4.read_unread, harg7.read_unread,
    View.ld_unit_zero (S := S1024x128) zeroOff1, View.ld_unit_zero (S := S1024x1024) zeroOff1]

set_option maxHeartbeats 4000000 in
/-- Case C (last column block, k = 7): the accumulator takes the last product, and the output's buffer takes the
    accumulator scaled by window 3's block. -/
theorem run1_C (c : Dev nD) (i : grid1.Coords)
    (arg2 : Memref sig .tc .vmem S1024x1024 .f32) (harg2 : arg2.IsWhole) (arg3 : Memref sig .tc .vmem S1024x128 .f32) (harg3 : arg3.IsWhole)
    (arg4 : Memref sig .tc .vmem S1024x128 .f32) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x128 .f32) (harg7 : arg7.IsWhole)
    (hc0 : ¬ cond1_0 i) (hc1 : cond1_1 i)
    (xA : Vec F S1024x1024 .f32) (xR xD xM xS : Vec F S1024x128 .f32) (E : Set ℕ) (K : PUnit → sProp 𝕄) :
    iprop(owns (c : Thread nD τ) arg2 fullShare xA ∗ owns (c : Thread nD τ) arg3 fullShare xR ∗ owns (c : Thread nD τ) arg4 fullShare xD
        ∗ owns (c : Thread nD τ) arg5 fullShare xM ∗ (∃ d, owns (c : Thread nD τ) arg6 fullShare d) ∗ owns (c : Thread nD τ) arg7 fullShare xS
        ∗ (iprop(owns (c : Thread nD τ) arg2 fullShare xA ∗ owns (c : Thread nD τ) arg3 fullShare xR ∗ owns (c : Thread nD τ) arg4 fullShare xD
            ∗ owns (c : Thread nD τ) arg5 fullShare xM ∗ owns (c : Thread nD τ) arg6 fullShare (k1_pay3 (k1_pay2 xR xD xA xS) xM)
            ∗ owns (c : Thread nD τ) arg7 fullShare (k1_pay2 xR xD xA xS)) -∗ K ⟨⟩))
      ⊢ wp frame (wpE (defs₀ (F := F)) Variants.none c none) E (cc1__spmv_kernel i arg2 harg2 arg3 harg3 arg4 harg4 arg5 harg5 arg6 harg6 arg7 harg7) K := by
  simp only [cc1__spmv_kernel_eq_skeleton]; unfold cc1__spmv_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4
  obtain rfl := harg5.eq_unread hf5; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [View.read_writes_eq_canon _ _ _ (fun y => ⟨_, List.mem_singleton_self _, View.mem_set_unit_zero zeroOff1 inb_S1024x128_S1024x128_0_0 y⟩),
      View.canon_unit_zero (S := S1024x128) zeroOff1, View.readCov_unit_zero (S := S1024x128) _ zeroOff1]
    simp only [View.readAt_eq_ld, harg2.read_unread, harg3.read_unread, harg4.read_unread, harg5.read_unread, harg7.read_unread,
      View.ld_unit_zero (S := S1024x128) zeroOff1, View.ld_unit_zero (S := S1024x1024) zeroOff1]
  iexists _; isplitr; swap; · iexact H7
  ipureintro
  sl_unfold_words
  rw [View.read_writes_eq_canon _ _ _ (fun y => ⟨_, List.mem_singleton_self _, View.mem_set_unit_zero zeroOff1 inb_S1024x128_S1024x128_0_0 y⟩),
    View.canon_unit_zero (S := S1024x128) zeroOff1]
  simp only [View.readAt_eq_ld, harg2.read_unread, harg3.read_unread, harg4.read_unread, harg7.read_unread,
    View.ld_unit_zero (S := S1024x128) zeroOff1, View.ld_unit_zero (S := S1024x1024) zeroOff1]

/-! ## Where the two conditions hold, and where the output window is idle -/

/-- The reset condition holds at the points of the first column block (k = 0). -/
theorem hcond1_0 : ∀ t : Fin cfg1.N, cond1_0 (grid1.coords t) ↔ t.val % 8 = 0 :=
  (by decide +kernel : ∀ t : Fin grid1.N, cond1_0 (grid1.coords t) ↔ t.val % 8 = 0)
/-- The store condition holds at the points of the last column block (k = 7). -/
theorem hcond1_1 : ∀ t : Fin cfg1.N, cond1_1 (grid1.coords t) ↔ t.val % 8 = 7 :=
  (by decide +kernel : ∀ t : Fin grid1.N, cond1_1 (grid1.coords t) ↔ t.val % 8 = 7)

/-- The four input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Off the last column block the output window is idle (nothing is stored into it), -/
theorem idleAt1_4 : ∀ t : Fin cfg1.N, ¬cond1_1 (grid1.coords t) → cfg1.idle 4 (grid1.coords t) = true := by decide +kernel
/-- and its block is not written back there; -/
theorem noFlush1_4 : ∀ t : Fin cfg1.N, ¬cond1_1 (grid1.coords t) → (cfg1.win 4).flush t = false := by decide +kernel
/-- on the last column block it is live. -/
theorem liveAt1_4 : ∀ t : Fin cfg1.N, cond1_1 (grid1.coords t) → cfg1.idle 4 (grid1.coords t) = false := by decide +kernel

/-! ## The staging memrefs at a point, and the scratch -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from one grid point to the next. -/
abbrev scM1 : Memref sig .tc .vmem S1024x128 .f32 := Memref.whole cc1_scratch0

/-- The core's scoped buffers that are no staging buffer of this call, the accumulator apart: the other two calls'
    staging buffers and scratch, each at some contents, carried along unopened. -/
abbrev rest1 (c : Dev nD) : sProp 𝕄 :=
  Pipeline.scopedRestBut (Ix := Unit) (Name := ℕ) (U := UR sig nD τ) (Lvl := ℕ) (Val := Elt F) spec1 c [cc1_scratch0]

/-- What the launch hands the region: the accumulator at some contents, the other scoped buffers, the generator
    register at some state. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA
  rw [Pipeline.scopedRest_split_of_list spec1 c [cc1_scratch0] (by decide) (by decide)]
  simp only [bigSepL_singleton, scM1, owns_whole]; try rfl

variable (V : (c : Dev nD) → (b : Ref sig .tc) → Buf (Elt F) ((c : Thread nD τ).loc b))

/-! ## The windows' blocks, the accumulator and the output point by point -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: at the first column block of a row block (n ≡ 0 mod 8) the first product added to
    zero; at every other point one more product added to what the point before left. -/
def acc1 (c : Dev nD) : (n : ℕ) → n < cfg1.N → Vec F S1024x128 .f32
  | 0, hn => k1_pay2 (iblk1 V c 1 ⟨0, hn⟩) (iblk1 V c 2 ⟨0, hn⟩) (iblk1 V c 0 ⟨0, hn⟩) (k1_pay1 (F := F))
  | n + 1, hn =>
    if (n + 1) % 8 = 0 then
      k1_pay2 (iblk1 V c 1 ⟨n + 1, hn⟩) (iblk1 V c 2 ⟨n + 1, hn⟩) (iblk1 V c 0 ⟨n + 1, hn⟩) (k1_pay1 (F := F))
    else
      k1_pay2 (iblk1 V c 1 ⟨n + 1, hn⟩) (iblk1 V c 2 ⟨n + 1, hn⟩) (iblk1 V c 0 ⟨n + 1, hn⟩) (acc1 c n (Nat.lt_of_succ_lt hn))

/-- At a first column block the accumulator starts afresh. -/
theorem acc1_first (c : Dev nD) (t : Fin cfg1.N) (h : t.val % 8 = 0) :
    acc1 V c t.val t.isLt = k1_pay2 (iblk1 V c 1 t) (iblk1 V c 2 t) (iblk1 V c 0 t) (k1_pay1 (F := F)) := by
  obtain ⟨n, hn⟩ := t
  cases n with
  | zero => rfl
  | succ n => exact (if_pos h).trans rfl

/-- At any other point it adds to what the point before left. -/
theorem acc1_next (c : Dev nD) (t : Fin cfg1.N) (h : t.val % 8 ≠ 0) :
    acc1 V c t.val t.isLt = k1_pay2 (iblk1 V c 1 t) (iblk1 V c 2 t) (iblk1 V c 0 t)
      (acc1 V c (t.val - 1) (Nat.lt_of_le_of_lt (Nat.sub_le _ _) t.isLt)) := by
  obtain ⟨n, hn⟩ := t
  cases n with
  | zero => exact absurd (Nat.zero_mod _) h
  | succ n => exact (if_neg h).trans rfl

/-- What the last column block stores into the output's buffer: the finished accumulator scaled by window 3's block. -/
def out1 (c : Dev nD) (t : Fin cfg1.N) : Vec F S1024x128 .f32 := k1_pay3 (acc1 V c t.val t.isLt) (iblk1 V c 3 t)

/-! ## The invariant that carries the accumulator -/

/-- Before point `n`: at the first point what the launch hands over; afterwards the accumulator at what the point
    before left, the other scoped buffers and the generator register as they come. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ rest1 (F := F) c) ∗ (∃ r, prngReg c r)) := by
  cases n with
  | zero => exact absurd rfl hz
  | succ n => rfl

/-! ## The proof data of region 1 -/

/-- The arrays as the region finds them; after the body each input's buffer at its block, the output's at what the
    last column block stores; the invariant carrying the accumulator; nothing owed. The shares `q` at which the input
    arrays are held are a parameter: windows 2 and 3 read one array, so neither holds it outright. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS1 V c t.val (Nat.le_of_lt_succ t.isLt)
  q := q
  owed _ := 0

theorem A_eq1 (q : Fin cfg1.W → PosShare TreeShare) (c : Dev nD) (w : Fin cfg1.W) :
    (dat1 V q c).A w = V c (Pipeline.arrRef spec1 w) := by
  dsimp only [dat1]

theorem Phi1_zero (q : Fin cfg1.W → PosShare TreeShare) (c : Dev nD) : (dat1 V q c).Φ 0 = Pipeline.ΦA spec1 c := by
  rw [show (dat1 V q c).Φ 0 = PhiS1 V c 0 (Nat.zero_le _) from rfl, PhiS1_zero V c 0 _ rfl]

theorem Phi1_castSucc (q : Fin cfg1.W → PosShare TreeShare) (c : Dev nD) (t : Fin cfg1.N) :
    (dat1 V q c).Φ t.castSucc = PhiS1 V c t.val (Nat.le_of_lt t.isLt) := by
  dsimp only [dat1]; simp only [Fin.coe_castSucc]

/-- After the last point the invariant gives back what the launch handed over: the accumulator's contents forgotten. -/
theorem Phi1_last (q : Fin cfg1.W → PosShare TreeShare) (c : Dev nD) : (dat1 V q c).Φ (Fin.last cfg1.N) ⊢ Pipeline.ΦA spec1 c := by
  rw [show (dat1 V q c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, HR⟩, Hg⟩
  isplitl [HS HR]
  · isplitl [HS]
    · iexists _; iexact HS
    iexact HR
  iexact Hg

theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) : (dat1 V q c).after 3 t = iblk1 V c 3 t := by dsimp only [dat1]
theorem after1_4 (q : Fin cfg1.W → PosShare TreeShare) (c : Dev nD) (t : Fin cfg1.N) : (dat1 V q c).after 4 t = out1 V c t := by dsimp only [dat1]

/-- Each input's current staging buffer holds its block at every point, fetched there or not: where it is not
    fetched (window 3 off the first column block) the block index has not moved. -/
theorem before1_0 (q : Fin cfg1.W → PosShare TreeShare) (c : Dev nD) (t : Fin cfg1.N) (d) : (dat1 V q c).before 0 t d = iblk1 V c 0 t :=
  ((dat1 V q c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (q : Fin cfg1.W → PosShare TreeShare) (c : Dev nD) (t : Fin cfg1.N) (d) : (dat1 V q c).before 1 t d = iblk1 V c 1 t :=
  ((dat1 V q c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (q : Fin cfg1.W → PosShare TreeShare) (c : Dev nD) (t : Fin cfg1.N) (d) : (dat1 V q c).before 2 t d = iblk1 V c 2 t :=
  ((dat1 V q c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (q : Fin cfg1.W → PosShare TreeShare) (c : Dev nD) (t : Fin cfg1.N) (d) : (dat1 V q c).before 3 t d = iblk1 V c 3 t :=
  ((dat1 V q c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The body obligation -/

/-- What the body is called with at point `t`: the invariant, the core's tallies, each window's current buffer. -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d))
    ∗ (∃ d, owns (c : Thread nD τ) (ms1_3 t) fullShare ((dat1 V q c).before 3 t d))
    ∗ (∃ d, owns (c : Thread nD τ) (ms1_4 t) fullShare ((dat1 V q c).before 4 t d)))

/-- What it returns. -/
def bodyPost1 (q : Fin cfg1.W → PosShare TreeShare) (c : Dev nD) (t : Fin cfg1.N) : sProp 𝕄 :=
  iprop((dat1 V q c).Φ t.succ ∗ (dat1 V q c).owesAt () t.succ
    ∗ (dat1 V q c).leavesExact 0 t ∗ (dat1 V q c).leavesExact 1 t ∗ (dat1 V q c).leavesExact 2 t ∗ (dat1 V q c).leavesExact 3 t ∗ (dat1 V q c).leavesExact 4 t)

set_option maxHeartbeats 4000000 in
/-- The body at any point. The inputs' buffers hold their blocks; the point's column block k = t mod 8 says which of
    the three cases runs; the invariant hands the body the accumulator at what the point before left (at anything
    where the case resets it) and takes it back at this point's; off the last column block the output's buffer goes
    back as it came. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3]
  rw [show (dat1 V q c).owesAt () t.succ = (dat1 V q c).owesAt () t.castSucc from rfl]
  rw [show (dat1 V q c).Φ t.succ = PhiS1 V c (t.val + 1) t.isLt from rfl, PhiS1_succ]
  have hN : t.val < 64 := lt_of_lt_of_eq t.isLt (show cfg1.N = 64 from N_1)
  by_cases h0 : t.val % 8 = 0
  · have hc0 : cond1_0 (grid1.coords t) := (hcond1_0 t).mpr h0
    have hc1 : ¬cond1_1 (grid1.coords t) := fun h => by have := (hcond1_1 t).mp h; omega
    rw [show (dat1 V q c).leavesExact 0 t = owns (c : Thread nD τ) (ms1_0 t) fullShare ((dat1 V q c).after 0 t) from by
      unfold Dat.leavesExact; rw [liveAt1_0 t], after1_0]
    rw [show (dat1 V q c).leavesExact 1 t = owns (c : Thread nD τ) (ms1_1 t) fullShare ((dat1 V q c).after 1 t) from by
      unfold Dat.leavesExact; rw [liveAt1_1 t], after1_1]
    rw [show (dat1 V q c).leavesExact 2 t = owns (c : Thread nD τ) (ms1_2 t) fullShare ((dat1 V q c).after 2 t) from by
      unfold Dat.leavesExact; rw [liveAt1_2 t], after1_2]
    rw [show (dat1 V q c).leavesExact 3 t = owns (c : Thread nD τ) (ms1_3 t) fullShare ((dat1 V q c).after 3 t) from by
      unfold Dat.leavesExact; rw [liveAt1_3 t], after1_3]
    rw [Dat.leavesExact_idle (dat1 V q c) 4 t (idleAt1_4 t hc1) (noFlush1_4 t hc1)]
    rw [acc1_first V c t h0]
    by_cases hz : t.val = 0
    · rw [Phi1_castSucc V q c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩⟩
      iapply (run1_A c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) ((dat1 V q c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [Phi1_castSucc V q c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run1_A c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) ((dat1 V q c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hc0 : ¬cond1_0 (grid1.coords t) := fun h => h0 ((hcond1_0 t).mp h)
    have hz : t.val ≠ 0 := fun e => h0 (by rw [e])
    by_cases h1 : t.val % 8 = 7
    · have hc1 : cond1_1 (grid1.coords t) := (hcond1_1 t).mpr h1
      rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [show (dat1 V q c).leavesExact 4 t = owns (c : Thread nD τ) (ms1_4 t) fullShare ((dat1 V q c).after 4 t) from by
        unfold Dat.leavesExact; rw [liveAt1_4 t hc1], after1_4]
      unfold out1
      rw [acc1_next V c t h0]
      rw [Phi1_castSucc V q c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run1_C c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [Dat.leavesExact_idle (dat1 V q c) 4 t (idleAt1_4 t hc1) (noFlush1_4 t hc1)]
      rw [acc1_next V c t h0]
      rw [Phi1_castSucc V q c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run1_B c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) ((dat1 V q c).before 4 t d4) (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation for region 1, at every point, at whatever shares the input arrays are held. -/
theorem body_obligation1 (q : Fin cfg1.W → PosShare TreeShare) (c : Dev nD) :
    BodyObligation (dat1 (F := F) V q c) (defs₀ (F := F)) Variants.none () Set.univ := fun t => by
  rw [bigSep_W1, bigSep_W1]
  exact sound_body1 V q c t

end Cert.Kernel.H
end
-- ==== Proof.K.R2.lean ====
/- REGION 2 of @main (custom_call 2, the combine kernel, 8 grid points), the body half of its frame proof, at the
   region-entry contents `V`: each window's block at a point, what the body leaves in the output block (three products of a
   [1024,128] slab of the input block with a [128,128] weight, both factors of each rounded to bf16 first, summed in f32,
   plus the broadcast bias row), the body's triple,
   the pipeline's proof data and the body obligation at every point. -/
import proofs.«138934_j78142634983584_1_alg».proof.Proof.Gen.Kernel.Launch
import proofs.«138934_j78142634983584_1_alg».proof.Proof.Gen.Kernel.Skeleton
import proofs.«138934_j78142634983584_1_alg».proof.Proof.Gen.Kernel.Points
import proofs.«138934_j78142634983584_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses

The input block is three [1024,128] slabs, the weights three [128,128] matrices; the body reads slab `j` and matrix
`j` for `j = 0, 1, 2`, then the whole bias row, and stores the whole output block once. -/

abbrev r2_Y0 : Rect S3x1024x128 := Rect.unit (s := S3x1024x128) ![0, 0, 0] S1x1024x128.size inb_S3x1024x128_S1x1024x128_0_0_0
abbrev r2_W0 : Rect S3x128x128 := Rect.unit (s := S3x128x128) ![0, 0, 0] S1x128x128.size inb_S3x128x128_S1x128x128_0_0_0
abbrev r2_Y1 : Rect S3x1024x128 := Rect.unit (s := S3x1024x128) ![1, 0, 0] S1x1024x128.size inb_S3x1024x128_S1x1024x128_1_0_0
abbrev r2_W1 : Rect S3x128x128 := Rect.unit (s := S3x128x128) ![1, 0, 0] S1x128x128.size inb_S3x128x128_S1x128x128_1_0_0
abbrev r2_Y2 : Rect S3x1024x128 := Rect.unit (s := S3x1024x128) ![2, 0, 0] S1x1024x128.size inb_S3x1024x128_S1x1024x128_2_0_0
abbrev r2_W2 : Rect S3x128x128 := Rect.unit (s := S3x128x128) ![2, 0, 0] S1x128x128.size inb_S3x128x128_S1x128x128_2_0_0
abbrev r2_B : Rect S1x128 := Rect.unit (s := S1x128) ![0, 0] S1x128.size inb_S1x128_S1x128_0_0
abbrev r2_O : Rect S1024x128 := Rect.unit (s := S1024x128) ![0, 0] S1024x128.size inb_S1024x128_S1024x128_0_0

/-! ## What the body leaves in the output window's buffer -/

/-- The output block after the body, from the three input blocks: its one store, of the whole block, whose payload is
    the sum of the three slab-times-matrix products (the factors of each rounded to bf16 first) plus the bias row,
    computed from the seven loads. -/
def out2 (xY : Vec F S3x1024x128 .f32) (xW : Vec F S3x128x128 .f32) (xB : Vec F S1x128 .f32) : Vec F S1024x128 .f32 :=
  View.canon [⟨r2_O, k2_pay1 (View.ld xY r2_Y0) (View.ld xW r2_W0) (View.ld xY r2_Y1) (View.ld xW r2_W1)
    (View.ld xY r2_Y2) (View.ld xW r2_W2) (View.ld xB r2_B)⟩]

/-- The one store is of the whole block, so it covers it. -/
theorem cover2 (p0 : Vec F S1024x128 .f32) (y : S1024x128.Idx) :
    ∃ pc ∈ ([⟨r2_O, p0⟩] : List (View.Piece (Elt F) S1024x128 .f32)), y ∈ pc.1.set :=
  View.cover_of_tiled [⟨r2_O, p0⟩] S1024x128.size (by rfl) y

/-! ## The body's triple -/

set_option maxHeartbeats 4000000 in
/-- The kernel body on whole staging memrefs, the three inputs' at read contents `xY`, `xW`, `xB` and the output's at
    anything, runs to the continuation holding the inputs' as they were and the output's at `out2` of them: seven loads
    of the inputs, a load of the output block whose value is not used, and the one store of the whole block. -/
theorem sound_kernel2 (c : Dev nD) (E : Set ℕ) (i : grid2.Coords)
    (arg1 : Memref sig .tc .vmem S3x1024x128 .f32) (harg1 : arg1.IsWhole) (arg2 : Memref sig .tc .vmem S3x128x128 .f32) (harg2 : arg2.IsWhole)
    (arg3 : Memref sig .tc .vmem S1x128 .f32) (harg3 : arg3.IsWhole) (arg4 : Memref sig .tc .vmem S1024x128 .f32) (harg4 : arg4.IsWhole)
    (xY : Vec F S3x1024x128 .f32) (xW : Vec F S3x128x128 .f32) (xB : Vec F S1x128 .f32) (K : PUnit → sProp 𝕄) :
    iprop(owns (c : Thread nD τ) arg1 fullShare xY ∗ owns (c : Thread nD τ) arg2 fullShare xW ∗ owns (c : Thread nD τ) arg3 fullShare xB
        ∗ (∃ d, owns (c : Thread nD τ) arg4 fullShare d)
        ∗ (iprop(owns (c : Thread nD τ) arg1 fullShare xY ∗ owns (c : Thread nD τ) arg2 fullShare xW ∗ owns (c : Thread nD τ) arg3 fullShare xB
            ∗ owns (c : Thread nD τ) arg4 fullShare (out2 xY xW xB)) -∗ K ⟨⟩))
      ⊢ wp frame (wpE (defs₀ (F := F)) Variants.none c none) E (cc2__combine_kernel i arg1 harg1 arg2 harg2 arg3 harg3 arg4 harg4) K := by
  simp only [cc2__combine_kernel_eq_skeleton]; unfold cc2__combine_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-! ## The pipeline's proof data -/

/-- The proof data of the region's pipeline on core `c`: the arrays as the region finds them (`V`); after the body at
    point `t` each input's buffer at its block and the output's at `out2` of the three input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

/-- Each input's current staging buffer holds its block at every point, fetched there or not: an input the body leaves
    in place, at a point that does not fetch it, has the block index of the point before, so the buffer's contents — the
    previous point's block — are this point's block. Window 0 is fetched at every point; windows 1 and 2 at the first
    only, their block index constant. All three are uncut and never idle. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-! ## The body obligation, at a generic point -/

/-- What the body is called with at point `t`: the invariant, what the core owes, and each window's current staging
    buffer at what it then holds, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the three inputs' buffers hold their blocks (`before2_W`), the output's anything, so the
    body's triple applies; the invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.H

end
-- ==== Proof.K.Assemble.lean ====
/- THE RUN OF @main THROUGH ITS THREE REGIONS, against abstract per-region proof data.

   @main is eight items: three host stretches, region 0 (custom_call 0), a host stretch, region 1 (custom_call 1), a host
   stretch, region 2 (custom_call 2). Given, for each region, a family of proof data built over the contents of the
   TensorCores' buffers at the region's entry, with its arrays starting at those contents, its invariant at both ends the
   class invariant, nothing owed, and the kernel's body obligation (`RegionData`), this file proves `run_main`: every
   weakly fair execution of @main terminates, the result buffer `main_v39` ends holding what region 2's pipeline leaves in
   it, and every argument ends as launched.

   What is particular to this program: in regions 0 and 1 windows 2 and 3 are blocks of ONE array (`main_v26`), so the
   five windows stand on four buffers. At a region's entry the core holds each of the four whole; the pipeline wants one
   points-to per window, so the shared buffer is cut into the two halves of the full share (`q01`), one per window, and at
   the exit the halves are joined again (§ Region0, § Region1: the same text on other buffers). Region 2's four windows
   stand on four distinct buffers and the library's lemmas for that case apply.

   The regions' outputs, which the generated valuations `V0 … V8` leave unknown, are computed in @main's order (`X0 X1 X2`,
   `outs`), each from proof data over the contents the region is entered from. -/
import proofs.«138934_j78142634983584_1_alg».proof.Proof.Gen.Kernel.Launch
import proofs.«138934_j78142634983584_1_alg».proof.Proof.Gen.Kernel.Skeleton
import proofs.«138934_j78142634983584_1_alg».proof.Proof.Gen.Kernel.Points
import proofs.«138934_j78142634983584_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The shares regions 0 and 1 hold their input windows' arrays at: windows 2 and 3 read blocks of ONE array, so each
    holds one half of it; every other array is held whole. -/
def q01 : Fin 5 → PosShare TreeShare := fun w => if w = 2 then fullShare.left else if w = 3 then fullShare.right else fullShare

section Region0

variable (c : Dev nD) (dat : Dat τ (Elt F) Unit ℕ (UR sig nD τ) ℕ cfg0 c) (hq : dat.q = q01)

include hq in
/-- The share region 0's proof data hold each window's array at. -/
theorem share0 : dat.share 0 = fullShare ∧ dat.share 1 = fullShare ∧ dat.share 2 = fullShare.left
    ∧ dat.share 3 = fullShare.right ∧ dat.share 4 = fullShare := by
  unfold Dat.share; rw [hq]; exact ⟨rfl, rfl, rfl, rfl, rfl⟩

/-- Every window's array of region 0 is a whole buffer: its element set is all of it. -/
theorem set0 (w : Fin cfg0.W) : (cfg0.win w).arr.view.set = Finset.univ := (arr_whole0 w).set_eq_univ

set_option maxHeartbeats 2000000 in
/-- The distinct buffers behind region 0's five windows are four: the matrix, the vector block, the one buffer windows
    2 and 3 both read, and the output. -/
theorem arrBufs0_eq (V : (b : Ref sig .tc) → Buf (Elt F) ((c : Thread nD τ).loc b)) :
    (Pipeline.arrBufs spec0 c V : sProp 𝕄)
      = iprop(((c : Thread nD τ).loc main_v19 ↦{fullShare} V main_v19) ∗ ((c : Thread nD τ).loc main_arg0 ↦{fullShare} V main_arg0)
          ∗ ((c : Thread nD τ).loc main_v26 ↦{fullShare} V main_v26) ∗ ((c : Thread nD τ).loc main_v27 ↦{fullShare} V main_v27)) := by
  unfold Pipeline.arrBufs
  rw [show (Finset.univ.image (Pipeline.arrRef spec0) : Finset (Ref sig .tc)) = {main_v19, main_arg0, main_v26, main_v27} from by decide,
    bigSep_insert (by decide), bigSep_insert (by decide), bigSep_insert (by decide), bigSep_singleton]
  rfl

set_option maxHeartbeats 2000000 in
include hq in
/-- Region 0's windowed arrays at contents that are a valuation's (`hG`): the five windows' points-tos, the buffer
    windows 2 and 3 share held in its two halves. -/
theorem arrays0_eq (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (dat.arrays G : sProp 𝕄)
      = iprop(((c : Thread nD τ).loc main_v19 ↦{fullShare} V main_v19) ∗ ((c : Thread nD τ).loc main_arg0 ↦{fullShare} V main_arg0)
          ∗ ((c : Thread nD τ).loc main_v26 ↦{fullShare.left} V main_v26) ∗ ((c : Thread nD τ).loc main_v26 ↦{fullShare.right} V main_v26)
          ∗ ((c : Thread nD τ).loc main_v27 ↦{fullShare} V main_v27)) := by
  obtain ⟨s0, s1, s2, s3, s4⟩ := share0 c dat hq
  unfold Dat.arrays
  rw [bigSep_W0, set0 0, set0 1, set0 2, set0 4, s0, s1, s2, s3, s4, hG 0, hG 1, hG 2, hG 3, hG 4]

include hq in
/-- The four distinct buffers behind the five windows, each held whole, are the windows' arrays at the proof data's
    shares: the buffer windows 2 and 3 share is cut into its two halves. -/
theorem arrays0_of_arrBufs (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (Pipeline.arrBufs spec0 c V : sProp 𝕄) ⊢ dat.arrays G := by
  rw [arrBufs0_eq c V, arrays0_eq c dat hq V G hG]
  iintro ⟨H19, Ha0, H26, H27⟩
  ihave H := (pointsTo_share (PosShare.mem_left_op_right fullShare)).1 $$ H26
  icases H with ⟨Hl, Hr⟩
  isplitl [H19]; · iexact H19
  isplitl [Ha0]; · iexact Ha0
  isplitl [Hl]; · iexact Hl
  isplitl [Hr]; · iexact Hr
  iexact H27

include hq in
/-- The windows' arrays at the proof data's shares are the four distinct buffers behind them, each held whole: the
    two halves of the buffer windows 2 and 3 share joined again. -/
theorem arrBufs_of_arrays0 (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    dat.arrays G ⊢ (Pipeline.arrBufs spec0 c V : sProp 𝕄) := by
  rw [arrBufs0_eq c V, arrays0_eq c dat hq V G hG]
  iintro ⟨H19, Ha0, Hl, Hr, H27⟩
  isplitl [H19]; · iexact H19
  isplitl [Ha0]; · iexact Ha0
  isplitl [Hl Hr]
  · iapply (pointsTo_share (PosShare.mem_left_op_right fullShare)).2
    isplitl [Hl]; · iexact Hl
    iexact Hr
  iexact H27

include hq in
/-- ENTRY of region 0, the arrays' part: a core's unscoped buffers at contents `V` are the region's arrays at the proof
    data's entry contents — those being read off `V` (`hA`) — and the unscoped rest. -/
theorem arrays0_of_unscopedBufs (V : (b : Ref sig .tc) → Buf (Elt F) ((c : Thread nD τ).loc b))
    (hA : ∀ w, dat.A w = V (Pipeline.arrRef spec0 w)) :
    (unscopedBufs c V : sProp 𝕄) ⊢ iprop(dat.arrays (dat.arrAt · 0) ∗ Pipeline.unscopedRest spec0 c V) := by
  have hsplit : (unscopedBufs c V : sProp 𝕄) = iprop(Pipeline.arrBufs spec0 c V ∗ Pipeline.unscopedRest spec0 c V) :=
    Pipeline.unscopedBufs_split₀ cfgs 0 winFacts₀0.arr_unscoped c V
  rw [hsplit]
  exact sep_mono (arrays0_of_arrBufs c dat hq V _ hA) .rfl

include hq in
/-- EXIT of region 0, the arrays' part: the region's arrays at contents `G` and the unscoped rest at `V` are the core's
    unscoped buffers at any valuation `V'` that has the arrays at `G` and agrees with `V` off them. -/
theorem unscopedBufs_of_arrays0 (V V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w))
    (hrest : ∀ b, b ∉ Finset.univ.image (Pipeline.arrRef spec0) → V' b = V b) :
    iprop(dat.arrays G ∗ Pipeline.unscopedRest spec0 c V) ⊢ (unscopedBufs c V' : sProp 𝕄) := by
  have hsplit : (unscopedBufs c V' : sProp 𝕄) = iprop(Pipeline.arrBufs spec0 c V' ∗ Pipeline.unscopedRest spec0 c V') :=
    Pipeline.unscopedBufs_split₀ cfgs 0 winFacts₀0.arr_unscoped c V'
  rw [hsplit]
  refine sep_mono (arrBufs_of_arrays0 c dat hq V' G hG) (Entails.of_eq ?_)
  unfold Pipeline.unscopedRest
  exact bigSep_congr fun b hb => by rw [hrest b (Finset.mem_sdiff.mp hb).2]

end Region0

section Region1

variable (c : Dev nD) (dat : Dat τ (Elt F) Unit ℕ (UR sig nD τ) ℕ cfg1 c) (hq : dat.q = q01)

include hq in
/-- The share region 1's proof data hold each window's array at. -/
theorem share1 : dat.share 0 = fullShare ∧ dat.share 1 = fullShare ∧ dat.share 2 = fullShare.left
    ∧ dat.share 3 = fullShare.right ∧ dat.share 4 = fullShare := by
  unfold Dat.share; rw [hq]; exact ⟨rfl, rfl, rfl, rfl, rfl⟩

/-- Every window's array of region 1 is a whole buffer: its element set is all of it. -/
theorem set1 (w : Fin cfg1.W) : (cfg1.win w).arr.view.set = Finset.univ := (arr_whole1 w).set_eq_univ

set_option maxHeartbeats 2000000 in
/-- The distinct buffers behind region 1's five windows are four: the matrix, the vector block, the one buffer windows
    2 and 3 both read, and the output. -/
theorem arrBufs1_eq (V : (b : Ref sig .tc) → Buf (Elt F) ((c : Thread nD τ).loc b)) :
    (Pipeline.arrBufs spec1 c V : sProp 𝕄)
      = iprop(((c : Thread nD τ).loc main_v19 ↦{fullShare} V main_v19) ∗ ((c : Thread nD τ).loc main_v28 ↦{fullShare} V main_v28)
          ∗ ((c : Thread nD τ).loc main_v26 ↦{fullShare} V main_v26) ∗ ((c : Thread nD τ).loc main_v29 ↦{fullShare} V main_v29)) := by
  unfold Pipeline.arrBufs
  rw [show (Finset.univ.image (Pipeline.arrRef spec1) : Finset (Ref sig .tc)) = {main_v19, main_v28, main_v26, main_v29} from by decide,
    bigSep_insert (by decide), bigSep_insert (by decide), bigSep_insert (by decide), bigSep_singleton]
  rfl

set_option maxHeartbeats 2000000 in
include hq in
/-- Region 1's windowed arrays at contents that are a valuation's (`hG`): the five windows' points-tos, the buffer
    windows 2 and 3 share held in its two halves. -/
theorem arrays1_eq (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (dat.arrays G : sProp 𝕄)
      = iprop(((c : Thread nD τ).loc main_v19 ↦{fullShare} V main_v19) ∗ ((c : Thread nD τ).loc main_v28 ↦{fullShare} V main_v28)
          ∗ ((c : Thread nD τ).loc main_v26 ↦{fullShare.left} V main_v26) ∗ ((c : Thread nD τ).loc main_v26 ↦{fullShare.right} V main_v26)
          ∗ ((c : Thread nD τ).loc main_v29 ↦{fullShare} V main_v29)) := by
  obtain ⟨s0, s1, s2, s3, s4⟩ := share1 c dat hq
  unfold Dat.arrays
  rw [bigSep_W1, set1 0, set1 1, set1 2, set1 4, s0, s1, s2, s3, s4, hG 0, hG 1, hG 2, hG 3, hG 4]

include hq in
/-- The four distinct buffers behind the five windows, each held whole, are the windows' arrays at the proof data's
    shares: the buffer windows 2 and 3 share is cut into its two halves. -/
theorem arrays1_of_arrBufs (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs spec1 c V : sProp 𝕄) ⊢ dat.arrays G := by
  rw [arrBufs1_eq c V, arrays1_eq c dat hq V G hG]
  iintro ⟨H19, Hv28, H26, H27⟩
  ihave H := (pointsTo_share (PosShare.mem_left_op_right fullShare)).1 $$ H26
  icases H with ⟨Hl, Hr⟩
  isplitl [H19]; · iexact H19
  isplitl [Hv28]; · iexact Hv28
  isplitl [Hl]; · iexact Hl
  isplitl [Hr]; · iexact Hr
  iexact H27

include hq in
/-- The windows' arrays at the proof data's shares are the four distinct buffers behind them, each held whole: the
    two halves of the buffer windows 2 and 3 share joined again. -/
theorem arrBufs_of_arrays1 (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    dat.arrays G ⊢ (Pipeline.arrBufs spec1 c V : sProp 𝕄) := by
  rw [arrBufs1_eq c V, arrays1_eq c dat hq V G hG]
  iintro ⟨H19, Hv28, Hl, Hr, H27⟩
  isplitl [H19]; · iexact H19
  isplitl [Hv28]; · iexact Hv28
  isplitl [Hl Hr]
  · iapply (pointsTo_share (PosShare.mem_left_op_right fullShare)).2
    isplitl [Hl]; · iexact Hl
    iexact Hr
  iexact H27

include hq in
/-- ENTRY of region 1, the arrays' part: a core's unscoped buffers at contents `V` are the region's arrays at the proof
    data's entry contents — those being read off `V` (`hA`) — and the unscoped rest. -/
theorem arrays1_of_unscopedBufs (V : (b : Ref sig .tc) → Buf (Elt F) ((c : Thread nD τ).loc b))
    (hA : ∀ w, dat.A w = V (Pipeline.arrRef spec1 w)) :
    (unscopedBufs c V : sProp 𝕄) ⊢ iprop(dat.arrays (dat.arrAt · 0) ∗ Pipeline.unscopedRest spec1 c V) := by
  have hsplit : (unscopedBufs c V : sProp 𝕄) = iprop(Pipeline.arrBufs spec1 c V ∗ Pipeline.unscopedRest spec1 c V) :=
    Pipeline.unscopedBufs_split₀ cfgs 1 winFacts₀1.arr_unscoped c V
  rw [hsplit]
  exact sep_mono (arrays1_of_arrBufs c dat hq V _ hA) .rfl

include hq in
/-- EXIT of region 1, the arrays' part: the region's arrays at contents `G` and the unscoped rest at `V` are the core's
    unscoped buffers at any valuation `V'` that has the arrays at `G` and agrees with `V` off them. -/
theorem unscopedBufs_of_arrays1 (V V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  have hsplit : (unscopedBufs c V' : sProp 𝕄) = iprop(Pipeline.arrBufs spec1 c V' ∗ Pipeline.unscopedRest spec1 c V') :=
    Pipeline.unscopedBufs_split₀ cfgs 1 winFacts₀1.arr_unscoped c V'
  rw [hsplit]
  refine sep_mono (arrBufs_of_arrays1 c dat hq V' G hG) (Entails.of_eq ?_)
  unfold Pipeline.unscopedRest
  exact bigSep_congr fun b hb => by rw [hrest b (Finset.mem_sdiff.mp hb).2]

end Region1

/-- The contents of the TensorCores' buffers, core by core: what a region's proof data are built over. -/
abbrev TcBufs (F : FTy → Type) : Type := (c : Dev nD) → (b : Ref sig .tc) → Buf (Elt F) ((c : Thread nD τ).loc b)

/-- The three regions' proof data with what the run needs of them, and nothing else: each family is built over the
    contents of the TensorCores' buffers at the region's entry (regions 0 and 1 also over the shares of their input
    arrays); its arrays start at those contents; its invariant at the two ends is the class invariant (the scoped buffers
    no window stages and the generator register); it owes nothing, assumes nothing of the recorded pairs at entry; and
    the kernel's body meets its obligation. -/
structure RegionData (F : FTy → Type) [FloatOps F] where
  dat0 : TcBufs F → (Fin cfg0.W → PosShare TreeShare) → (c : Dev nD) → Dat τ (Elt F) Unit ℕ (UR sig nD τ) ℕ cfg0 c
  dat1 : TcBufs F → (Fin cfg1.W → PosShare TreeShare) → (c : Dev nD) → Dat τ (Elt F) Unit ℕ (UR sig nD τ) ℕ cfg1 c
  dat2 : TcBufs F → (c : Dev nD) → Dat τ (Elt F) Unit ℕ (UR sig nD τ) ℕ cfg2 c
  hA0 : ∀ V q c w, (dat0 V q c).A w = V c (Pipeline.arrRef spec0 w)
  hA1 : ∀ V q c w, (dat1 V q c).A w = V c (Pipeline.arrRef spec1 w)
  hA2 : ∀ V c w, (dat2 V c).A w = V c (Pipeline.arrRef spec2 w)
  hq0 : ∀ V q c, (dat0 V q c).q = q
  hq1 : ∀ V q c, (dat1 V q c).q = q
  hq2 : ∀ V c w, (dat2 V c).q w = fullShare
  hΦ0z : ∀ V q c, (dat0 V q c).Φ 0 = Pipeline.ΦA spec0 c
  hΦ0l : ∀ V q c, (dat0 V q c).Φ (Fin.last cfg0.N) ⊢ Pipeline.ΦA spec0 c
  hΦ1z : ∀ V q c, (dat1 V q c).Φ 0 = Pipeline.ΦA spec1 c
  hΦ1l : ∀ V q c, (dat1 V q c).Φ (Fin.last cfg1.N) ⊢ Pipeline.ΦA spec1 c
  hΦ2z : ∀ V c, (dat2 V c).Φ 0 = Pipeline.ΦA spec2 c
  hΦ2l : ∀ V c, (dat2 V c).Φ (Fin.last cfg2.N) ⊢ Pipeline.ΦA spec2 c
  howed0 : ∀ V q c t, (dat0 V q c).owed t = 0
  howed1 : ∀ V q c t, (dat1 V q c).owed t = 0
  howed2 : ∀ V c t, (dat2 V c).owed t = 0
  hrec0 : ∀ V q c, (dat0 V q c).recorded 0 = Set.univ
  hrec1 : ∀ V q c, (dat1 V q c).recorded 0 = Set.univ
  hrec2 : ∀ V c, (dat2 V c).recorded 0 = Set.univ
  hbody0 : ∀ V q c, BodyObligation (dat0 V q c) (defs₀ (F := F)) Variants.none () Set.univ
  hbody1 : ∀ V q c, BodyObligation (dat1 V q c) (defs₀ (F := F)) Variants.none () Set.univ
  hbody2 : ∀ V c, BodyObligation (dat2 V c) (defs₀ (F := F)) Variants.none () Set.univ

section Run

variable (D : RegionData F) (m : (ℓ : Loc nD τ sig) → Buf (Elt F) ℓ)

/-! ## The buffers' contents between items, the regions' outputs computed

The generated valuations `V0 … V8` are written over unknown region outputs. Here the unknowns are computed, in @main's
order: each region's output array holds what its pipeline's write-backs leave (`Dat.arrAt` at the last point), its
proof data built over the contents the region is entered from. -/

/-- Region 0 is entered from the launch contents after the first three host stretches. -/
abbrev Vent0 : TcBufs F := fun c b => V3 m c b
/-- What region 0 leaves in its output array `main_v27`. -/
def X0 (c : Dev nD) : Buf (Elt F) ((c : Thread nD τ).loc main_v27) := (D.dat0 (Vent0 m) q01 c).arrAt 4 cfg0.N
/-- The buffers after region 0, -/
abbrev U4 (c : Dev nD) : Valuation τ sig (Elt F) := Function.update (V3 m c) main_v27 (X0 D m c)
/-- and after the host stretch that follows it: what region 1 is entered from. -/
abbrev U5 (c : Dev nD) : Valuation τ sig (Elt F) := StableHlo.after hostOps1 (U4 D m c)
abbrev Vent1 : TcBufs F := fun c b => U5 D m c b
/-- What region 1 leaves in its output array `main_v29`. -/
def X1 (c : Dev nD) : Buf (Elt F) ((c : Thread nD τ).loc main_v29) := (D.dat1 (Vent1 D m) q01 c).arrAt 4 cfg1.N
/-- The buffers after region 1, -/
abbrev U6 (c : Dev nD) : Valuation τ sig (Elt F) := Function.update (U5 D m c) main_v29 (X1 D m c)
/-- and after the host stretch that follows it: what region 2 is entered from. -/
abbrev U7 (c : Dev nD) : Valuation τ sig (Elt F) := StableHlo.after hostOps2 (U6 D m c)
abbrev Vent2 : TcBufs F := fun c b => U7 D m c b
/-- What region 2 leaves in its output array `main_v39`: the program's result. -/
def X2 (c : Dev nD) : Buf (Elt F) ((c : Thread nD τ).loc main_v39) := (D.dat2 (Vent2 D m) c).arrAt 3 cfg2.N
/-- The buffers after region 2, at the return. -/
abbrev U8 (c : Dev nD) : Valuation τ sig (Elt F) := Function.update (U7 D m c) main_v39 (X2 D m c)

/-- The regions' outputs as the generated valuations read them: after item `J - 1` the buffers hold `U J`. -/
def outs : Outs (F := F) := fun J r c => if J = 4 then U4 D m c r else if J = 6 then U6 D m c r else U8 D m c r

theorem outs_4 (c : Dev nD) : outs D m 4 main_v27 c = X0 D m c := by
  show U4 D m c main_v27 = _
  exact Function.update_self _ _ _
theorem outs_6 (c : Dev nD) : outs D m 6 main_v29 c = X1 D m c := by
  show U6 D m c main_v29 = _
  exact Function.update_self _ _ _
theorem outs_8 (c : Dev nD) : outs D m 8 main_v39 c = X2 D m c := by
  show U8 D m c main_v39 = _
  exact Function.update_self _ _ _

/-- With the outputs so computed the generated valuations are the ones above. -/
theorem V4_eq (c : Dev nD) : V4 m (outs D m) c = U4 D m c := by
  show Function.update (V3 m c) main_v27 (outs D m 4 main_v27 c) = _
  rw [outs_4]
theorem V5_eq (c : Dev nD) : V5 m (outs D m) c = U5 D m c := congrArg (StableHlo.after hostOps1) (V4_eq D m c)
theorem V6_eq (c : Dev nD) : V6 m (outs D m) c = U6 D m c := by
  show Function.update (V5 m (outs D m) c) main_v29 (outs D m 6 main_v29 c) = _
  rw [outs_6, V5_eq]
theorem V7_eq (c : Dev nD) : V7 m (outs D m) c = U7 D m c := congrArg (StableHlo.after hostOps2) (V6_eq D m c)
theorem V8_eq (c : Dev nD) : V8 m (outs D m) c = U8 D m c := by
  show Function.update (V7 m (outs D m) c) main_v39 (outs D m 8 main_v39 c) = _
  rw [outs_8, V7_eq]

/-! ## The proof data family, and what rides beside the buffers -/

/-- Every pipeline's proof data, each built over the contents its region is entered from — a literal match on the
    pipeline's index, so that at a numeral it reduces to that region's data over that region's configuration. -/
def pdats : (p : Fin 3) → (c : Dev nD) → Dat τ (Elt F) Unit ℕ (UR sig nD τ) ℕ (cfgs p) c
  | ⟨0, _⟩ => fun c => D.dat0 (Vent0 m) q01 c
  | ⟨1, _⟩ => fun c => D.dat1 (Vent1 D m) q01 c
  | ⟨2, _⟩ => fun c => D.dat2 (Vent2 D m) c

/-- No core owes another anything: no level is assigned. -/
abbrev noL : GSem nD τ sig → Finset Unit := fun _ => ∅
abbrev nolv : GSem nD τ sig → Unit → ℕ := fun _ _ => 0

/-- What rides beside the buffers through every item: the core's generator register at some state (a region's
    invariant takes it in and gives it back) and the core owing nothing. -/
abbrev Ride (c : Dev nD) : sProp 𝕄 := iprop((∃ r, prngReg c r) ∗ ∃ W, owes (c : Thread nD τ) (0 : CellTallies nD τ sig Unit) W)

/-- A core that owes nothing enters a pipeline whose proof data owe nothing and bound the recorded pairs by nothing. -/
theorem owesAt_of_owes {cfg : Cfg sig Λ₀} (c : Dev nD) (dat : Dat τ (Elt F) Unit ℕ (UR sig nD τ) ℕ cfg c)
    (howed : dat.owed 0 = 0) (hrec : dat.recorded 0 = Set.univ) :
    (iprop(∃ W, owes (c : Thread nD τ) (0 : CellTallies nD τ sig Unit) W) : sProp 𝕄) ⊢ dat.owesAt () 0 := by
  unfold Dat.owesAt Pipeline.owesWithin Dat.bound
  rw [howed, hrec]
  iintro ⟨%W, HO⟩
  iexists W
  isplitr; · ipureintro; exact fun _ _ => Or.inl trivial
  iexact HO

/-- and leaves it owing nothing. -/
theorem owes_of_owesAt {cfg : Cfg sig Λ₀} (c : Dev nD) (dat : Dat τ (Elt F) Unit ℕ (UR sig nD τ) ℕ cfg c)
    (howed : dat.owed (Fin.last cfg.N) = 0) :
    dat.owesAt () (Fin.last cfg.N) ⊢ (iprop(∃ W, owes (c : Thread nD τ) (0 : CellTallies nD τ sig Unit) W) : sProp 𝕄) := by
  unfold Dat.owesAt Pipeline.owesWithin
  rw [howed]
  iintro ⟨%W, -, HO⟩
  iexists W
  iexact HO

/-! ## Region 2: four windows on four distinct arrays -/

/-- At region 2's exit each of its arrays holds what the valuation after it says: the output what the pipeline leaves,
    an input — never written — what the region was entered from. -/
theorem hF2 (c : Dev nD) : ∀ w : Fin 4, (D.dat2 (Vent2 D m) c).arrAt w cfg2.N = U8 D m c (Pipeline.arrRef spec2 w)
  | 0 => ((D.dat2 (Vent2 D m) c).arrAt_in 0 rfl _).trans ((D.hA2 _ c 0).trans (Function.update_of_ne (StableHlo.devRef_ne_of_ne (by decide)) _ _).symm)
  | 1 => ((D.dat2 (Vent2 D m) c).arrAt_in 1 rfl _).trans ((D.hA2 _ c 1).trans (Function.update_of_ne (StableHlo.devRef_ne_of_ne (by decide)) _ _).symm)
  | 2 => ((D.dat2 (Vent2 D m) c).arrAt_in 2 rfl _).trans ((D.hA2 _ c 2).trans (Function.update_of_ne (StableHlo.devRef_ne_of_ne (by decide)) _ _).symm)
  | 3 => by
    show X2 D m c = Function.update (U7 D m c) main_v39 (X2 D m c) main_v39
    rw [Function.update_self]
  | ⟨_ + 4, h⟩ => absurd h (Nat.not_lt.2 (Nat.le_add_left _ _))
/-- Off region 2's arrays nothing changes. -/
theorem hrest2 (c : Dev nD) (b : Ref sig .tc) (hb : b ∉ Finset.univ.image (Pipeline.arrRef spec2)) : U8 D m c b = U7 D m c b :=
  Function.update_of_ne (StableHlo.devRef_ne_of_ne (x := b) (y := main_v39) (by rintro rfl; exact hb (by decide))) _ _

set_option backward.isDefEq.respectTransparency.types false in
/-- REGION 2 (custom_call 2) over the thread state: entered from every unscoped buffer at `V7`, left at `V8`. Its four
    arrays are distinct buffers: they split out of the unscoped buffers and go back at the exit contents; the generator
    register goes into the class invariant and comes out; nothing is owed; the kernel has no semaphore of its own. -/
def reg2 : Pipeline.RegionSeg (pcfgs (F := F)) adm (pdats D m) () defs₀ Variants.none noL nolv 2 where
  win := winFacts2.to₀
  block_pos := block_pos2
  stage_whole := stage_whole2
  K := PEmpty
  osem k := k.elim
  ho := Pipeline.OwnSemFacts.none _
  hbody c := (D.hbody2 (Vent2 D m) c).loose
  hwaits := Pipeline.hwaits_of_owed_zero _ _ _ _ noL nolv 2 fun c t => D.howed2 _ c t
  pre c := iprop(StableHlo.held (c : Thread nD τ) (Pipeline.ucRefs τ sig) (V7 m (outs D m) c) ∗ Ride c)
  post c := iprop(StableHlo.held (c : Thread nD τ) (Pipeline.ucRefs τ sig) (V8 m (outs D m) c) ∗ Ride c)
  X c := iprop(∃ r, prngReg c r)
  Y c := iprop(∃ r, prngReg c r)
  Z c := Pipeline.unscopedRest (Ix := Unit) (Name := ℕ) (U := UR sig nD τ) (Lvl := ℕ) spec2 c (Vent2 D m c)
  hentry c := by
    rw [Pipeline.ownSems0_none, V7_eq D m c]
    have hsplit := Pipeline.arrays_of_unscopedBufs (p := 2) (pcfgs (F := F)) adm (pdats D m) winFacts2 arr_whole2 c
      ((pdats D m 2 c).share_full fun w => D.hq2 _ c w) (Vent2 D m c) fun w => D.hA2 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · iapply (owesAt_of_owes c (pdats D m 2 c) (D.howed2 _ c 0) (D.hrec2 _ c)); iexact HO
    isplitl [Hp]; · iexact Hp
    iexact Hrest
  hin c := by
    rw [show (pdats D m 2 c).Φ 0 = Pipeline.ΦA spec2 c from D.hΦ2z _ c]; unfold Pipeline.ΦA
    iintro ⟨Hp, -, Hr⟩
    isplitl [Hr]; · iexact Hr
    iexact Hp
  hout c := by
    rw [Pipeline.ownSems0_none]
    refine (show (pdats D m 2 c).Φ (Fin.last _) ⊢ Pipeline.ΦA spec2 c from D.hΦ2l _ c).trans ?_
    unfold Pipeline.ΦA
    iintro ⟨Hr, Hp⟩
    isplitl [Hp]; · iexact Hp
    isplitr; · iempintro
    iexact Hr
  hexit c := by
    rw [V8_eq D m c]
    have hjoin := Pipeline.unscopedBufs_of_arrays (p := 2) (pcfgs (F := F)) adm (Ix := Unit) (Name := ℕ) (U := UR sig nD τ) (Lvl := ℕ)
      winFacts2 arr_whole2 c (pdats D m) ((pdats D m 2 c).share_full fun w => D.hq2 _ c w)
      (Vent2 D m c) (fun b => U8 D m c b) ((pdats D m 2 c).arrAt · cfg2.N) (hF2 D m c) (hrest2 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt c (pdats D m 2 c) (D.howed2 _ c _)); iexact HO

/-! ## Region 0: five windows on four buffers -/

/-- At region 0's exit each of its arrays holds what the valuation after it says: the output what the pipeline leaves,
    an input — never written — what the region was entered from. -/
theorem hF0 (c : Dev nD) : ∀ w : Fin 5, (D.dat0 (Vent0 m) q01 c).arrAt w cfg0.N = U4 D m c (Pipeline.arrRef spec0 w)
  | 0 => ((D.dat0 (Vent0 m) q01 c).arrAt_in 0 rfl _).trans ((D.hA0 _ _ c 0).trans (Function.update_of_ne (StableHlo.devRef_ne_of_ne (by decide)) _ _).symm)
  | 1 => ((D.dat0 (Vent0 m) q01 c).arrAt_in 1 rfl _).trans ((D.hA0 _ _ c 1).trans (Function.update_of_ne (StableHlo.devRef_ne_of_ne (by decide)) _ _).symm)
  | 2 => ((D.dat0 (Vent0 m) q01 c).arrAt_in 2 rfl _).trans ((D.hA0 _ _ c 2).trans (Function.update_of_ne (StableHlo.devRef_ne_of_ne (by decide)) _ _).symm)
  | 3 => ((D.dat0 (Vent0 m) q01 c).arrAt_in 3 rfl _).trans ((D.hA0 _ _ c 3).trans (Function.update_of_ne (StableHlo.devRef_ne_of_ne (by decide)) _ _).symm)
  | 4 => by
    show X0 D m c = Function.update (V3 m c) main_v27 (X0 D m c) main_v27
    rw [Function.update_self]
  | ⟨_ + 5, h⟩ => absurd h (Nat.not_lt.2 (Nat.le_add_left _ _))
/-- Off region 0's arrays nothing changes. -/
theorem hrest0 (c : Dev nD) (b : Ref sig .tc) (hb : b ∉ Finset.univ.image (Pipeline.arrRef spec0)) : U4 D m c b = V3 m c b :=
  Function.update_of_ne (StableHlo.devRef_ne_of_ne (x := b) (y := main_v27) (by rintro rfl; exact hb (by decide))) _ _

set_option backward.isDefEq.respectTransparency.types false in
/-- REGION 0 (custom_call 0) over the thread state: entered from every unscoped buffer at `V3`, left at `V4`. The four
    buffers behind its five windows split out of the unscoped buffers, the one windows 2 and 3 share in its two halves,
    and go back whole at the exit contents; the generator register goes into the class invariant and comes out; nothing
    is owed; the kernel has no semaphore of its own. -/
def reg0 : Pipeline.RegionSeg (pcfgs (F := F)) adm (pdats D m) () defs₀ Variants.none noL nolv 0 where
  win := winFacts₀0
  block_pos := block_pos0
  stage_whole := stage_whole0
  K := PEmpty
  osem k := k.elim
  ho := Pipeline.OwnSemFacts.none _
  hbody c := (D.hbody0 (Vent0 m) q01 c).loose
  hwaits := Pipeline.hwaits_of_owed_zero _ _ _ _ noL nolv 0 fun c t => D.howed0 _ _ c t
  pre c := iprop(StableHlo.held (c : Thread nD τ) (Pipeline.ucRefs τ sig) (V3 m c) ∗ Ride c)
  post c := iprop(StableHlo.held (c : Thread nD τ) (Pipeline.ucRefs τ sig) (V4 m (outs D m) c) ∗ Ride c)
  X c := iprop(∃ r, prngReg c r)
  Y c := iprop(∃ r, prngReg c r)
  Z c := Pipeline.unscopedRest (Ix := Unit) (Name := ℕ) (U := UR sig nD τ) (Lvl := ℕ) spec0 c (Vent0 m c)
  hentry c := by
    rw [Pipeline.ownSems0_none]
    have hsplit := arrays0_of_unscopedBufs c (pdats D m 0 c) (D.hq0 _ _ c) (Vent0 m c) fun w => D.hA0 _ _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · iapply (owesAt_of_owes c (pdats D m 0 c) (D.howed0 _ _ c 0) (D.hrec0 _ _ c)); iexact HO
    isplitl [Hp]; · iexact Hp
    iexact Hrest
  hin c := by
    rw [show (pdats D m 0 c).Φ 0 = Pipeline.ΦA spec0 c from D.hΦ0z _ _ c]; unfold Pipeline.ΦA
    iintro ⟨Hp, -, Hr⟩
    isplitl [Hr]; · iexact Hr
    iexact Hp
  hout c := by
    rw [Pipeline.ownSems0_none]
    refine (show (pdats D m 0 c).Φ (Fin.last _) ⊢ Pipeline.ΦA spec0 c from D.hΦ0l _ _ c).trans ?_
    unfold Pipeline.ΦA
    iintro ⟨Hr, Hp⟩
    isplitl [Hp]; · iexact Hp
    isplitr; · iempintro
    iexact Hr
  hexit c := by
    rw [V4_eq D m c]
    have hjoin := unscopedBufs_of_arrays0 c (pdats D m 0 c) (D.hq0 _ _ c) (Vent0 m c) (fun b => U4 D m c b)
      ((pdats D m 0 c).arrAt · cfg0.N) (hF0 D m c) (hrest0 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt c (pdats D m 0 c) (D.howed0 _ _ c _)); iexact HO

/-! ## Region 1: region 0 again, on other buffers -/

/-- At region 1's exit each of its arrays holds what the valuation after it says: the output what the pipeline leaves,
    an input — never written — what the region was entered from. -/
theorem hF1 (c : Dev nD) : ∀ w : Fin 5, (D.dat1 (Vent1 D m) q01 c).arrAt w cfg1.N = U6 D m c (Pipeline.arrRef spec1 w)
  | 0 => ((D.dat1 (Vent1 D m) q01 c).arrAt_in 0 rfl _).trans ((D.hA1 _ _ c 0).trans (Function.update_of_ne (StableHlo.devRef_ne_of_ne (by decide)) _ _).symm)
  | 1 => ((D.dat1 (Vent1 D m) q01 c).arrAt_in 1 rfl _).trans ((D.hA1 _ _ c 1).trans (Function.update_of_ne (StableHlo.devRef_ne_of_ne (by decide)) _ _).symm)
  | 2 => ((D.dat1 (Vent1 D m) q01 c).arrAt_in 2 rfl _).trans ((D.hA1 _ _ c 2).trans (Function.update_of_ne (StableHlo.devRef_ne_of_ne (by decide)) _ _).symm)
  | 3 => ((D.dat1 (Vent1 D m) q01 c).arrAt_in 3 rfl _).trans ((D.hA1 _ _ c 3).trans (Function.update_of_ne (StableHlo.devRef_ne_of_ne (by decide)) _ _).symm)
  | 4 => by
    show X1 D m c = Function.update (U5 D m c) main_v29 (X1 D m c) main_v29
    rw [Function.update_self]
  | ⟨_ + 5, h⟩ => absurd h (Nat.not_lt.2 (Nat.le_add_left _ _))
/-- Off region 1's arrays nothing changes. -/
theorem hrest1 (c : Dev nD) (b : Ref sig .tc) (hb : b ∉ Finset.univ.image (Pipeline.arrRef spec1)) : U6 D m c b = U5 D m c b :=
  Function.update_of_ne (StableHlo.devRef_ne_of_ne (x := b) (y := main_v29) (by rintro rfl; exact hb (by decide))) _ _

set_option backward.isDefEq.respectTransparency.types false in
/-- REGION 1 (custom_call 1) over the thread state: entered from every unscoped buffer at `V5`, left at `V6`; otherwise
    as region 0. -/
def reg1 : Pipeline.RegionSeg (pcfgs (F := F)) adm (pdats D m) () defs₀ Variants.none noL nolv 1 where
  win := winFacts₀1
  block_pos := block_pos1
  stage_whole := stage_whole1
  K := PEmpty
  osem k := k.elim
  ho := Pipeline.OwnSemFacts.none _
  hbody c := (D.hbody1 (Vent1 D m) q01 c).loose
  hwaits := Pipeline.hwaits_of_owed_zero _ _ _ _ noL nolv 1 fun c t => D.howed1 _ _ c t
  pre c := iprop(StableHlo.held (c : Thread nD τ) (Pipeline.ucRefs τ sig) (V5 m (outs D m) c) ∗ Ride c)
  post c := iprop(StableHlo.held (c : Thread nD τ) (Pipeline.ucRefs τ sig) (V6 m (outs D m) c) ∗ Ride c)
  X c := iprop(∃ r, prngReg c r)
  Y c := iprop(∃ r, prngReg c r)
  Z c := Pipeline.unscopedRest (Ix := Unit) (Name := ℕ) (U := UR sig nD τ) (Lvl := ℕ) spec1 c (Vent1 D m c)
  hentry c := by
    rw [Pipeline.ownSems0_none, V5_eq D m c]
    have hsplit := arrays1_of_unscopedBufs c (pdats D m 1 c) (D.hq1 _ _ c) (Vent1 D m c) fun w => D.hA1 _ _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · iapply (owesAt_of_owes c (pdats D m 1 c) (D.howed1 _ _ c 0) (D.hrec1 _ _ c)); iexact HO
    isplitl [Hp]; · iexact Hp
    iexact Hrest
  hin c := by
    rw [show (pdats D m 1 c).Φ 0 = Pipeline.ΦA spec1 c from D.hΦ1z _ _ c]; unfold Pipeline.ΦA
    iintro ⟨Hp, -, Hr⟩
    isplitl [Hr]; · iexact Hr
    iexact Hp
  hout c := by
    rw [Pipeline.ownSems0_none]
    refine (show (pdats D m 1 c).Φ (Fin.last _) ⊢ Pipeline.ΦA spec1 c from D.hΦ1l _ _ c).trans ?_
    unfold Pipeline.ΦA
    iintro ⟨Hr, Hp⟩
    isplitl [Hp]; · iexact Hp
    isplitr; · iempintro
    iexact Hr
  hexit c := by
    rw [V6_eq D m c]
    have hjoin := unscopedBufs_of_arrays1 c (pdats D m 1 c) (D.hq1 _ _ c) (Vent1 D m c) (fun b => U6 D m c b)
      ((pdats D m 1 c).arrAt · cfg1.N) (hF1 D m c) (hrest1 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt c (pdats D m 1 c) (D.howed1 _ _ c _)); iexact HO

/-! ## The run of @main

`Pipeline.θ_run_regions_kit_dev` over @main's eight items: the five host stretches as the generated host segments
(`seg0 seg1 seg2 seg4 seg6`, through `segs`), the three regions as the records above; the thread state between two items
is every unscoped buffer at the generated valuation there (`V0 … V8`, the regions' outputs computed by `outs`) beside
`Ride`. -/

/-- @main's items as segments on core `c`. -/
abbrev mainSegs (c : Dev nD) : List (Pipeline.Seg (pcfgs (F := F)) adm (pdats D m) () defs₀ Variants.none noL nolv) :=
  segs m (outs D m) Variants.none noL nolv (fun _ c => Ride c) () (pdats D m) (reg0 D m) (reg1 D m) (reg2 D m) c

/-- @main is the run of those segments: it is the chain of its items (the generated `main_chain`), a list of
    segments runs as the chain of their fragments (`Seg.run_eq_chain`), and the two lists of fragments are the same. -/
theorem main_run (c : Dev nD) : main (F := F) c = Pipeline.Seg.run (mainSegs D m c) := by
  rw [main_chain c, Pipeline.Seg.run_eq_chain]; rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The result buffer at the return holds what region 2's pipeline leaves in it. -/
theorem V8_main_v39 (c : Dev nD) : V8 m (outs D m) c main_v39 = X2 D m c := by
  rw [V8_eq D m c]
  show Function.update (U7 D m c) main_v39 (X2 D m c) main_v39 = _
  rw [Function.update_self]

set_option backward.isDefEq.respectTransparency.types false in
/-- THE RUN. From any memory `m` with zero counters and any generator registers, every weakly fair execution of @main on
    the TensorCores terminates, and every final memory holds in the result buffer `main_v39` what region 2's pipeline
    leaves there — its proof data built over the buffers' contents at its entry, themselves computed through regions 0
    and 1 — and holds each argument as launched. -/
theorem run_main_of (ρ : Dev nD → PrngReg) :
    θ_run defs (onTc (τ := τ) (main (F := F))) ⟨m, fun _ => 0, ρ⟩ (fun r => ∀ c : Dev nD,
      r.2.mem ((c.tc : Thread nD τ).loc main_v39) = X2 D m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm (pdats D m) () cellOf_inj emb₁ defs₀ Variants.none noL nolv m ρ main
    (mainSegs D m)
    (fun c Q => by rw [main_run D m c])
    (fun c => by simp only [mainSegs, segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ Ride c))
    (Tₙ := fun c => iprop(StableHlo.held (c : Thread nD τ) (Pipeline.ucRefs τ sig) (V8 m (outs D m) c) ∗ ∃ r, prngReg c r))
    (hch := fun c => ⟨.rfl, .rfl, .rfl, .rfl, .rfl, .rfl, .rfl, .rfl, ?_⟩)
    (hinit := ?_)
    (QY := fun c s => ∀ b ∈ Pipeline.ucRefs τ sig, s.mem (((c : Thread nD τ)).1, b) = V8 m (outs D m) c b)
    (hfin := fun c s' => ?_)
    (hQ := fun s h c => ⟨(h c _ (mem_uc main_v39 (by decide))).trans (V8_main_v39 D m c),
      (h c _ (mem_uc main_arg0 (by decide))).trans (V8_main_arg0 m (outs D m) c),
      (h c _ (mem_uc main_arg1 (by decide))).trans (V8_main_arg1 m (outs D m) c),
      (h c _ (mem_uc main_arg2 (by decide))).trans (V8_main_arg2 m (outs D m) c),
      (h c _ (mem_uc main_arg3 (by decide))).trans (V8_main_arg3 m (outs D m) c)⟩)
  · -- the launch element is the pipeline library's alone, owned through the one user component; no ghost resource besides
    rw [ownU_emb₁]
    iintro Hu
    imodintro
    isplitl [Hu]; · iexact Hu
    rw [BI.bigSep_emp_const]; iempintro
  · -- the last region leaves the buffers, the generator register and the core owing nothing: regrouped
    show iprop(StableHlo.held (c : Thread nD τ) (Pipeline.ucRefs τ sig) (V8 m (outs D m) c) ∗ Ride c) ⊢ _
    iintro ⟨Hh, Hp, HO⟩
    isplitl [Hh Hp]
    · isplitl [Hh]; · iexact Hh
      iexact Hp
    iexact HO
  · -- the launch, core by core: the unscoped buffers are held at the launch contents, the register is at its launch
    -- state, the core owes nothing and has recorded nothing
    refine Pipeline.initEach noL nolv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨⟨Hh, -⟩, HSI⟩
    unfold StableHlo.held
    imodintro
    iapply (pointsTo_read_all (Pipeline.ucRefs τ sig) (fun b => (((c : Thread nD τ)).1, b)) (V8 m (outs D m) c) s')
    isplitl [Hh] <;> iassumption

end Run

/-- `X2` spelt out: what region 2's pipeline leaves in its output array, over the buffers' contents at its entry. -/
theorem X2_eq (D : RegionData F) (m : (ℓ : Loc nD τ sig) → Buf (Elt F) ℓ) (c : Dev nD) :
    X2 D m c = (D.dat2 (Vent2 D m) c).arrAt 3 cfg2.N := rfl

/-- THE RUN, from the three regions' proof data and what is proved of them taken one by one (`RegionData`'s fields, in
    its order). -/
theorem run_main
    (dat0 : TcBufs F → (Fin cfg0.W → PosShare TreeShare) → (c : Dev nD) → Dat τ (Elt F) Unit ℕ (UR sig nD τ) ℕ cfg0 c)
    (dat1 : TcBufs F → (Fin cfg1.W → PosShare TreeShare) → (c : Dev nD) → Dat τ (Elt F) Unit ℕ (UR sig nD τ) ℕ cfg1 c)
    (dat2 : TcBufs F → (c : Dev nD) → Dat τ (Elt F) Unit ℕ (UR sig nD τ) ℕ cfg2 c)
    (hA0 : ∀ V q c w, (dat0 V q c).A w = V c (Pipeline.arrRef spec0 w))
    (hA1 : ∀ V q c w, (dat1 V q c).A w = V c (Pipeline.arrRef spec1 w))
    (hA2 : ∀ V c w, (dat2 V c).A w = V c (Pipeline.arrRef spec2 w))
    (hq0 : ∀ V q c, (dat0 V q c).q = q) (hq1 : ∀ V q c, (dat1 V q c).q = q) (hq2 : ∀ V c w, (dat2 V c).q w = fullShare)
    (hΦ0z : ∀ V q c, (dat0 V q c).Φ 0 = Pipeline.ΦA spec0 c) (hΦ0l : ∀ V q c, (dat0 V q c).Φ (Fin.last cfg0.N) ⊢ Pipeline.ΦA spec0 c)
    (hΦ1z : ∀ V q c, (dat1 V q c).Φ 0 = Pipeline.ΦA spec1 c) (hΦ1l : ∀ V q c, (dat1 V q c).Φ (Fin.last cfg1.N) ⊢ Pipeline.ΦA spec1 c)
    (hΦ2z : ∀ V c, (dat2 V c).Φ 0 = Pipeline.ΦA spec2 c) (hΦ2l : ∀ V c, (dat2 V c).Φ (Fin.last cfg2.N) ⊢ Pipeline.ΦA spec2 c)
    (howed0 : ∀ V q c t, (dat0 V q c).owed t = 0) (howed1 : ∀ V q c t, (dat1 V q c).owed t = 0) (howed2 : ∀ V c t, (dat2 V c).owed t = 0)
    (hrec0 : ∀ V q c, (dat0 V q c).recorded 0 = Set.univ) (hrec1 : ∀ V q c, (dat1 V q c).recorded 0 = Set.univ)
    (hrec2 : ∀ V c, (dat2 V c).recorded 0 = Set.univ)
    (hbody0 : ∀ V q c, BodyObligation (dat0 V q c) (defs₀ (F := F)) Variants.none () Set.univ)
    (hbody1 : ∀ V q c, BodyObligation (dat1 V q c) (defs₀ (F := F)) Variants.none () Set.univ)
    (hbody2 : ∀ V c, BodyObligation (dat2 V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v39)
        = (dat2 (Vent2 ⟨dat0, dat1, dat2, hA0, hA1, hA2, hq0, hq1, hq2, hΦ0z, hΦ0l, hΦ1z, hΦ1l, hΦ2z, hΦ2l, howed0, howed1, howed2,
            hrec0, hrec1, hrec2, hbody0, hbody1, hbody2⟩ m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main_of ⟨dat0, dat1, dat2, hA0, hA1, hA2, hq0, hq1, hq2, hΦ0z, hΦ0l, hΦ1z, hΦ1l, hΦ2z, hΦ2l, howed0, howed1, howed2,
    hrec0, hrec1, hrec2, hbody0, hbody1, hbody2⟩ m ρ

end Cert.Kernel.H
end
-- ==== Proof.K.Data.lean ====
/-
  The three regions' proof data put together, and the kernel program's run through them: every weakly fair execution
  ends, faults nowhere, leaves in the result buffer what the third region's pipeline writes there, and leaves every
  argument array as it was launched.
-/
import proofs.«138934_j78142634983584_1_alg».proof.Proof.Gen.Kernel.Launch
import proofs.«138934_j78142634983584_1_alg».proof.Proof.Gen.Kernel.Skeleton
import proofs.«138934_j78142634983584_1_alg».proof.Proof.Gen.Kernel.Points
import proofs.«138934_j78142634983584_1_alg».proof.Proof.Gen.Kernel.Regions
import proofs.«138934_j78142634983584_1_alg».proof.Proof.K.R0
import proofs.«138934_j78142634983584_1_alg».proof.Proof.K.R1
import proofs.«138934_j78142634983584_1_alg».proof.Proof.K.R2
import proofs.«138934_j78142634983584_1_alg».proof.Proof.K.Assemble
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

/-- What the run needs of the three regions: their proof data over the buffers' contents at entry, that the arrays start
    there, that the invariant at either end is the scoped rest with the generator register, that nothing is owed, and
    that each kernel body meets its obligation at every grid point. -/
def regionData : RegionData F where
  dat0 := fun V q c => dat0 V q c
  dat1 := fun V q c => dat1 V q c
  dat2 := fun V c => dat2 V c
  hA0 := fun V q c w => A_eq0 V q c w
  hA1 := fun V q c w => A_eq1 V q c w
  hA2 := fun V c w => A_eq2 V c w
  hq0 := fun _ _ _ => rfl
  hq1 := fun _ _ _ => rfl
  hq2 := fun _ _ _ => rfl
  hΦ0z := fun V q c => Phi0_zero V q c
  hΦ0l := fun V q c => Phi0_last V q c
  hΦ1z := fun V q c => Phi1_zero V q c
  hΦ1l := fun V q c => Phi1_last V q c
  hΦ2z := fun _ _ => rfl
  hΦ2l := fun _ _ => .rfl
  howed0 := fun _ _ _ _ => rfl
  howed1 := fun _ _ _ _ => rfl
  howed2 := fun _ _ _ => rfl
  hrec0 := fun _ _ _ => rfl
  hrec1 := fun _ _ _ => rfl
  hrec2 := fun _ _ => rfl
  hbody0 := fun V q c => body_obligation0 V q c
  hbody1 := fun V q c => body_obligation1 V q c
  hbody2 := fun V c => body_obligation2 V c

variable (m : (ℓ : Loc nD τ sig) → Buf (Elt F) ℓ) (ρ : Dev nD → PrngReg)

/-- The kernel program's run: it ends, the result buffer holds what the third region leaves, the arguments are unchanged. -/
theorem run :
    θ_run defs (onTc (τ := τ) (main (F := F))) ⟨m, fun _ => 0, ρ⟩ (fun r => ∀ c : Dev nD,
      r.2.mem ((c.tc : Thread nD τ).loc main_v39) = X2 (regionData (F := F)) m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main_of regionData m ρ

/-- In particular it ends with every argument array as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.Kernel.H

end
-- ==== Proof.lean ====
/-
  The claim's five parts.

  * Both kernel programs — the one read at words and its idealisation, the same text — run through their three pipelined
    regions to the end and write no argument array: two applications of the normalised adjacency, `r ↦ d · (A (d · r))`,
    each a blocked matrix product accumulated over eight column blocks in a buffer that lives from one grid point to the
    next, and one product with the three weight matrices (`Cert.Kernel.H.frame`, `Cert.KernelIdeal.H.frame`).
  * The reference is a straight line of host operations, so it runs to the end and writes no argument.
  * The idealisation rewrote nothing, so `preserves` is `True`.
  * The idealised kernel and the idealised reference end with equal results: with `L = I − D^{-1/2} A D^{-1/2}` the kernel
    applies `L` to vectors, `Y₀ = x`, `Y₁ = Y₀ − S Y₀`, `Y₂ = 2 (Y₁ − S Y₁) − Y₀`, where the reference forms the Chebyshev
    matrices `I`, `L`, `2·L·L − I` first; the two agree by associativity of the matrix product and distributivity, which
    hold because every entry is a real number (`Cert.Proof.Main.algebraic`).
-/
import proofs.«138934_j78142634983584_1_alg».proof.Defs
import proofs.«138934_j78142634983584_1_alg».proof.Proof.Gen.Kernel
import proofs.«138934_j78142634983584_1_alg».proof.Proof.Gen.KernelIdeal
import proofs.«138934_j78142634983584_1_alg».proof.Proof.Gen.ReferenceIdeal
import proofs.«138934_j78142634983584_1_alg».proof.Proof.Gen.Pre_finite_inputs
import proofs.«138934_j78142634983584_1_alg».proof.Proof.RefFrame
import proofs.«138934_j78142634983584_1_alg».proof.Proof.KI.Final
import proofs.«138934_j78142634983584_1_alg».proof.Proof.K.Data
import Idealize.ShloMosaic.Adequacy
import Idealize.ShloMosaic.Init

noncomputable section

namespace Cert.Proof

open Idealize.ShloMosaic Idealize.SL.Sem

/-- The kernel program read at words runs to the end and leaves its arguments unchanged. -/
theorem frame_k : Cert.frame_Kernel := fun m ρ _ => Cert.Kernel.H.frame (F := Bits) m ρ

theorem claim : Cert.Claim :=
  ⟨Cert.Kernel.Gen.facts, Cert.KernelIdeal.Gen.facts, Cert.ReferenceIdeal.Gen.facts, Cert.Pre_finite_inputs.Gen.facts,
    frame_k, Cert.Proof.Main.frame_ki, Cert.Proof.RefFrame.frame_ri, trivial, Cert.Proof.Main.algebraic⟩

end Cert.Proof

end
